-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x256000 : Shape := ⟨3, ![2, 64, 256000]⟩
abbrev S64x256000 : Shape := ⟨2, ![64, 256000]⟩
abbrev S_ : Shape := ⟨0, ![]⟩

class Facts : Prop where
  bcast_S_S2x64x256000 : S_.BroadcastsInDim S2x64x256000 (![] : Fin 0 → Fin S2x64x256000.rank)
  reducesTo_S2x64x256000_S_d0_1_2 : S2x64x256000.ReducesTo [0, 1, 2] S_
  h_S_ : 0 < S_.numel
  bcast_S_S64x256000 : S_.BroadcastsInDim S64x256000 (![] : Fin 0 → Fin S64x256000.rank)
  reducesTo_S64x256000_S_d0_1 : S64x256000.ReducesTo [0, 1] S_

variable [Facts]

def fn {F : FTy → Type} [FloatOps F] (main_arg0 : FVec F S2x64x256000 .f32) (main_arg1 : FVec F S64x256000 .f32) (main_arg2 : FVec F S64x256000 .f32) : IVec S_ 1 :=
  let main_v0 : FVec F S2x64x256000 .f32 := Host.absf main_arg0
  let main_cst : FVec F S_ .f32 := constant S_ .f32 0x7F800000#32
  let main_v1 : FVec F S2x64x256000 .f32 := broadcastInDim S2x64x256000 ![] bcast_S_S2x64x256000 main_cst
  let main_v2 : IVec S2x64x256000 1 := cmpf .olt main_v0 main_v1
  let main_c : IVec S_ 1 := constantI S_ 1 1#1
  let main_v3 : IVec S_ 1 := (fun x v => Host.reduce IntOp.andi x v reducesTo_S2x64x256000_S_d0_1_2 h_S_) main_v2 main_c
  let main_v4 : FVec F S64x256000 .f32 := Host.absf main_arg1
  let main_cst_0 : FVec F S_ .f32 := constant S_ .f32 0x7F800000#32
  let main_v5 : FVec F S64x256000 .f32 := broadcastInDim S64x256000 ![] bcast_S_S64x256000 main_cst_0
  let main_v6 : IVec S64x256000 1 := cmpf .olt main_v4 main_v5
  let main_c_1 : IVec S_ 1 := constantI S_ 1 1#1
  let main_v7 : IVec S_ 1 := (fun x v => Host.reduce IntOp.andi x v reducesTo_S64x256000_S_d0_1 h_S_) main_v6 main_c_1
  let main_v8 : IVec S_ 1 := andi main_v3 main_v7
  let main_v9 : FVec F S64x256000 .f32 := Host.absf main_arg2
  let main_cst_2 : FVec F S_ .f32 := constant S_ .f32 0x7F800000#32
  let main_v10 : FVec F S64x256000 .f32 := broadcastInDim S64x256000 ![] bcast_S_S64x256000 main_cst_2
  let main_v11 : IVec S64x256000 1 := cmpf .olt main_v9 main_v10
  let main_c_3 : IVec S_ 1 := constantI S_ 1 1#1
  let main_v12 : IVec S_ 1 := (fun x v => Host.reduce IntOp.andi x v reducesTo_S64x256000_S_d0_1 h_S_) main_v11 main_c_3
  let main_v13 : IVec S_ 1 := andi main_v8 main_v12
  main_v13
-- ==== Kernel.lean ====
abbrev S2x64x256000 : Shape := ⟨3, ![2, 64, 256000]⟩
abbrev S64x256000 : Shape := ⟨2, ![64, 256000]⟩
abbrev S64x8 : Shape := ⟨2, ![64, 8]⟩
abbrev S2x16x64000 : Shape := ⟨3, ![2, 16, 64000]⟩
abbrev S16x64000 : Shape := ⟨2, ![16, 64000]⟩
abbrev S16x8 : Shape := ⟨2, ![16, 8]⟩
abbrev S1x16x64000 : Shape := ⟨3, ![1, 16, 64000]⟩
abbrev S16x1 : Shape := ⟨2, ![16, 1]⟩
abbrev S16 : Shape := ⟨1, ![16]⟩
abbrev S64x1 : Shape := ⟨2, ![64, 1]⟩
abbrev S64 : Shape := ⟨1, ![64]⟩
abbrev S_ : Shape := ⟨0, ![]⟩

abbrev nBuf : Space → Nat
  | .hbm => 170
  | .vmem => 9
  | .smem => 0
  | _ => 0

abbrev hbmTy0_0 (i : Nat) : BufTy := match i % 128 with
  | 0 => ⟨S2x64x256000, .f32⟩
  | 1 => ⟨S64x256000, .f32⟩
  | 2 => ⟨S64x256000, .f32⟩
  | 3 => ⟨S64x8, .f32⟩
  | 4 => ⟨S64x1, .f32⟩
  | 5 => ⟨S64, .f32⟩
  | 6 => ⟨S64x1, .f32⟩
  | 7 => ⟨S64, .f32⟩
  | 8 => ⟨S64x1, .f32⟩
  | 9 => ⟨S64, .f32⟩
  | 10 => ⟨S64x1, .f32⟩
  | 11 => ⟨S64, .f32⟩
  | 12 => ⟨S64x1, .f32⟩
  | 13 => ⟨S64, .f32⟩
  | 14 => ⟨S64x1, .f32⟩
  | 15 => ⟨S64, .f32⟩
  | 16 => ⟨S64x1, .f32⟩
  | 17 => ⟨S64, .f32⟩
  | 18 => ⟨S64x1, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S64, .f32⟩
  | 27 => ⟨S64, .f32⟩
  | 28 => ⟨S64, .f32⟩
  | 29 => ⟨S_, .f32⟩
  | 30 => ⟨S64, .f32⟩
  | 31 => ⟨S64, .f32⟩
  | 32 => ⟨S64, .f32⟩
  | 33 => ⟨S64, .f32⟩
  | 34 => ⟨S64, .f32⟩
  | 35 => ⟨S64, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S64, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S64, .f32⟩
  | 61 => ⟨S64, .f32⟩
  | 62 => ⟨S64, .f32⟩
  | 63 => ⟨S_, .f32⟩
  | 64 => ⟨S64, .f32⟩
  | 65 => ⟨S64, .f32⟩
  | 66 => ⟨S64, .f32⟩
  | 67 => ⟨S64, .f32⟩
  | 68 => ⟨S64, .f32⟩
  | 69 => ⟨S64, .f32⟩
  | 70 => ⟨S64, .f32⟩
  | 71 => ⟨S_, .f32⟩
  | 72 => ⟨S64, .f32⟩
  | 73 => ⟨S64, .f32⟩
  | 74 => ⟨S_, .f32⟩
  | 75 => ⟨S64, .f32⟩
  | 76 => ⟨S64, .f32⟩
  | 77 => ⟨S_, .f32⟩
  | 78 => ⟨S64, .f32⟩
  | 79 => ⟨S64, .f32⟩
  | 80 => ⟨S64, .f32⟩
  | 81 => ⟨S64, .f32⟩
  | 82 => ⟨S_, .f32⟩
  | 83 => ⟨S64, .f32⟩
  | 84 => ⟨S64, .f32⟩
  | 85 => ⟨S_, .f32⟩
  | 86 => ⟨S64, .f32⟩
  | 87 => ⟨S64, .f32⟩
  | 88 => ⟨S64, .f32⟩
  | 89 => ⟨S_, .f32⟩
  | 90 => ⟨S64, .f32⟩
  | 91 => ⟨S64, .f32⟩
  | 92 => ⟨S_, .f32⟩
  | 93 => ⟨S64, .f32⟩
  | 94 => ⟨S64, .f32⟩
  | 95 => ⟨S_, .f32⟩
  | 96 => ⟨S64, .f32⟩
  | 97 => ⟨S64, .f32⟩
  | 98 => ⟨S64, .f32⟩
  | 99 => ⟨S64, .f32⟩
  | 100 => ⟨S64, .f32⟩
  | 101 => ⟨S_, .f32⟩
  | 102 => ⟨S64, .f32⟩
  | 103 => ⟨S64, .f32⟩
  | 104 => ⟨S64, .f32⟩
  | 105 => ⟨S64, .f32⟩
  | 106 => ⟨S64, .f32⟩
  | 107 => ⟨S64, .f32⟩
  | 108 => ⟨S64, .f32⟩
  | 109 => ⟨S_, .f32⟩
  | 110 => ⟨S64, .f32⟩
  | 111 => ⟨S64, .f32⟩
  | 112 => ⟨S_, .f32⟩
  | 113 => ⟨S64, .f32⟩
  | 114 => ⟨S64, .f32⟩
  | 115 => ⟨S_, .f32⟩
  | 116 => ⟨S64, .f32⟩
  | 117 => ⟨S64, .f32⟩
  | 118 => ⟨S64, .f32⟩
  | 119 => ⟨S64, .f32⟩
  | 120 => ⟨S_, .f32⟩
  | 121 => ⟨S64, .f32⟩
  | 122 => ⟨S64, .f32⟩
  | 123 => ⟨S_, .f32⟩
  | 124 => ⟨S64, .f32⟩
  | 125 => ⟨S64, .f32⟩
  | 126 => ⟨S_, .f32⟩
  | 127 => ⟨S64, .f32⟩
  | _ => ⟨S2x64x256000, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64, .f32⟩
  | 5 => ⟨S64, .f32⟩
  | 6 => ⟨S64, .f32⟩
  | 7 => ⟨S_, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64, .f32⟩
  | 15 => ⟨S_, .f32⟩
  | 16 => ⟨S64, .f32⟩
  | 17 => ⟨S64, .f32⟩
  | 18 => ⟨S_, .f32⟩
  | 19 => ⟨S64, .f32⟩
  | 20 => ⟨S64, .f32⟩
  | 21 => ⟨S_, .f32⟩
  | 22 => ⟨S64, .f32⟩
  | 23 => ⟨S64, .f32⟩
  | 24 => ⟨S64, .f32⟩
  | 25 => ⟨S64, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S64, .f32⟩
  | 33 => ⟨S_, .f32⟩
  | 34 => ⟨S64, .f32⟩
  | 35 => ⟨S64, .f32⟩
  | 36 => ⟨S64, .f32⟩
  | 37 => ⟨S_, .f32⟩
  | 38 => ⟨S_, .f32⟩
  | 39 => ⟨S_, .f32⟩
  | 40 => ⟨S_, .f32⟩
  | 41 => ⟨S_, .f32⟩
  | _ => ⟨S2x64x256000, .f32⟩

abbrev hbmTy (i : Nat) : BufTy := match i / 128 with
  | 0 => hbmTy0_0 i
  | 1 => hbmTy0_1 i
  | _ => ⟨S2x64x256000, .f32⟩

abbrev bufTy : (tb : Table) → Fin (tcTables nBuf tb) → BufTy
  | .hbm, ⟨i, _⟩ => hbmTy i
  | .local _ .vmem, ⟨0, _⟩ => ⟨S2x16x64000, .f32⟩
  | .local _ .vmem, ⟨1, _⟩ => ⟨S2x16x64000, .f32⟩
  | .local _ .vmem, ⟨2, _⟩ => ⟨S16x64000, .f32⟩
  | .local _ .vmem, ⟨3, _⟩ => ⟨S16x64000, .f32⟩
  | .local _ .vmem, ⟨4, _⟩ => ⟨S16x64000, .f32⟩
  | .local _ .vmem, ⟨5, _⟩ => ⟨S16x64000, .f32⟩
  | .local _ .vmem, ⟨6, _⟩ => ⟨S16x8, .f32⟩
  | .local _ .vmem, ⟨7, _⟩ => ⟨S16x8, .f32⟩
  | .local _ .vmem, ⟨8, _⟩ => ⟨S16x8, .f32⟩
  | _, _ => ⟨S2x64x256000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_9 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_cst_14 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_15 : Ref sig .tc := ⟨.hbm, 89, rfl⟩
abbrev main_v70 : Ref sig .tc := ⟨.hbm, 90, rfl⟩
abbrev main_v71 : Ref sig .tc := ⟨.hbm, 91, rfl⟩
abbrev main_cst_16 : Ref sig .tc := ⟨.hbm, 92, rfl⟩
abbrev main_v72 : Ref sig .tc := ⟨.hbm, 93, rfl⟩
abbrev main_v73 : Ref sig .tc := ⟨.hbm, 94, rfl⟩
abbrev main_cst_17 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_18 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_19 : Ref sig .tc := ⟨.hbm, 109, rfl⟩
abbrev main_v86 : Ref sig .tc := ⟨.hbm, 110, rfl⟩
abbrev main_v87 : Ref sig .tc := ⟨.hbm, 111, rfl⟩
abbrev main_cst_20 : Ref sig .tc := ⟨.hbm, 112, rfl⟩
abbrev main_v88 : Ref sig .tc := ⟨.hbm, 113, rfl⟩
abbrev main_v89 : Ref sig .tc := ⟨.hbm, 114, rfl⟩
abbrev main_cst_21 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_22 : Ref sig .tc := ⟨.hbm, 120, rfl⟩
abbrev main_v94 : Ref sig .tc := ⟨.hbm, 121, rfl⟩
abbrev main_v95 : Ref sig .tc := ⟨.hbm, 122, rfl⟩
abbrev main_cst_23 : Ref sig .tc := ⟨.hbm, 123, rfl⟩
abbrev main_v96 : Ref sig .tc := ⟨.hbm, 124, rfl⟩
abbrev main_v97 : Ref sig .tc := ⟨.hbm, 125, rfl⟩
abbrev main_cst_24 : Ref sig .tc := ⟨.hbm, 126, rfl⟩
abbrev main_v98 : Ref sig .tc := ⟨.hbm, 127, rfl⟩
abbrev main_v99 : Ref sig .tc := ⟨.hbm, 128, rfl⟩
abbrev main_cst_25 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_26 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_27 : Ref sig .tc := ⟨.hbm, 143, rfl⟩
abbrev main_v112 : Ref sig .tc := ⟨.hbm, 144, rfl⟩
abbrev main_v113 : Ref sig .tc := ⟨.hbm, 145, rfl⟩
abbrev main_cst_28 : Ref sig .tc := ⟨.hbm, 146, rfl⟩
abbrev main_v114 : Ref sig .tc := ⟨.hbm, 147, rfl⟩
abbrev main_v115 : Ref sig .tc := ⟨.hbm, 148, rfl⟩
abbrev main_cst_29 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_cst_30 : Ref sig .tc := ⟨.hbm, 154, rfl⟩
abbrev main_v120 : Ref sig .tc := ⟨.hbm, 155, rfl⟩
abbrev main_v121 : Ref sig .tc := ⟨.hbm, 156, rfl⟩
abbrev main_cst_31 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_32 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_cst_33 : Ref sig .tc := ⟨.hbm, 165, rfl⟩
abbrev main_v128 : Ref sig .tc := ⟨.hbm, 166, rfl⟩
abbrev main_v129 : Ref sig .tc := ⟨.hbm, 167, rfl⟩
abbrev main_cst_34 : Ref sig .tc := ⟨.hbm, 168, rfl⟩
abbrev main_v130 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v73 : BitVec 1 := Scalar.cmpi .eq arg1 c3_i32
  let v74 : BitVec 32 := Scalar.extui v73
  let c0_i32_42 : BitVec 32 := 0#32
  let v75 : BitVec 1 := Scalar.cmpi .ne v74 c0_i32_42
  v75

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x16x64000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x64000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x64000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S2x16x64000_S1x16x64000_0_0_0 : ∀ a, (![0, 0, 0] : Fin 3 → Nat) a + S1x16x64000.size a ≤ S2x16x64000.size a
  h_S1x16x64000 : 0 < S1x16x64000.numel
  shapeCasts_S1x16x64000_S16x64000 : S1x16x64000.ShapeCasts S16x64000
  inb_S2x16x64000_S1x16x64000_1_0_0 : ∀ a, (![1, 0, 0] : Fin 3 → Nat) a + S1x16x64000.size a ≤ S2x16x64000.size a
  inb_S16x64000_S16x64000_0_0 : ∀ a, (![0, 0] : Fin 2 → Nat) a + S16x64000.size a ≤ S16x64000.size a
  h_S16x64000 : 0 < S16x64000.numel
  inb_S16x8_S16x1_0_0 : ∀ a, (![0, 0] : Fin 2 → Nat) a + S16x1.size a ≤ S16x8.size a
  h_S16x1 : 0 < S16x1.numel
  reduces_S16x64000_S16 : S16x64000.Reduces [1] S16
  shapeCasts_S16_S16x1 : S16.ShapeCasts S16x1
  shapeCasts_S16x1_S16x1 : S16x1.ShapeCasts S16x1
  inb_S16x8_S16x1_0_1 : ∀ a, (![0, 1] : Fin 2 → Nat) a + S16x1.size a ≤ S16x8.size a
  inb_S16x8_S16x1_0_2 : ∀ a, (![0, 2] : Fin 2 → Nat) a + S16x1.size a ≤ S16x8.size a
  inb_S16x8_S16x1_0_3 : ∀ a, (![0, 3] : Fin 2 → Nat) a + S16x1.size a ≤ S16x8.size a
  inb_S16x8_S16x1_0_4 : ∀ a, (![0, 4] : Fin 2 → Nat) a + S16x1.size a ≤ S16x8.size a
  inb_S16x8_S16x1_0_5 : ∀ a, (![0, 5] : Fin 2 → Nat) a + S16x1.size a ≤ S16x8.size a
  inb_S16x8_S16x1_0_6 : ∀ a, (![0, 6] : Fin 2 → Nat) a + S16x1.size a ≤ S16x8.size a
  inb_S16x8_S16x1_0_7 : ∀ a, (![0, 7] : Fin 2 → Nat) a + S16x1.size a ≤ S16x8.size a
  slices_S64x8_S64x1_0_0 : S64x8.Slices ![0, 0] S64x1
  shapeCasts_S64x1_S64 : S64x1.ShapeCasts S64
  slices_S64x8_S64x1_0_1 : S64x8.Slices ![0, 1] S64x1
  slices_S64x8_S64x1_0_2 : S64x8.Slices ![0, 2] S64x1
  slices_S64x8_S64x1_0_3 : S64x8.Slices ![0, 3] S64x1
  slices_S64x8_S64x1_0_4 : S64x8.Slices ![0, 4] S64x1
  slices_S64x8_S64x1_0_5 : S64x8.Slices ![0, 5] S64x1
  slices_S64x8_S64x1_0_6 : S64x8.Slices ![0, 6] S64x1
  slices_S64x8_S64x1_0_7 : S64x8.Slices ![0, 7] S64x1
  bcast_S_S64 : S_.BroadcastsInDim S64 (![] : Fin 0 → Fin S64.rank)
  reducesTo_S64_S_d0 : S64.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16x64000.size a ≤ S2x64x256000.size a
  hwx0_0 : ∀ i : grid0.Coords, EltTy.bits .f32 = 32 ∨ (Rect.block (s := S2x64x256000) S2x16x64000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64000.size a ≤ S64x256000.size a
  hwx0_1 : ∀ i : grid0.Coords, EltTy.bits .f32 = 32 ∨ (Rect.block (s := S64x256000) S16x64000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64000.size a ≤ S64x256000.size a
  hwx0_2 : ∀ i : grid0.Coords, EltTy.bits .f32 = 32 ∨ (Rect.block (s := S64x256000) S16x64000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x8.size a ≤ S64x8.size a
  hwx0_3 : ∀ i : grid0.Coords, EltTy.bits .f32 = 32 ∨ (Rect.block (s := S64x8) S16x8.size (cc0_transform_3 i) (hinb0_3 i)).WholeWords (EltTy.packing .f32)

variable [Facts₀]

abbrev win0_0 : Pipeline.Window sig grid0 :=
  Pipeline.Window.ofSpec (Memref.whole main_arg0) S2x16x64000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x64000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x64x256000 : Shape := ⟨3, ![2, 64, 256000]⟩
abbrev S64x256000 : Shape := ⟨2, ![64, 256000]⟩
abbrev S_ : Shape := ⟨0, ![]⟩
abbrev S1x64x256000 : Shape := ⟨3, ![1, 64, 256000]⟩
abbrev S2x64 : Shape := ⟨2, ![2, 64]⟩
abbrev S2x64x1 : Shape := ⟨3, ![2, 64, 1]⟩
abbrev S64 : Shape := ⟨1, ![64]⟩

abbrev nBuf : Space → Nat
  | .hbm => 92
  | .vmem => 0
  | .smem => 0
  | _ => 0

abbrev bufTy : (tb : Table) → Fin (tcTables nBuf tb) → BufTy
  | .hbm, ⟨0, _⟩ => ⟨S2x64x256000, .f32⟩
  | .hbm, ⟨1, _⟩ => ⟨S64x256000, .f32⟩
  | .hbm, ⟨2, _⟩ => ⟨S64x256000, .f32⟩
  | .hbm, ⟨3, _⟩ => ⟨S_, .f32⟩
  | .hbm, ⟨4, _⟩ => ⟨S1x64x256000, .f32⟩
  | .hbm, ⟨5, _⟩ => ⟨S1x64x256000, .f32⟩
  | .hbm, ⟨6, _⟩ => ⟨S2x64x256000, .f32⟩
  | .hbm, ⟨7, _⟩ => ⟨S2x64x256000, .f32⟩
  | .hbm, ⟨8, _⟩ => ⟨S2x64x256000, .f32⟩
  | .hbm, ⟨9, _⟩ => ⟨S_, .f32⟩
  | .hbm, ⟨10, _⟩ => ⟨S2x64, .f32⟩
  | .hbm, ⟨11, _⟩ => ⟨S2x64x1, .f32⟩
  | .hbm, ⟨12, _⟩ => ⟨S2x64x1, .f32⟩
  | .hbm, ⟨13, _⟩ => ⟨S2x64x1, .f32⟩
  | .hbm, ⟨14, _⟩ => ⟨S2x64x256000, .f32⟩
  | .hbm, ⟨15, _⟩ => ⟨S_, .f32⟩
  | .hbm, ⟨16, _⟩ => ⟨S2x64, .f32⟩
  | .hbm, ⟨17, _⟩ => ⟨S2x64x1, .f32⟩
  | .hbm, ⟨18, _⟩ => ⟨S2x64x1, .f32⟩
  | .hbm, ⟨19, _⟩ => ⟨S2x64x1, .f32⟩
  | .hbm, ⟨20, _⟩ => ⟨S2x64x1, .f32⟩
  | .hbm, ⟨21, _⟩ => ⟨S2x64x256000, .f32⟩
  | .hbm, ⟨22, _⟩ => ⟨S2x64x256000, .f32⟩
  | .hbm, ⟨23, _⟩ => ⟨S2x64x256000, .f32⟩
  | .hbm, ⟨24, _⟩ => ⟨S2x64x256000, .f32⟩
  | .hbm, ⟨25, _⟩ => ⟨S_, .f32⟩
  | .hbm, ⟨26, _⟩ => ⟨S2x64, .f32⟩
  | .hbm, ⟨27, _⟩ => ⟨S2x64, .f32⟩
  | .hbm, ⟨28, _⟩ => ⟨S2x64, .f32⟩
  | .hbm, ⟨29, _⟩ => ⟨S2x64x256000, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S2x64, .f32⟩
  | .hbm, ⟨35, _⟩ => ⟨S2x64, .f32⟩
  | .hbm, ⟨36, _⟩ => ⟨S_, .f32⟩
  | .hbm, ⟨37, _⟩ => ⟨S2x64, .f32⟩
  | .hbm, ⟨38, _⟩ => ⟨S2x64, .f32⟩
  | .hbm, ⟨39, _⟩ => ⟨S_, .f32⟩
  | .hbm, ⟨40, _⟩ => ⟨S2x64, .f32⟩
  | .hbm, ⟨41, _⟩ => ⟨S2x64, .f32⟩
  | .hbm, ⟨42, _⟩ => ⟨S_, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S2x64x256000, .f32⟩
  | .hbm, ⟨48, _⟩ => ⟨S_, .f32⟩
  | .hbm, ⟨49, _⟩ => ⟨S2x64, .f32⟩
  | .hbm, ⟨50, _⟩ => ⟨S2x64x1, .f32⟩
  | .hbm, ⟨51, _⟩ => ⟨S2x64x1, .f32⟩
  | .hbm, ⟨52, _⟩ => ⟨S2x64x1, .f32⟩
  | .hbm, ⟨53, _⟩ => ⟨S2x64x256000, .f32⟩
  | .hbm, ⟨54, _⟩ => ⟨S_, .f32⟩
  | .hbm, ⟨55, _⟩ => ⟨S2x64, .f32⟩
  | .hbm, ⟨56, _⟩ => ⟨S2x64x1, .f32⟩
  | .hbm, ⟨57, _⟩ => ⟨S2x64x1, .f32⟩
  | .hbm, ⟨58, _⟩ => ⟨S2x64x1, .f32⟩
  | .hbm, ⟨59, _⟩ => ⟨S2x64x1, .f32⟩
  | .hbm, ⟨60, _⟩ => ⟨S2x64x256000, .f32⟩
  | .hbm, ⟨61, _⟩ => ⟨S2x64x256000, .f32⟩
  | .hbm, ⟨62, _⟩ => ⟨S2x64x256000, .f32⟩
  | .hbm, ⟨63, _⟩ => ⟨S2x64x256000, .f32⟩
  | .hbm, ⟨64, _⟩ => ⟨S_, .f32⟩
  | .hbm, ⟨65, _⟩ => ⟨S2x64, .f32⟩
  | .hbm, ⟨66, _⟩ => ⟨S2x64, .f32⟩
  | .hbm, ⟨67, _⟩ => ⟨S2x64, .f32⟩
  | .hbm, ⟨68, _⟩ => ⟨S2x64x256000, .f32⟩
  | .hbm, ⟨69, _⟩ => ⟨S_, .f32⟩
  | .hbm, ⟨70, _⟩ => ⟨S2x64, .f32⟩
  | .hbm, ⟨71, _⟩ => ⟨S2x64, .f32⟩
  | .hbm, ⟨72, _⟩ => ⟨S2x64, .f32⟩
  | .hbm, ⟨73, _⟩ => ⟨S2x64, .f32⟩
  | .hbm, ⟨74, _⟩ => ⟨S2x64, .f32⟩
  | .hbm, ⟨75, _⟩ => ⟨S_, .f32⟩
  | .hbm, ⟨76, _⟩ => ⟨S2x64, .f32⟩
  | .hbm, ⟨77, _⟩ => ⟨S2x64, .f32⟩
  | .hbm, ⟨78, _⟩ => ⟨S_, .f32⟩
  | .hbm, ⟨79, _⟩ => ⟨S2x64, .f32⟩
  | .hbm, ⟨80, _⟩ => ⟨S2x64, .f32⟩
  | .hbm, ⟨81, _⟩ => ⟨S_, .f32⟩
  | .hbm, ⟨82, _⟩ => ⟨S64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S2x64x256000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_cst_14 : Ref sig .tc := ⟨.hbm, 81, rfl⟩
abbrev main_v63 : Ref sig .tc := ⟨.hbm, 82, rfl⟩
abbrev main_cst_15 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_16 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩

abbrev nD : Nat := 1
abbrev τ : Topo := Topo.v7x

variable {F : FTy → Type} [FloatOps F]

class Facts₀ : Prop where
  bcast_S64x256000_S1x64x256000_1_2 : S64x256000.BroadcastsInDim S1x64x256000 (![1, 2] : Fin 2 → Fin S1x64x256000.rank)
  concatenates_S1x64x256000_S1x64x256000_S2x64x256000_d0 : Shape.Concatenates [S1x64x256000, S1x64x256000] S2x64x256000 0
  reducesTo_S2x64x256000_S2x64_d2 : S2x64x256000.ReducesTo [2] S2x64
  h_S_ : 0 < S_.numel
  bcast_S2x64_S2x64x1_0_1 : S2x64.BroadcastsInDim S2x64x1 (![0, 1] : Fin 2 → Fin S2x64x1.rank)
  bcast_S_S2x64x1 : S_.BroadcastsInDim S2x64x1 (![] : Fin 0 → Fin S2x64x1.rank)
  bcast_S2x64x1_S2x64x256000_0_1_2 : S2x64x1.BroadcastsInDim S2x64x256000 (![0, 1, 2] : Fin 3 → Fin S2x64x256000.rank)
  bcast_S_S2x64 : S_.BroadcastsInDim S2x64 (![] : Fin 0 → Fin S2x64.rank)
  reducesTo_S2x64_S64_d0 : S2x64.ReducesTo [0] S64
  bcast_S_S64 : S_.BroadcastsInDim S64 (![] : Fin 0 → Fin S64.rank)
  reducesTo_S64_S_d0 : S64.ReducesTo [0] S_

variable [Facts₀]

class Facts : Prop extends Facts₀ where

variable [Facts]
-- ==== Proof.BitsFrame.Shared.lean ====
/-
  The run of the summing kernel's program, first part: what every later module is stated over.

  The program is one grid of 4 × 4 points followed by a straight line of host operations. At a point
  `(i, l)` the body is handed rows `16 i … 16 i + 15`, samples `64000 l … 64000 l + 63999` of the three
  argument arrays and a 16 × 8 table it keeps between points; at `l = 0` it clears the table, at every
  point it adds the point's eight partial sums to the table's eight columns, and at `l = 3` it copies
  the table into the block of the 64 × 8 result that the grid then writes back. Here: the arrays as the
  grid finds them, the program as "the grid, then the later lines", the facts about those lines the
  launch needs (they touch only unscoped buffers, allocate nothing, and write none of the four arrays),
  a window's block at a point, the two branch conditions in closed form, and where the result window
  is idle.
-/
import proofs.«171039_j65670049956214_2_alg».proof.Proof.Gen.Kernel.Launch
import proofs.«171039_j65670049956214_2_alg».proof.Proof.Gen.Kernel.Skeleton
import proofs.«171039_j65670049956214_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the grid -/

/-- A core's buffer contents when the grid is entered: the launch contents (no line precedes the grid). -/
abbrev V0 (c : Dev nD) : Valuation τ sig (Elt F) := StableHlo.after (List.flatten []) (fun b => m (c, b))
/-- The same read at a reference. -/
abbrev V (c : Dev nD) (b : Ref sig .tc) : Buf (Elt F) ((c : Thread nD τ).loc b) := V0 m c (Proc.devRef .tc b)

/-- The later lines, under one name (a plain definition: nothing that only passes the list along should look inside it). -/
def tailOps : List (HloOp τ sig (Elt F)) := hostOps1
theorem tailOps_eq : (tailOps : List (HloOp τ sig (Elt F))) = hostOps1 := rfl

/-- The program is the grid followed by the later lines. -/
theorem main_tail (c : Dev nD) : main (F := F) c = (Pipeline.chain
  [ Prog.lift (.customCall (Pipeline.entry 0) ()),
    StableHlo.seq tailOps ] : Prog (TpuEff nD τ sig (Elt F) (Pipeline.Sig Λ₀ (Fin 1) fun p => (pcfgs (F := F) p).Adm) .tc) PUnit) :=
  main_chain c

/-- Each touches TensorCore references only. -/
theorem tailOps_sub : (tailOps : List (HloOp τ sig (Elt F))).Forall fun op => op.bufs ⊆ StableHlo.tcRefs τ sig :=
  hostOps1_sub

/-- The later lines allocate nothing. -/
theorem hostOps1_fresh : (tailOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The program is the grid CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq [tailOps])) :=
  Pipeline.hmain_around cfgs 0 defs₀ 𝒱₀ m main [] [tailOps] (by simp only [List.Forall])
    (by simp only [List.Forall]) (fun c => main_tail c)

/-- The later lines touch the four arrays and the buffers that bypass the grid only. -/
theorem sfx_sub : ∀ ops ∈ ([tailOps] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp tailOps_sub) op hop)

/-- They allocate nothing. -/
theorem sfx_fresh : ∀ ops ∈ ([tailOps] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each later line writes its own result buffer, which is none of the four arrays. -/
theorem notArr (y : Ref sig .tc) (h : ∀ w : Fin 4, Pipeline.arrRef spec0 w ≠ y) :
    ∀ w : Fin 4, Proc.devRef (τ := τ) .tc (Pipeline.arrRef spec0 w) ∉ ({Proc.devRef .tc y} : Finset (DevRef τ sig)) :=
  fun w hm => StableHlo.devRef_ne_of_ne (h w) (Finset.mem_singleton.mp hm)

set_option maxHeartbeats 4000000 in
theorem hostOps1_keeps : (tailOps : List (HloOp τ sig (Elt F))).Forall fun op =>
    ∀ w, Proc.devRef .tc (Pipeline.arrRef spec0 w) ∉ op.writes :=
  ⟨notArr main_v1 (by decide), notArr main_v2 (by decide), notArr main_v3 (by decide), notArr main_v4 (by decide), notArr main_v5 (by decide), notArr main_v6 (by decide), notArr main_v7 (by decide), notArr main_v8 (by decide), notArr main_v9 (by decide), notArr main_v10 (by decide), notArr main_v11 (by decide), notArr main_v12 (by decide), notArr main_v13 (by decide), notArr main_v14 (by decide), notArr main_v15 (by decide), notArr main_v16 (by decide), notArr main_cst (by decide), notArr main_v17 (by decide), notArr main_v18 (by decide), notArr main_cst_0 (by decide), notArr main_v19 (by decide), notArr main_v20 (by decide), notArr main_v21 (by decide), notArr main_v22 (by decide), notArr main_v23 (by decide), notArr main_cst_1 (by decide), notArr main_v24 (by decide), notArr main_v25 (by decide), notArr main_v26 (by decide), notArr main_v27 (by decide), notArr main_v28 (by decide), notArr main_v29 (by decide), notArr main_v30 (by decide), notArr main_cst_2 (by decide), notArr main_v31 (by decide), notArr main_v32 (by decide), notArr main_cst_3 (by decide), notArr main_v33 (by decide), notArr main_v34 (by decide), notArr main_cst_4 (by decide), notArr main_v35 (by decide), notArr main_v36 (by decide), notArr main_v37 (by decide), notArr main_v38 (by decide), notArr main_cst_5 (by decide), notArr main_v39 (by decide), notArr main_v40 (by decide), notArr main_cst_6 (by decide), notArr main_v41 (by decide), notArr main_v42 (by decide), notArr main_cst_7 (by decide), notArr main_v43 (by decide), notArr main_v44 (by decide), notArr main_cst_8 (by decide), notArr main_v45 (by decide), notArr main_v46 (by decide), notArr main_v47 (by decide), notArr main_v48 (by decide), notArr main_v49 (by decide), notArr main_cst_9 (by decide), notArr main_v50 (by decide), notArr main_v51 (by decide), notArr main_v52 (by decide), notArr main_v53 (by decide), notArr main_v54 (by decide), notArr main_v55 (by decide), notArr main_v56 (by decide), notArr main_cst_10 (by decide), notArr main_v57 (by decide), notArr main_v58 (by decide), notArr main_cst_11 (by decide), notArr main_v59 (by decide), notArr main_v60 (by decide), notArr main_cst_12 (by decide), notArr main_v61 (by decide), notArr main_v62 (by decide), notArr main_v63 (by decide), notArr main_v64 (by decide), notArr main_cst_13 (by decide), notArr main_v65 (by decide), notArr main_v66 (by decide), notArr main_cst_14 (by decide), notArr main_v67 (by decide), notArr main_v68 (by decide), notArr main_v69 (by decide), notArr main_cst_15 (by decide), notArr main_v70 (by decide), notArr main_v71 (by decide), notArr main_cst_16 (by decide), notArr main_v72 (by decide), notArr main_v73 (by decide), notArr main_cst_17 (by decide), notArr main_v74 (by decide), notArr main_v75 (by decide), notArr main_v76 (by decide), notArr main_v77 (by decide), notArr main_v78 (by decide), notArr main_cst_18 (by decide), notArr main_v79 (by decide), notArr main_v80 (by decide), notArr main_v81 (by decide), notArr main_v82 (by decide), notArr main_v83 (by decide), notArr main_v84 (by decide), notArr main_v85 (by decide), notArr main_cst_19 (by decide), notArr main_v86 (by decide), notArr main_v87 (by decide), notArr main_cst_20 (by decide), notArr main_v88 (by decide), notArr main_v89 (by decide), notArr main_cst_21 (by decide), notArr main_v90 (by decide), notArr main_v91 (by decide), notArr main_v92 (by decide), notArr main_v93 (by decide), notArr main_cst_22 (by decide), notArr main_v94 (by decide), notArr main_v95 (by decide), notArr main_cst_23 (by decide), notArr main_v96 (by decide), notArr main_v97 (by decide), notArr main_cst_24 (by decide), notArr main_v98 (by decide), notArr main_v99 (by decide), notArr main_cst_25 (by decide), notArr main_v100 (by decide), notArr main_v101 (by decide), notArr main_v102 (by decide), notArr main_v103 (by decide), notArr main_v104 (by decide), notArr main_cst_26 (by decide), notArr main_v105 (by decide), notArr main_v106 (by decide), notArr main_v107 (by decide), notArr main_v108 (by decide), notArr main_v109 (by decide), notArr main_v110 (by decide), notArr main_v111 (by decide), notArr main_cst_27 (by decide), notArr main_v112 (by decide), notArr main_v113 (by decide), notArr main_cst_28 (by decide), notArr main_v114 (by decide), notArr main_v115 (by decide), notArr main_cst_29 (by decide), notArr main_v116 (by decide), notArr main_v117 (by decide), notArr main_v118 (by decide), notArr main_v119 (by decide), notArr main_cst_30 (by decide), notArr main_v120 (by decide), notArr main_v121 (by decide), notArr main_cst_31 (by decide), notArr main_v122 (by decide), notArr main_v123 (by decide), notArr main_v124 (by decide), notArr main_cst_32 (by decide), notArr main_v125 (by decide), notArr main_v126 (by decide), notArr main_v127 (by decide), notArr main_cst_33 (by decide), notArr main_v128 (by decide), notArr main_v129 (by decide), notArr main_cst_34 (by decide), notArr main_v130 (by decide)⟩

theorem sfx_keeps : ∀ ops ∈ ([tailOps] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose
    array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first step along the samples" (the table is cleared), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step along the samples" (the table is copied out). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the table is not copied out the result window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is copied out the window is live. -/
theorem liveAt0_3 : ∀ t : Fin cfg0.N, cond0_1 (grid0.coords t) → cfg0.idle 3 (grid0.coords t) = false := by decide +kernel

/-! ## Names for the body's operands -/

/-- One staging buffer of the result window, through which its contents are stated. -/
abbrev VO0_3 : View sig .tc .vmem S16x8 .f32 := (Memref.whole cc0_stg3_0 : Memref sig .tc .vmem S16x8 .f32).view
abbrev ms0_0 (t : Fin cfg0.N) : Memref sig .tc .vmem S2x16x64000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x64000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x64000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x8 .f32 := win0_3.stage (cfg0.slots t 3)
abbrev hs0_3 (t : Fin cfg0.N) : (ms0_3 t).IsWhole := hstage0_3 ((cfg0.slots t 3).cast nbuf0_3)
/-- The table kept between points. -/
abbrev scM0_0 : Memref sig .tc .vmem S16x8 .f32 := Memref.whole cc0_scratch0
abbrev VS0_0 : View sig .tc .vmem S16x8 .f32 := scM0_0.view

/-- What the grid hands the body besides the windows: the table at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.BitsFrame.RunA.lean ====
/-
  The body run in one of its three cases: the first step along the samples (the table is cleared, then the eight sums are added; nothing is copied out).
  The run is symbolic: from the three input blocks held at their contents, the result window's buffer and
  the table, it reaches the body's end holding the inputs as they were and each buffer it stored into
  with the stores' values written, piece by piece; the pieces found are the witness.
-/
import proofs.«171039_j65670049956214_2_alg».proof.Proof.BitsFrame.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first step along the samples: the table may hold anything; the result window's buffer is handed back untouched. -/
noncomputable def kernelRun0_A (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : cond0_0 i) (hc1 : ¬cond0_1 i)
    (x0 : Vec F S2x16x64000 .f32) (x1 : Vec F S16x64000 .f32) (x2 : Vec F S16x64000 .f32) :
    { LS0 : List (View.Piece (Elt F) S16x8 .f32) //
      ∀ (xi3 : Vec F S16x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sums_kernel i arg2 harg2 arg3 harg3 arg4 harg4 arg5 harg5 arg6 harg6) K } := by
  refine ⟨?_, fun xi3 E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.BitsFrame.RunB.lean ====
/-
  The body run in one of its three cases: a middle step along the samples (the eight sums are added to what the step before left; nothing is copied out).
  The run is symbolic: from the three input blocks held at their contents, the result window's buffer and
  the table, it reaches the body's end holding the inputs as they were and each buffer it stored into
  with the stores' values written, piece by piece; the pieces found are the witness.
-/
import proofs.«171039_j65670049956214_2_alg».proof.Proof.BitsFrame.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A middle step: the table holds what the step before left (`xs0`); the result window's buffer is handed back untouched. -/
noncomputable def kernelRun0_B (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : ¬cond0_1 i)
    (x0 : Vec F S2x16x64000 .f32) (x1 : Vec F S16x64000 .f32) (x2 : Vec F S16x64000 .f32) (xs0 : Vec F S16x8 .f32) :
    { LS0 : List (View.Piece (Elt F) S16x8 .f32) //
      ∀ (xi3 : Vec F S16x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sums_kernel i arg2 harg2 arg3 harg3 arg4 harg4 arg5 harg5 arg6 harg6) K } := by
  refine ⟨?_, fun xi3 E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.BitsFrame.RunC.lean ====
/-
  The body run in one of its three cases: the last step along the samples (the eight sums are added, then the whole table is copied into the result window's buffer).
  The run is symbolic: from the three input blocks held at their contents, the result window's buffer and
  the table, it reaches the body's end holding the inputs as they were and each buffer it stored into
  with the stores' values written, piece by piece; the pieces found are the witness.
-/
import proofs.«171039_j65670049956214_2_alg».proof.Proof.BitsFrame.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last step: the table holds what the step before left (`xs0`); the result window's buffer may hold anything and ends with the table written into it. -/
noncomputable def kernelRun0_C (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : cond0_1 i)
    (x0 : Vec F S2x16x64000 .f32) (x1 : Vec F S16x64000 .f32) (x2 : Vec F S16x64000 .f32) (xs0 : Vec F S16x8 .f32) :
    Σ' (L3 : List (View.Piece (Elt F) S16x8 .f32)), { LS0 : List (View.Piece (Elt F) S16x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__sums_kernel i arg2 harg2 arg3 harg3 arg4 harg4 arg5 harg5 arg6 harg6) K } := by
  refine ⟨?_, ?_, fun E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.BitsFrame.Frame.lean ====
/-
  The run of the summing kernel's program, last part: what the table and the result window hold after
  each grid point, and the run itself.

  Points are numbered `t = 4 i + l`. At `l = 0` the body clears the table and adds the point's eight
  partial sums; at `l = 1, 2` it adds them to what the point before left; at `l = 3` it adds them and
  copies the table into the result window's buffer, which the grid then writes back as rows
  `16 i … 16 i + 15` of the result. `outsAt0` is this recursion, stated over the pieces each case's run
  found. The invariant between points is "the table holds `outsAt0`'s second component"; with it the
  body meets the grid's obligation at every point, and the launch theorem for a grid followed by host
  lines gives the run: every execution ends, the arguments unchanged, the result array and every later
  line's buffer at the contents the library computes from `outsAt0`.
-/
import proofs.«171039_j65670049956214_2_alg».proof.Proof.BitsFrame.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The result window's buffer where nothing is stored into it: a placeholder nothing consults (the window is
    idle there and not written back). -/
def outIdle : Vec F S16x8 .f32 := VO0_3.read (Elt F) (VO0_3.writes (Elt F) VO0_3.junk [])

/-- The eight column stores cover the table, whatever else was stored. -/
theorem scover0_A (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : cond0_0 i) (hc1 : ¬cond0_1 i)
    (x0 : Vec F S2x16x64000 .f32) (x1 : Vec F S16x64000 .f32) (x2 : Vec F S16x64000 .f32) (y : S16x8.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S16x1.size (by sl_kernel_rfl) y
theorem scover0_B (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : ¬cond0_1 i)
    (x0 : Vec F S2x16x64000 .f32) (x1 : Vec F S16x64000 .f32) (x2 : Vec F S16x64000 .f32) (xs0 : Vec F S16x8 .f32) (y : S16x8.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S16x1.size (by sl_kernel_rfl) y
theorem scover0_C (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : cond0_1 i)
    (x0 : Vec F S2x16x64000 .f32) (x1 : Vec F S16x64000 .f32) (x2 : Vec F S16x64000 .f32) (xs0 : Vec F S16x8 .f32) (y : S16x8.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S16x1.size (by sl_kernel_rfl) y
/-- The copy of the whole table covers the result window's block. -/
theorem cover0_C (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : cond0_1 i)
    (x0 : Vec F S2x16x64000 .f32) (x1 : Vec F S16x64000 .f32) (x2 : Vec F S16x64000 .f32) (xs0 : Vec F S16x8 .f32) (y : S16x8.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S16x8.size (by sl_kernel_rfl) y

/-- The table after a first step, a middle step, a last step; the result window's buffer after a last step. -/
def soutA (c : Dev nD) (t : Fin cfg0.N) (hc0 : cond0_0 (grid0.coords t)) (hc1 : ¬cond0_1 (grid0.coords t)) : Vec F S16x8 .f32 :=
  VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)).1)
def soutB (c : Dev nD) (t : Fin cfg0.N) (hc0 : ¬cond0_0 (grid0.coords t)) (hc1 : ¬cond0_1 (grid0.coords t)) (xs0 : Vec F S16x8 .f32) : Vec F S16x8 .f32 :=
  VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) xs0).1)
def soutC (c : Dev nD) (t : Fin cfg0.N) (hc0 : ¬cond0_0 (grid0.coords t)) (hc1 : cond0_1 (grid0.coords t)) (xs0 : Vec F S16x8 .f32) : Vec F S16x8 .f32 :=
  VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) xs0).2.1)
def outC (c : Dev nD) (t : Fin cfg0.N) (hc0 : ¬cond0_0 (grid0.coords t)) (hc1 : cond0_1 (grid0.coords t)) (xs0 : Vec F S16x8 .f32) : Vec F S16x8 .f32 :=
  VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) xs0).1)

/-! ## What the result window's buffer and the table hold after each point -/

theorem c1_of_mod0 (t : Fin cfg0.N) (h0 : t.val % 4 = 0) : ¬cond0_1 (grid0.coords t) :=
  fun h => by have := (hcond0_1 t).mp h; omega

/-- The accumulation: (the result window's buffer, the table) after the body at position `n`. -/
def outsAt0 (c : Dev nD) : (n : ℕ) → n < cfg0.N → Vec F S16x8 .f32 × Vec F S16x8 .f32
  | 0, hn => (outIdle, soutA m c ⟨0, hn⟩ ((hcond0_0 ⟨0, hn⟩).mpr (Nat.zero_mod _)) (c1_of_mod0 ⟨0, hn⟩ (Nat.zero_mod _)))
  | n + 1, hn =>
    if h0 : (n + 1) % 4 = 0 then
      (outIdle, soutA m c ⟨n + 1, hn⟩ ((hcond0_0 ⟨n + 1, hn⟩).mpr h0) (c1_of_mod0 ⟨n + 1, hn⟩ h0))
    else if h1 : (n + 1) % 4 = 3 then
      (outC m c ⟨n + 1, hn⟩ (fun h => h0 ((hcond0_0 ⟨n + 1, hn⟩).mp h)) ((hcond0_1 ⟨n + 1, hn⟩).mpr h1) (outsAt0 c n (Nat.lt_of_succ_lt hn)).2,
       soutC m c ⟨n + 1, hn⟩ (fun h => h0 ((hcond0_0 ⟨n + 1, hn⟩).mp h)) ((hcond0_1 ⟨n + 1, hn⟩).mpr h1) (outsAt0 c n (Nat.lt_of_succ_lt hn)).2)
    else
      (outIdle, soutB m c ⟨n + 1, hn⟩ (fun h => h0 ((hcond0_0 ⟨n + 1, hn⟩).mp h)) (fun h => h1 ((hcond0_1 ⟨n + 1, hn⟩).mp h)) (outsAt0 c n (Nat.lt_of_succ_lt hn)).2)

theorem outsAt0_A (c : Dev nD) (t : Fin cfg0.N) (h0 : t.val % 4 = 0) :
    outsAt0 m c t.val t.isLt = (outIdle, soutA m c t ((hcond0_0 t).mpr h0) (c1_of_mod0 t h0)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = (outIdle, soutB m c t (fun h => h0 ((hcond0_0 t).mp h)) (fun h => h1 ((hcond0_1 t).mp h))
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (outC m c t (fun h => h0 ((hcond0_0 t).mp h)) ((hcond0_1 t).mpr h1) (outsAt0 m c (t.val - 1) (Nat.lt_of_le_of_lt (Nat.sub_le _ _) t.isLt)).2,
      soutC m c t (fun h => h0 ((hcond0_0 t).mp h)) ((hcond0_1 t).mpr h1) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: whatever the grid hands over. Afterwards: the table at what the point before left, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]

set_option maxHeartbeats 4800000 in
/-- The body at any point: the closed forms say which case the point is in; that case's run applies; the invariant hands
    the body the table (at anything at a first step) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 16 := lt_of_lt_of_eq t.isLt (show cfg0.N = 16 from N_0)
  by_cases h0 : t.val % 4 = 0
  · have hc0 := (hcond0_0 t).mpr h0
    have hc1 := c1_of_mod0 t h0
    rw [Dat.leavesExact_idle (dats m 0 c) 3 t (idleAt0_3 t hc1) (noFlush0_3 t hc1)]
    rw [outsAt0_A m c t h0]
    unfold soutA; (try dsimp only)
    have hS : (dats m 0 c).Φ t.castSucc ⊢ iprop(iprop((∃ d, owns (c : Thread nD τ) scM0_0 fullShare d)) ∗ (∃ r, prngReg c r)) := by
      by_cases hz : t.val = 0
      · rw [PhiS_castSucc m c t, PhiS_zero m c _ _ hz, PhiA0_eq]
      · rw [PhiS_castSucc m c t, PhiS_pos m c _ _ hz]
        iintro ⟨HS0, Hg⟩
        isplitl [HS0]
        · iexists _; iexact HS0
        iexact Hg
    iintro ⟨HP, Ho, ⟨%d0, H0⟩, ⟨%d1, H1⟩, ⟨%d2, H2⟩, ⟨%d3, H3⟩⟩
    ihave HP' := hS $$ HP
    icases HP' with ⟨HS0, Hg⟩
    iapply ((kernelRun0_A c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun hz => h0 (by rw [hz])
    have hc0 : ¬cond0_0 (grid0.coords t) := fun h => h0 ((hcond0_0 t).mp h)
    by_cases h1 : t.val % 4 = 3
    · have hc1 := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [outsAt0_C m c t h0 h1]
      unfold outC soutC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · have hc1 : ¬cond0_1 (grid0.coords t) := fun h => h1 ((hcond0_1 t).mp h)
      rw [Dat.leavesExact_idle (dats m 0 c) 3 t (idleAt0_3 t hc1) (noFlush0_3 t hc1)]
      rw [outsAt0_B m c t h0 h1]
      unfold soutB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of the program ends, nothing faulting, with each of the four arrays at what the library
    computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) [tailOps])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [tailOps]) (hsub := sfx_sub) (hfresh := sfx_fresh) (hkeep := sfx_keeps)
    (hmain := hmain m Variants.none) (hA := A_eq m) (hin := hin m) (hout := hout m)

/-- The frame: every execution ends and leaves the three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c))),
     ((h c).1 2).trans ((((dats m) 0 c).arrAt_in 2 rfl _).trans ((A_eq m c 2).trans (V_main_arg2 m c)))⟩) (run_main m ρ)

end Cert.Kernel.Hand

end
-- ==== Proof.IdealFrame.Shared.lean ====
/-
  The run of the summing kernel's program, first part: what every later module is stated over.

  The program is one grid of 4 × 4 points followed by a straight line of host operations. At a point
  `(i, l)` the body is handed rows `16 i … 16 i + 15`, samples `64000 l … 64000 l + 63999` of the three
  argument arrays and a 16 × 8 table it keeps between points; at `l = 0` it clears the table, at every
  point it adds the point's eight partial sums to the table's eight columns, and at `l = 3` it copies
  the table into the block of the 64 × 8 result that the grid then writes back. Here: the arrays as the
  grid finds them, the program as "the grid, then the later lines", the facts about those lines the
  launch needs (they touch only unscoped buffers, allocate nothing, and write none of the four arrays),
  a window's block at a point, the two branch conditions in closed form, and where the result window
  is idle.
-/
import proofs.«171039_j65670049956214_2_alg».proof.Proof.Gen.KernelIdeal.Launch
import proofs.«171039_j65670049956214_2_alg».proof.Proof.Gen.KernelIdeal.Skeleton
import proofs.«171039_j65670049956214_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the grid -/

/-- A core's buffer contents when the grid is entered: the launch contents (no line precedes the grid). -/
abbrev V0 (c : Dev nD) : Valuation τ sig (Elt F) := StableHlo.after (List.flatten []) (fun b => m (c, b))
/-- The same read at a reference. -/
abbrev V (c : Dev nD) (b : Ref sig .tc) : Buf (Elt F) ((c : Thread nD τ).loc b) := V0 m c (Proc.devRef .tc b)

/-- The later lines, under one name (a plain definition: nothing that only passes the list along should look inside it). -/
def tailOps : List (HloOp τ sig (Elt F)) := hostOps1
theorem tailOps_eq : (tailOps : List (HloOp τ sig (Elt F))) = hostOps1 := rfl

/-- The program is the grid followed by the later lines. -/
theorem main_tail (c : Dev nD) : main (F := F) c = (Pipeline.chain
  [ Prog.lift (.customCall (Pipeline.entry 0) ()),
    StableHlo.seq tailOps ] : Prog (TpuEff nD τ sig (Elt F) (Pipeline.Sig Λ₀ (Fin 1) fun p => (pcfgs (F := F) p).Adm) .tc) PUnit) :=
  main_chain c

/-- Each touches TensorCore references only. -/
theorem tailOps_sub : (tailOps : List (HloOp τ sig (Elt F))).Forall fun op => op.bufs ⊆ StableHlo.tcRefs τ sig :=
  hostOps1_sub

/-- The later lines allocate nothing. -/
theorem hostOps1_fresh : (tailOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The program is the grid CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (List.map StableHlo.seq [tailOps])) :=
  Pipeline.hmain_around cfgs 0 defs₀ 𝒱₀ m main [] [tailOps] (by simp only [List.Forall])
    (by simp only [List.Forall]) (fun c => main_tail c)

/-- The later lines touch the four arrays and the buffers that bypass the grid only. -/
theorem sfx_sub : ∀ ops ∈ ([tailOps] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp tailOps_sub) op hop)

/-- They allocate nothing. -/
theorem sfx_fresh : ∀ ops ∈ ([tailOps] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- Each later line writes its own result buffer, which is none of the four arrays. -/
theorem notArr (y : Ref sig .tc) (h : ∀ w : Fin 4, Pipeline.arrRef spec0 w ≠ y) :
    ∀ w : Fin 4, Proc.devRef (τ := τ) .tc (Pipeline.arrRef spec0 w) ∉ ({Proc.devRef .tc y} : Finset (DevRef τ sig)) :=
  fun w hm => StableHlo.devRef_ne_of_ne (h w) (Finset.mem_singleton.mp hm)

set_option maxHeartbeats 4000000 in
theorem hostOps1_keeps : (tailOps : List (HloOp τ sig (Elt F))).Forall fun op =>
    ∀ w, Proc.devRef .tc (Pipeline.arrRef spec0 w) ∉ op.writes :=
  ⟨notArr main_v1 (by decide), notArr main_v2 (by decide), notArr main_v3 (by decide), notArr main_v4 (by decide), notArr main_v5 (by decide), notArr main_v6 (by decide), notArr main_v7 (by decide), notArr main_v8 (by decide), notArr main_v9 (by decide), notArr main_v10 (by decide), notArr main_v11 (by decide), notArr main_v12 (by decide), notArr main_v13 (by decide), notArr main_v14 (by decide), notArr main_v15 (by decide), notArr main_v16 (by decide), notArr main_cst (by decide), notArr main_v17 (by decide), notArr main_v18 (by decide), notArr main_cst_0 (by decide), notArr main_v19 (by decide), notArr main_v20 (by decide), notArr main_v21 (by decide), notArr main_v22 (by decide), notArr main_v23 (by decide), notArr main_cst_1 (by decide), notArr main_v24 (by decide), notArr main_v25 (by decide), notArr main_v26 (by decide), notArr main_v27 (by decide), notArr main_v28 (by decide), notArr main_v29 (by decide), notArr main_v30 (by decide), notArr main_cst_2 (by decide), notArr main_v31 (by decide), notArr main_v32 (by decide), notArr main_cst_3 (by decide), notArr main_v33 (by decide), notArr main_v34 (by decide), notArr main_cst_4 (by decide), notArr main_v35 (by decide), notArr main_v36 (by decide), notArr main_v37 (by decide), notArr main_v38 (by decide), notArr main_cst_5 (by decide), notArr main_v39 (by decide), notArr main_v40 (by decide), notArr main_cst_6 (by decide), notArr main_v41 (by decide), notArr main_v42 (by decide), notArr main_cst_7 (by decide), notArr main_v43 (by decide), notArr main_v44 (by decide), notArr main_cst_8 (by decide), notArr main_v45 (by decide), notArr main_v46 (by decide), notArr main_v47 (by decide), notArr main_v48 (by decide), notArr main_v49 (by decide), notArr main_cst_9 (by decide), notArr main_v50 (by decide), notArr main_v51 (by decide), notArr main_v52 (by decide), notArr main_v53 (by decide), notArr main_v54 (by decide), notArr main_v55 (by decide), notArr main_v56 (by decide), notArr main_cst_10 (by decide), notArr main_v57 (by decide), notArr main_v58 (by decide), notArr main_cst_11 (by decide), notArr main_v59 (by decide), notArr main_v60 (by decide), notArr main_cst_12 (by decide), notArr main_v61 (by decide), notArr main_v62 (by decide), notArr main_v63 (by decide), notArr main_v64 (by decide), notArr main_cst_13 (by decide), notArr main_v65 (by decide), notArr main_v66 (by decide), notArr main_cst_14 (by decide), notArr main_v67 (by decide), notArr main_v68 (by decide), notArr main_v69 (by decide), notArr main_cst_15 (by decide), notArr main_v70 (by decide), notArr main_v71 (by decide), notArr main_cst_16 (by decide), notArr main_v72 (by decide), notArr main_v73 (by decide), notArr main_cst_17 (by decide), notArr main_v74 (by decide), notArr main_v75 (by decide), notArr main_v76 (by decide), notArr main_v77 (by decide), notArr main_v78 (by decide), notArr main_cst_18 (by decide), notArr main_v79 (by decide), notArr main_v80 (by decide), notArr main_v81 (by decide), notArr main_v82 (by decide), notArr main_v83 (by decide), notArr main_v84 (by decide), notArr main_v85 (by decide), notArr main_cst_19 (by decide), notArr main_v86 (by decide), notArr main_v87 (by decide), notArr main_cst_20 (by decide), notArr main_v88 (by decide), notArr main_v89 (by decide), notArr main_cst_21 (by decide), notArr main_v90 (by decide), notArr main_v91 (by decide), notArr main_v92 (by decide), notArr main_v93 (by decide), notArr main_cst_22 (by decide), notArr main_v94 (by decide), notArr main_v95 (by decide), notArr main_cst_23 (by decide), notArr main_v96 (by decide), notArr main_v97 (by decide), notArr main_cst_24 (by decide), notArr main_v98 (by decide), notArr main_v99 (by decide), notArr main_cst_25 (by decide), notArr main_v100 (by decide), notArr main_v101 (by decide), notArr main_v102 (by decide), notArr main_v103 (by decide), notArr main_v104 (by decide), notArr main_cst_26 (by decide), notArr main_v105 (by decide), notArr main_v106 (by decide), notArr main_v107 (by decide), notArr main_v108 (by decide), notArr main_v109 (by decide), notArr main_v110 (by decide), notArr main_v111 (by decide), notArr main_cst_27 (by decide), notArr main_v112 (by decide), notArr main_v113 (by decide), notArr main_cst_28 (by decide), notArr main_v114 (by decide), notArr main_v115 (by decide), notArr main_cst_29 (by decide), notArr main_v116 (by decide), notArr main_v117 (by decide), notArr main_v118 (by decide), notArr main_v119 (by decide), notArr main_cst_30 (by decide), notArr main_v120 (by decide), notArr main_v121 (by decide), notArr main_cst_31 (by decide), notArr main_v122 (by decide), notArr main_v123 (by decide), notArr main_v124 (by decide), notArr main_cst_32 (by decide), notArr main_v125 (by decide), notArr main_v126 (by decide), notArr main_v127 (by decide), notArr main_cst_33 (by decide), notArr main_v128 (by decide), notArr main_v129 (by decide), notArr main_cst_34 (by decide), notArr main_v130 (by decide)⟩

theorem sfx_keeps : ∀ ops ∈ ([tailOps] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose
    array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first step along the samples" (the table is cleared), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step along the samples" (the table is copied out). -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the table is not copied out the result window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it is copied out the window is live. -/
theorem liveAt0_3 : ∀ t : Fin cfg0.N, cond0_1 (grid0.coords t) → cfg0.idle 3 (grid0.coords t) = false := by decide +kernel

/-! ## Names for the body's operands -/

/-- One staging buffer of the result window, through which its contents are stated. -/
abbrev VO0_3 : View sig .tc .vmem S16x8 .f32 := (Memref.whole cc0_stg3_0 : Memref sig .tc .vmem S16x8 .f32).view
abbrev ms0_0 (t : Fin cfg0.N) : Memref sig .tc .vmem S2x16x64000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x64000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x64000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x8 .f32 := win0_3.stage (cfg0.slots t 3)
abbrev hs0_3 (t : Fin cfg0.N) : (ms0_3 t).IsWhole := hstage0_3 ((cfg0.slots t 3).cast nbuf0_3)
/-- The table kept between points. -/
abbrev scM0_0 : Memref sig .tc .vmem S16x8 .f32 := Memref.whole cc0_scratch0
abbrev VS0_0 : View sig .tc .vmem S16x8 .f32 := scM0_0.view

/-- What the grid hands the body besides the windows: the table at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.IdealFrame.RunA.lean ====
/-
  The body run in one of its three cases: the first step along the samples (the table is cleared, then the eight sums are added; nothing is copied out).
  The run is symbolic: from the three input blocks held at their contents, the result window's buffer and
  the table, it reaches the body's end holding the inputs as they were and each buffer it stored into
  with the stores' values written, piece by piece; the pieces found are the witness.
-/
import proofs.«171039_j65670049956214_2_alg».proof.Proof.IdealFrame.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first step along the samples: the table may hold anything; the result window's buffer is handed back untouched. -/
noncomputable def kernelRun0_A (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : cond0_0 i) (hc1 : ¬cond0_1 i)
    (x0 : Vec F S2x16x64000 .f32) (x1 : Vec F S16x64000 .f32) (x2 : Vec F S16x64000 .f32) :
    { LS0 : List (View.Piece (Elt F) S16x8 .f32) //
      ∀ (xi3 : Vec F S16x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sums_kernel i arg2 harg2 arg3 harg3 arg4 harg4 arg5 harg5 arg6 harg6) K } := by
  refine ⟨?_, fun xi3 E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.IdealFrame.RunB.lean ====
/-
  The body run in one of its three cases: a middle step along the samples (the eight sums are added to what the step before left; nothing is copied out).
  The run is symbolic: from the three input blocks held at their contents, the result window's buffer and
  the table, it reaches the body's end holding the inputs as they were and each buffer it stored into
  with the stores' values written, piece by piece; the pieces found are the witness.
-/
import proofs.«171039_j65670049956214_2_alg».proof.Proof.IdealFrame.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A middle step: the table holds what the step before left (`xs0`); the result window's buffer is handed back untouched. -/
noncomputable def kernelRun0_B (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : ¬cond0_1 i)
    (x0 : Vec F S2x16x64000 .f32) (x1 : Vec F S16x64000 .f32) (x2 : Vec F S16x64000 .f32) (xs0 : Vec F S16x8 .f32) :
    { LS0 : List (View.Piece (Elt F) S16x8 .f32) //
      ∀ (xi3 : Vec F S16x8 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__sums_kernel i arg2 harg2 arg3 harg3 arg4 harg4 arg5 harg5 arg6 harg6) K } := by
  refine ⟨?_, fun xi3 E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.IdealFrame.RunC.lean ====
/-
  The body run in one of its three cases: the last step along the samples (the eight sums are added, then the whole table is copied into the result window's buffer).
  The run is symbolic: from the three input blocks held at their contents, the result window's buffer and
  the table, it reaches the body's end holding the inputs as they were and each buffer it stored into
  with the stores' values written, piece by piece; the pieces found are the witness.
-/
import proofs.«171039_j65670049956214_2_alg».proof.Proof.IdealFrame.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The last step: the table holds what the step before left (`xs0`); the result window's buffer may hold anything and ends with the table written into it. -/
noncomputable def kernelRun0_C (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : cond0_1 i)
    (x0 : Vec F S2x16x64000 .f32) (x1 : Vec F S16x64000 .f32) (x2 : Vec F S16x64000 .f32) (xs0 : Vec F S16x8 .f32) :
    Σ' (L3 : List (View.Piece (Elt F) S16x8 .f32)), { LS0 : List (View.Piece (Elt F) S16x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__sums_kernel i arg2 harg2 arg3 harg3 arg4 harg4 arg5 harg5 arg6 harg6) K } := by
  refine ⟨?_, ?_, fun E K => ?run⟩
  case run =>
    simp only [cc0__sums_kernel_eq_skeleton]; unfold cc0__sums_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.IdealFrame.Frame.lean ====
/-
  The run of the summing kernel's program, last part: what the table and the result window hold after
  each grid point, and the run itself.

  Points are numbered `t = 4 i + l`. At `l = 0` the body clears the table and adds the point's eight
  partial sums; at `l = 1, 2` it adds them to what the point before left; at `l = 3` it adds them and
  copies the table into the result window's buffer, which the grid then writes back as rows
  `16 i … 16 i + 15` of the result. `outsAt0` is this recursion, stated over the pieces each case's run
  found. The invariant between points is "the table holds `outsAt0`'s second component"; with it the
  body meets the grid's obligation at every point, and the launch theorem for a grid followed by host
  lines gives the run: every execution ends, the arguments unchanged, the result array and every later
  line's buffer at the contents the library computes from `outsAt0`.
-/
import proofs.«171039_j65670049956214_2_alg».proof.Proof.IdealFrame.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The result window's buffer where nothing is stored into it: a placeholder nothing consults (the window is
    idle there and not written back). -/
def outIdle : Vec F S16x8 .f32 := VO0_3.read (Elt F) (VO0_3.writes (Elt F) VO0_3.junk [])

/-- The eight column stores cover the table, whatever else was stored. -/
theorem scover0_A (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : cond0_0 i) (hc1 : ¬cond0_1 i)
    (x0 : Vec F S2x16x64000 .f32) (x1 : Vec F S16x64000 .f32) (x2 : Vec F S16x64000 .f32) (y : S16x8.Idx) :
    ∃ pc ∈ (kernelRun0_A c i arg2 harg2 arg3 harg3 arg4 harg4 arg5 harg5 arg6 harg6 hc0 hc1 x0 x1 x2).1, y ∈ pc.1.set :=
  View.cover_of_tiledL (kernelRun0_A c i arg2 harg2 arg3 harg3 arg4 harg4 arg5 harg5 arg6 harg6 hc0 hc1 x0 x1 x2).1 S16x1.size (by sl_kernel_rfl) y
theorem scover0_B (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : ¬cond0_1 i)
    (x0 : Vec F S2x16x64000 .f32) (x1 : Vec F S16x64000 .f32) (x2 : Vec F S16x64000 .f32) (xs0 : Vec F S16x8 .f32) (y : S16x8.Idx) :
    ∃ pc ∈ (kernelRun0_B c i arg2 harg2 arg3 harg3 arg4 harg4 arg5 harg5 arg6 harg6 hc0 hc1 x0 x1 x2 xs0).1, y ∈ pc.1.set :=
  View.cover_of_tiledL (kernelRun0_B c i arg2 harg2 arg3 harg3 arg4 harg4 arg5 harg5 arg6 harg6 hc0 hc1 x0 x1 x2 xs0).1 S16x1.size (by sl_kernel_rfl) y
theorem scover0_C (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : cond0_1 i)
    (x0 : Vec F S2x16x64000 .f32) (x1 : Vec F S16x64000 .f32) (x2 : Vec F S16x64000 .f32) (xs0 : Vec F S16x8 .f32) (y : S16x8.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S16x1.size (by sl_kernel_rfl) y
/-- The copy of the whole table covers the result window's block. -/
theorem cover0_C (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : cond0_1 i)
    (x0 : Vec F S2x16x64000 .f32) (x1 : Vec F S16x64000 .f32) (x2 : Vec F S16x64000 .f32) (xs0 : Vec F S16x8 .f32) (y : S16x8.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S16x8.size (by sl_kernel_rfl) y

/-- The table after a first step, a middle step, a last step; the result window's buffer after a last step. -/
def soutA (c : Dev nD) (t : Fin cfg0.N) (hc0 : cond0_0 (grid0.coords t)) (hc1 : ¬cond0_1 (grid0.coords t)) : Vec F S16x8 .f32 :=
  VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)).1)
def soutB (c : Dev nD) (t : Fin cfg0.N) (hc0 : ¬cond0_0 (grid0.coords t)) (hc1 : ¬cond0_1 (grid0.coords t)) (xs0 : Vec F S16x8 .f32) : Vec F S16x8 .f32 :=
  VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) xs0).1)
def soutC (c : Dev nD) (t : Fin cfg0.N) (hc0 : ¬cond0_0 (grid0.coords t)) (hc1 : cond0_1 (grid0.coords t)) (xs0 : Vec F S16x8 .f32) : Vec F S16x8 .f32 :=
  VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) xs0).2.1)
def outC (c : Dev nD) (t : Fin cfg0.N) (hc0 : ¬cond0_0 (grid0.coords t)) (hc1 : cond0_1 (grid0.coords t)) (xs0 : Vec F S16x8 .f32) : Vec F S16x8 .f32 :=
  VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) xs0).1)

/-! ## What the result window's buffer and the table hold after each point -/

theorem c1_of_mod0 (t : Fin cfg0.N) (h0 : t.val % 4 = 0) : ¬cond0_1 (grid0.coords t) :=
  fun h => by have := (hcond0_1 t).mp h; omega

/-- The accumulation: (the result window's buffer, the table) after the body at position `n`. -/
def outsAt0 (c : Dev nD) : (n : ℕ) → n < cfg0.N → Vec F S16x8 .f32 × Vec F S16x8 .f32
  | 0, hn => (outIdle, soutA m c ⟨0, hn⟩ ((hcond0_0 ⟨0, hn⟩).mpr (Nat.zero_mod _)) (c1_of_mod0 ⟨0, hn⟩ (Nat.zero_mod _)))
  | n + 1, hn =>
    if h0 : (n + 1) % 4 = 0 then
      (outIdle, soutA m c ⟨n + 1, hn⟩ ((hcond0_0 ⟨n + 1, hn⟩).mpr h0) (c1_of_mod0 ⟨n + 1, hn⟩ h0))
    else if h1 : (n + 1) % 4 = 3 then
      (outC m c ⟨n + 1, hn⟩ (fun h => h0 ((hcond0_0 ⟨n + 1, hn⟩).mp h)) ((hcond0_1 ⟨n + 1, hn⟩).mpr h1) (outsAt0 c n (Nat.lt_of_succ_lt hn)).2,
       soutC m c ⟨n + 1, hn⟩ (fun h => h0 ((hcond0_0 ⟨n + 1, hn⟩).mp h)) ((hcond0_1 ⟨n + 1, hn⟩).mpr h1) (outsAt0 c n (Nat.lt_of_succ_lt hn)).2)
    else
      (outIdle, soutB m c ⟨n + 1, hn⟩ (fun h => h0 ((hcond0_0 ⟨n + 1, hn⟩).mp h)) (fun h => h1 ((hcond0_1 ⟨n + 1, hn⟩).mp h)) (outsAt0 c n (Nat.lt_of_succ_lt hn)).2)

theorem outsAt0_A (c : Dev nD) (t : Fin cfg0.N) (h0 : t.val % 4 = 0) :
    outsAt0 m c t.val t.isLt = (outIdle, soutA m c t ((hcond0_0 t).mpr h0) (c1_of_mod0 t h0)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = (outIdle, soutB m c t (fun h => h0 ((hcond0_0 t).mp h)) (fun h => h1 ((hcond0_1 t).mp h))
      (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (outC m c t (fun h => h0 ((hcond0_0 t).mp h)) ((hcond0_1 t).mpr h1) (outsAt0 m c (t.val - 1) (Nat.lt_of_le_of_lt (Nat.sub_le _ _) t.isLt)).2,
      soutC m c t (fun h => h0 ((hcond0_0 t).mp h)) ((hcond0_1 t).mpr h1) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point: whatever the grid hands over. Afterwards: the table at what the point before left, and the
    generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]

set_option maxHeartbeats 4800000 in
/-- The body at any point: the closed forms say which case the point is in; that case's run applies; the invariant hands
    the body the table (at anything at a first step) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 16 := lt_of_lt_of_eq t.isLt (show cfg0.N = 16 from N_0)
  by_cases h0 : t.val % 4 = 0
  · have hc0 := (hcond0_0 t).mpr h0
    have hc1 := c1_of_mod0 t h0
    rw [Dat.leavesExact_idle (dats m 0 c) 3 t (idleAt0_3 t hc1) (noFlush0_3 t hc1)]
    rw [outsAt0_A m c t h0]
    unfold soutA; (try dsimp only)
    have hS : (dats m 0 c).Φ t.castSucc ⊢ iprop(iprop((∃ d, owns (c : Thread nD τ) scM0_0 fullShare d)) ∗ (∃ r, prngReg c r)) := by
      by_cases hz : t.val = 0
      · rw [PhiS_castSucc m c t, PhiS_zero m c _ _ hz, PhiA0_eq]
      · rw [PhiS_castSucc m c t, PhiS_pos m c _ _ hz]
        iintro ⟨HS0, Hg⟩
        isplitl [HS0]
        · iexists _; iexact HS0
        iexact Hg
    iintro ⟨HP, Ho, ⟨%d0, H0⟩, ⟨%d1, H1⟩, ⟨%d2, H2⟩, ⟨%d3, H3⟩⟩
    ihave HP' := hS $$ HP
    icases HP' with ⟨HS0, Hg⟩
    iapply ((kernelRun0_A c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun hz => h0 (by rw [hz])
    have hc0 : ¬cond0_0 (grid0.coords t) := fun h => h0 ((hcond0_0 t).mp h)
    by_cases h1 : t.val % 4 = 3
    · have hc1 := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [outsAt0_C m c t h0 h1]
      unfold outC soutC; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c _ _ _ _ _ _ _ _ _ _ _ _ _ _ _ _ _)
    · have hc1 : ¬cond0_1 (grid0.coords t) := fun h => h1 ((hcond0_1 t).mp h)
      rw [Dat.leavesExact_idle (dats m 0 c) 3 t (idleAt0_3 t hc1) (noFlush0_3 t hc1)]
      rw [outsAt0_B m c t h0 h1]
      unfold soutB; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- Every weakly fair execution of the program ends, nothing faulting, with each of the four arrays at what the library
    computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) [tailOps])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [tailOps]) (hsub := sfx_sub) (hfresh := sfx_fresh) (hkeep := sfx_keeps)
    (hmain := hmain m Variants.none) (hA := A_eq m) (hin := hin m) (hout := hout m)

/-- The frame: every execution ends and leaves the three argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans ((((dats m) 0 c).arrAt_in 0 rfl _).trans ((A_eq m c 0).trans (V_main_arg0 m c))),
     ((h c).1 1).trans ((((dats m) 0 c).arrAt_in 1 rfl _).trans ((A_eq m c 1).trans (V_main_arg1 m c))),
     ((h c).1 2).trans ((((dats m) 0 c).arrAt_in 2 rfl _).trans ((A_eq m c 2).trans (V_main_arg2 m c)))⟩) (run_main m ρ)

end Cert.KernelIdeal.Hand

end
-- ==== Proof.LibKeepdims.lean ====
/-
  A reduced axis kept as a unit column, and the column spread back over the rows.

  A reduction over the last axis of an `[a, b]` array with the reduced axis kept (`keepdims`) is carried as an `[a]`
  vector viewed as an `[a, 1]` column and then broadcast to `[a, b]`. Read at explicit coordinates: the column at
  `(i, 0)` is the vector at `i`, and the broadcast at `(i, j)` is the column at `(i, 0)`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector cast to an `[a, 1]` column reads, at `(i, u)`, the vector at `i`: the two indices have the same
    row-major position. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(i, j)`, the column at `(i, 0)`: the unit axis is read at `0`,
    the other at the same coordinate (when `a = 1` that coordinate is `0` too). -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.Payloads.lean ====
/-
  The body's payloads read at an index, over the extended reals. Each of the eight column updates of the 16×8 table
  is the loaded 16×1 column plus, in row r, the sum over the 64000 lanes of the product of two 16×64000 blocks at
  (r, l): a lane reduction by addition over axis 1, kept as a unit column. The two halves of the stacked
  1×16×64000 block are read at (0, r, l). The table's initial block is zero everywhere.
-/
import proofs.«171039_j65670049956214_2_alg».proof.Proof.Gen.KernelIdeal.Skeleton
import proofs.«171039_j65670049956214_2_alg».proof.Proof.LibKeepdims
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- A lane reduction by addition of a 16×64000 block, read at row r: the sum over the 64000 lanes of the block at
    (r, l). -/
theorem laneSum_apply (x : FVec Ideal S16x64000 .f32) (h : S16x64000.Reduces [1] S16) (hφ : FKind.Formats .f32)
    (hacc : (0x00000000#32 : BitVec (FTy.bits .f32)) = FKind.add.neutral .f32 hφ) (r : Fin 16) :
    multiReduction (F := Ideal) .add [1] S16 x 0x00000000#32 h hφ hacc (ix1 r) = ∑ l : Fin 64000, x (ix2 r l) := by
  refine (Ideal.multiReduction_add_single x 0x00000000#32 h hφ hacc (ix1 r)).trans ?_
  refine Finset.sum_congr rfl fun l _ => congrArg x (funext fun c => Fin.ext ?_)
  match c with
  | ⟨0, _⟩ => rfl
  | ⟨1, _⟩ => rfl

/-- A column update read at row r: the old column's entry plus the lane sum of the block's row r. The lane sums, a
    vector of 16, are kept as a 16×1 column, whose entry (r, 0) is the vector's entry r. -/
theorem colUpdate_apply (c : FVec Ideal S16x1 .f32) (x : FVec Ideal S16x64000 .f32) (h : S16x64000.Reduces [1] S16)
    (hφ : FKind.Formats .f32) (hacc : (0x00000000#32 : BitVec (FTy.bits .f32)) = FKind.add.neutral .f32 hφ)
    (hc : S16.ShapeCasts S16x1) (r : Fin 16) :
    addf c (shapeCast S16x1 (multiReduction (F := Ideal) .add [1] S16 x 0x00000000#32 h hφ hacc) hc) (ix2 r 0)
      = c (ix2 r 0) + ∑ l : Fin 64000, x (ix2 r l) := by
  rw [addf_apply]
  refine congrArg (c (ix2 r 0) + ·) ?_
  exact (Cert.LibKeepdims.shapeCast_a_a1_apply _ hc r 0).trans (laneSum_apply x h hφ hacc r)

/-- The first half of the stacked block, as a 16×64000 block, at (r, l): the stacked block at (0, r, l). -/
theorem pay4_apply (v3 : Vec Ideal S1x16x64000 .f32) (r : Fin 16) (l : Fin 64000) :
    Gen.k0_pay4 (F := Ideal) v3 (ix2 r l) = v3 (ix3 0 r l) := by
  unfold Gen.k0_pay4
  refine shapeCast_apply v3 _ (ix2 r l) (ix3 0 r l) ?_
  rw [Shape.rowMajor_val_two, Shape.rowMajor_val_three]
  show (0 * 16 + r.val) * 64000 + l.val = r.val * 64000 + l.val
  omega

/-- The second load of the stacked block likewise. -/
theorem pay5_apply (v5 : Vec Ideal S1x16x64000 .f32) (r : Fin 16) (l : Fin 64000) :
    Gen.k0_pay5 (F := Ideal) v5 (ix2 r l) = v5 (ix3 0 r l) := by
  unfold Gen.k0_pay5
  refine shapeCast_apply v5 _ (ix2 r l) (ix3 0 r l) ?_
  rw [Shape.rowMajor_val_two, Shape.rowMajor_val_three]
  show (0 * 16 + r.val) * 64000 + l.val = r.val * 64000 + l.val
  omega

/-- Column 0: Σ p0². -/
theorem pay6_apply (v3 : Vec Ideal S1x16x64000 .f32) (v9 : Vec Ideal S16x1 .f32) (r : Fin 16) :
    Gen.k0_pay6 (F := Ideal) v3 v9 (ix2 r 0) = v9 (ix2 r 0) + ∑ l : Fin 64000, v3 (ix3 0 r l) * v3 (ix3 0 r l) := by
  unfold Gen.k0_pay6
  rw [shapeCast_self]
  refine (colUpdate_apply v9 _ _ _ _ _ r).trans ?_
  refine congrArg (v9 (ix2 r 0) + ·) (Finset.sum_congr rfl fun l _ => ?_)
  rw [mulf_apply, pay4_apply]

/-- Column 1: Σ p1². -/
theorem pay7_apply (v5 : Vec Ideal S1x16x64000 .f32) (v17 : Vec Ideal S16x1 .f32) (r : Fin 16) :
    Gen.k0_pay7 (F := Ideal) v5 v17 (ix2 r 0) = v17 (ix2 r 0) + ∑ l : Fin 64000, v5 (ix3 0 r l) * v5 (ix3 0 r l) := by
  unfold Gen.k0_pay7
  rw [shapeCast_self]
  refine (colUpdate_apply v17 _ _ _ _ _ r).trans ?_
  refine congrArg (v17 (ix2 r 0) + ·) (Finset.sum_congr rfl fun l _ => ?_)
  rw [mulf_apply, pay5_apply]

/-- Column 2: Σ s1² (the value the loop carries on; it is stored through the identity cast below). -/
theorem pay8_apply (v7 : Vec Ideal S16x64000 .f32) (v25 : Vec Ideal S16x1 .f32) (r : Fin 16) :
    Gen.k0_pay8 (F := Ideal) v7 v25 (ix2 r 0) = v25 (ix2 r 0) + ∑ l : Fin 64000, v7 (ix2 r l) * v7 (ix2 r l) := by
  unfold Gen.k0_pay8
  refine (colUpdate_apply v25 _ _ _ _ _ r).trans ?_
  refine congrArg (v25 (ix2 r 0) + ·) (Finset.sum_congr rfl fun l _ => ?_)
  rw [mulf_apply]

/-- The store into column 2 writes the carried value unchanged: a cast of a 16×1 column to 16×1 is the identity. -/
theorem pay9_eq (v29 : FVec Ideal S16x1 .f32) : Gen.k0_pay9 (F := Ideal) v29 = v29 := by
  unfold Gen.k0_pay9
  rw [shapeCast_self]

/-- Column 3: Σ s2². -/
theorem pay10_apply (v8 : Vec Ideal S16x64000 .f32) (v33 : Vec Ideal S16x1 .f32) (r : Fin 16) :
    Gen.k0_pay10 (F := Ideal) v8 v33 (ix2 r 0) = v33 (ix2 r 0) + ∑ l : Fin 64000, v8 (ix2 r l) * v8 (ix2 r l) := by
  unfold Gen.k0_pay10
  rw [shapeCast_self]
  refine (colUpdate_apply v33 _ _ _ _ _ r).trans ?_
  refine congrArg (v33 (ix2 r 0) + ·) (Finset.sum_congr rfl fun l _ => ?_)
  rw [mulf_apply]

/-- Column 4: Σ p0·s1. -/
theorem pay11_apply (v4 : FVec Ideal S16x64000 .f32) (v7 : Vec Ideal S16x64000 .f32) (v41 : Vec Ideal S16x1 .f32) (r : Fin 16) :
    Gen.k0_pay11 (F := Ideal) v4 v7 v41 (ix2 r 0) = v41 (ix2 r 0) + ∑ l : Fin 64000, v4 (ix2 r l) * v7 (ix2 r l) := by
  unfold Gen.k0_pay11
  rw [shapeCast_self]
  refine (colUpdate_apply v41 _ _ _ _ _ r).trans ?_
  refine congrArg (v41 (ix2 r 0) + ·) (Finset.sum_congr rfl fun l _ => ?_)
  rw [mulf_apply]

/-- Column 5: Σ p1·s2. -/
theorem pay12_apply (v6 : FVec Ideal S16x64000 .f32) (v8 : Vec Ideal S16x64000 .f32) (v49 : Vec Ideal S16x1 .f32) (r : Fin 16) :
    Gen.k0_pay12 (F := Ideal) v6 v8 v49 (ix2 r 0) = v49 (ix2 r 0) + ∑ l : Fin 64000, v6 (ix2 r l) * v8 (ix2 r l) := by
  unfold Gen.k0_pay12
  rw [shapeCast_self]
  refine (colUpdate_apply v49 _ _ _ _ _ r).trans ?_
  refine congrArg (v49 (ix2 r 0) + ·) (Finset.sum_congr rfl fun l _ => ?_)
  rw [mulf_apply]

/-- Column 6: Σ p1·s1 (the value the second part returns; it is stored through the identity cast below). -/
theorem pay13_apply (v6 : FVec Ideal S16x64000 .f32) (v7 : Vec Ideal S16x64000 .f32) (v57 : Vec Ideal S16x1 .f32) (r : Fin 16) :
    Gen.k0_pay13 (F := Ideal) v6 v7 v57 (ix2 r 0) = v57 (ix2 r 0) + ∑ l : Fin 64000, v6 (ix2 r l) * v7 (ix2 r l) := by
  unfold Gen.k0_pay13
  refine (colUpdate_apply v57 _ _ _ _ _ r).trans ?_
  refine congrArg (v57 (ix2 r 0) + ·) (Finset.sum_congr rfl fun l _ => ?_)
  rw [mulf_apply]

/-- The store into column 6 writes the returned value unchanged. -/
theorem pay1_eq (v61 : FVec Ideal S16x1 .f32) : Gen.k0_pay1 (F := Ideal) v61 = v61 := by
  unfold Gen.k0_pay1
  rw [shapeCast_self]

/-- Column 7: Σ p0·s2. -/
theorem pay2_apply (v4 : FVec Ideal S16x64000 .f32) (v8 : Vec Ideal S16x64000 .f32) (v65 : Vec Ideal S16x1 .f32) (r : Fin 16) :
    Gen.k0_pay2 (F := Ideal) v4 v8 v65 (ix2 r 0) = v65 (ix2 r 0) + ∑ l : Fin 64000, v4 (ix2 r l) * v8 (ix2 r l) := by
  unfold Gen.k0_pay2
  rw [shapeCast_self]
  refine (colUpdate_apply v65 _ _ _ _ _ r).trans ?_
  refine congrArg (v65 (ix2 r 0) + ·) (Finset.sum_congr rfl fun l _ => ?_)
  rw [mulf_apply]

/-- The table's initial block: the word of 0.0 everywhere. -/
theorem pay3_apply (y : S16x8.Idx) : Gen.k0_pay3 (F := Ideal) y = Ideal.ofBits .f32 0x00000000#32 := by
  unfold Gen.k0_pay3
  rw [shapeCast_self]
  rfl

/-- … which is the real number zero. -/
theorem pay3_apply_zero (y : S16x8.Idx) : Gen.k0_pay3 (F := Ideal) y = 0 := by
  rw [pay3_apply, Ideal.ofBits_zero_f32]

/-- The columns whose blocks are the two halves of the stacked block, with the halves read at (0, r, l). -/
theorem pay11_apply_stack (v3 : Vec Ideal S1x16x64000 .f32) (v7 : Vec Ideal S16x64000 .f32) (v41 : Vec Ideal S16x1 .f32) (r : Fin 16) :
    Gen.k0_pay11 (F := Ideal) (Gen.k0_pay4 v3) v7 v41 (ix2 r 0)
      = v41 (ix2 r 0) + ∑ l : Fin 64000, v3 (ix3 0 r l) * v7 (ix2 r l) := by
  rw [pay11_apply]
  exact congrArg (v41 (ix2 r 0) + ·) (Finset.sum_congr rfl fun l _ => by rw [pay4_apply])

theorem pay2_apply_stack (v3 : Vec Ideal S1x16x64000 .f32) (v8 : Vec Ideal S16x64000 .f32) (v65 : Vec Ideal S16x1 .f32) (r : Fin 16) :
    Gen.k0_pay2 (F := Ideal) (Gen.k0_pay4 v3) v8 v65 (ix2 r 0)
      = v65 (ix2 r 0) + ∑ l : Fin 64000, v3 (ix3 0 r l) * v8 (ix2 r l) := by
  rw [pay2_apply]
  exact congrArg (v65 (ix2 r 0) + ·) (Finset.sum_congr rfl fun l _ => by rw [pay4_apply])

theorem pay12_apply_stack (v5 : Vec Ideal S1x16x64000 .f32) (v8 : Vec Ideal S16x64000 .f32) (v49 : Vec Ideal S16x1 .f32) (r : Fin 16) :
    Gen.k0_pay12 (F := Ideal) (Gen.k0_pay5 v5) v8 v49 (ix2 r 0)
      = v49 (ix2 r 0) + ∑ l : Fin 64000, v5 (ix3 0 r l) * v8 (ix2 r l) := by
  rw [pay12_apply]
  exact congrArg (v49 (ix2 r 0) + ·) (Finset.sum_congr rfl fun l _ => by rw [pay5_apply])

theorem pay13_apply_stack (v5 : Vec Ideal S1x16x64000 .f32) (v7 : Vec Ideal S16x64000 .f32) (v57 : Vec Ideal S16x1 .f32) (r : Fin 16) :
    Gen.k0_pay13 (F := Ideal) (Gen.k0_pay5 v5) v7 v57 (ix2 r 0)
      = v57 (ix2 r 0) + ∑ l : Fin 64000, v5 (ix3 0 r l) * v7 (ix2 r l) := by
  rw [pay13_apply]
  exact congrArg (v57 (ix2 r 0) + ·) (Finset.sum_congr rfl fun l _ => by rw [pay5_apply])

end Cert.KernelIdeal.Pay

end
-- ==== Proof.Spec.lean ====
/-
  The permutation-invariant SI-SDR loss of two estimated sources against two targets, written once as a
  function of the three argument arrays over the extended reals.

  For a batch row `b` let `p0, p1` be the two estimates and `t1, t2` the two targets, each a signal of
  256000 samples. Everything the loss needs of a row is eight sums over the samples (`rowSum`): the four
  energies `Σ p0²`, `Σ p1²`, `Σ t1²`, `Σ t2²` and the four correlations `Σ p0·t1`, `Σ p1·t2`, `Σ p1·t1`,
  `Σ p0·t2`. From an energy `pp`, a correlation `pt` and a target energy `tt` the scale-invariant ratio is
  `α = (pt + ε)/(tt + ε)`, signal `α²·tt`, noise `max (pp − 2·α·pt + α²·tt) 0`, and the ratio in decibels
  `10 · (log ((signal + ε)/(noise + ε)) · log₁₀ e)` (`siSdr`). A row's score is the better of the two
  assignments of estimates to targets, each the mean of its two ratios (`score`); the loss is minus the
  mean of the scores over the 64 rows (`loss`).
-/
import Idealize.ShloMosaic.PureOps.Ideal
import Idealize.ShloMosaic.Lib.ValueIdx

noncomputable section

open scoped BigOperators

namespace PitSiSdr

open Idealize.ShloMosaic Idealize.ShloMosaic.ValueIdx

/-- The number of samples of a signal. -/
abbrev nSamples : Nat := 256000
/-- The number of batch rows. -/
abbrev nRows : Nat := 64

/-- The shapes of the arguments: the two estimates stacked, and one target. -/
abbrev SEst : Shape := ⟨3, ![2, 64, 256000]⟩
abbrev STgt : Shape := ⟨2, ![64, 256000]⟩

/-- The constants, as the extended reals their single-precision words denote: the machine epsilon `2⁻²³`,
    `2`, `0`, `log₁₀ e` rounded to single precision, `10`, `1/2` and `64`. The same words stand on both sides
    of every equation below, so none of them is ever evaluated except where a law needs its value. -/
abbrev eps : EReal := Ideal.ofBits .f32 0x34000000#32
abbrev two : EReal := Ideal.ofBits .f32 0x40000000#32
abbrev zero : EReal := Ideal.ofBits .f32 0x00000000#32
abbrev log10e : EReal := Ideal.ofBits .f32 0x3EDE5BD9#32
abbrev ten : EReal := Ideal.ofBits .f32 0x41200000#32
abbrev half : EReal := Ideal.ofBits .f32 0x3F000000#32
abbrev sixtyFour : EReal := Ideal.ofBits .f32 0x42800000#32

/-- The eight sums of row `b`, numbered as the columns of the 64 × 8 table they are kept in:
    0 `Σ p0²`, 1 `Σ p1²`, 2 `Σ t1²`, 3 `Σ t2²`, 4 `Σ p0·t1`, 5 `Σ p1·t2`, 6 `Σ p1·t1`, 7 `Σ p0·t2`. -/
def rowSum (P : SEst.Idx → EReal) (T1 T2 : STgt.Idx → EReal) (b : Fin 64) : Fin 8 → EReal
  | ⟨0, _⟩ => ∑ l : Fin 256000, P (ix3 0 b l) * P (ix3 0 b l)
  | ⟨1, _⟩ => ∑ l : Fin 256000, P (ix3 1 b l) * P (ix3 1 b l)
  | ⟨2, _⟩ => ∑ l : Fin 256000, T1 (ix2 b l) * T1 (ix2 b l)
  | ⟨3, _⟩ => ∑ l : Fin 256000, T2 (ix2 b l) * T2 (ix2 b l)
  | ⟨4, _⟩ => ∑ l : Fin 256000, P (ix3 0 b l) * T1 (ix2 b l)
  | ⟨5, _⟩ => ∑ l : Fin 256000, P (ix3 1 b l) * T2 (ix2 b l)
  | ⟨6, _⟩ => ∑ l : Fin 256000, P (ix3 1 b l) * T1 (ix2 b l)
  | ⟨7, _⟩ => ∑ l : Fin 256000, P (ix3 0 b l) * T2 (ix2 b l)
  | ⟨n + 8, h⟩ => absurd h (Nat.not_lt.2 (Nat.le_add_left _ _))

/-- The scale-invariant signal-to-distortion ratio, in decibels, from the estimate's energy `pp`, its
    correlation with the target `pt` and the target's energy `tt`. -/
def siSdr (pp pt tt : EReal) : EReal :=
  ten * (Ideal.log (Ideal.div
      (Ideal.div (pt + eps) (tt + eps) * Ideal.div (pt + eps) (tt + eps) * tt + eps)
      (max (pp - two * Ideal.div (pt + eps) (tt + eps) * pt
              + Ideal.div (pt + eps) (tt + eps) * Ideal.div (pt + eps) (tt + eps) * tt) zero + eps))
    * log10e)

/-- A row's score from its eight sums: the better of the two assignments. -/
def score (S : Fin 8 → EReal) : EReal :=
  max ((siSdr (S 0) (S 4) (S 2) + siSdr (S 1) (S 5) (S 3)) * half)
      ((siSdr (S 1) (S 6) (S 2) + siSdr (S 0) (S 7) (S 3)) * half)

/-- The loss from the table of sums: minus the mean score. -/
def lossOfSums (S : Fin 64 → Fin 8 → EReal) : EReal :=
  Ideal.div (-(zero + ∑ b : Fin 64, score (S b))) sixtyFour

/-- The loss as a function of the three argument arrays. -/
def loss (P : SEst.Idx → EReal) (T1 T2 : STgt.Idx → EReal) : EReal :=
  lossOfSums (rowSum P T1 T2)

end PitSiSdr

end
-- ==== Proof.LibChunkSum.lean ====
/-
  A sum over 256000 consecutive samples read as four consecutive chunks of 64000 samples: the general statement over
  n chunks of k samples (through the bijection Fin n × Fin k ≃ Fin (n * k)), its instance at 4 × 64000, and the same
  instance as a recurrence: an accumulator that starts at a and adds chunk j at step j holds a plus the whole sum
  after the four steps. Nothing here unrolls a sum: the sums stay Finset sums over Fin 64000 and Fin 256000.
-/
import Mathlib.Algebra.BigOperators.Fin
import Mathlib.Logic.Equiv.Fin.Basic

open scoped BigOperators

namespace ChunkSum

/-- Sample q of chunk j, of n chunks of k samples, is a sample of the whole. -/
theorem chunk_lt {n k : ℕ} (j : Fin n) (q : Fin k) : j.val * k + q.val < n * k :=
  calc j.val * k + q.val < j.val * k + k := Nat.add_lt_add_left q.isLt _
    _ = (j.val + 1) * k := (Nat.succ_mul _ _).symm
    _ ≤ n * k := Nat.mul_le_mul_right _ j.isLt

/-- A sum over n * k consecutive terms is the sum over the n chunks of the sums over each chunk's k terms. -/
theorem sum_mul_chunks {M : Type*} [AddCommMonoid M] (n k : ℕ) (f : Fin (n * k) → M) :
    ∑ l : Fin (n * k), f l = ∑ j : Fin n, ∑ q : Fin k, f ⟨j.val * k + q.val, chunk_lt j q⟩ := by
  rw [← Equiv.sum_comp finProdFinEquiv f, Fintype.sum_prod_type]
  refine Finset.sum_congr rfl fun j _ => Finset.sum_congr rfl fun q _ => congrArg f (Fin.ext ?_)
  show q.val + k * j.val = j.val * k + q.val
  rw [Nat.mul_comm, Nat.add_comm]

/-- The same when the length is only known to equal n * k. -/
theorem sum_chunks_of_eq {M : Type*} [AddCommMonoid M] {N : ℕ} (n k : ℕ) (h : N = n * k) (f : Fin N → M) :
    ∑ l : Fin N, f l = ∑ j : Fin n, ∑ q : Fin k, f ⟨j.val * k + q.val, h ▸ chunk_lt j q⟩ := by
  subst h
  exact sum_mul_chunks n k f

/-- Chunk j of the four chunks of 64000 samples of a 256000-sample row: the sum of its terms. -/
def chunk {M : Type*} [AddCommMonoid M] (f : Fin 256000 → M) (j : Fin 4) : M :=
  ∑ q : Fin 64000, f ⟨j.val * 64000 + q.val, by omega⟩

/-- A sum over 256000 samples is the sum over its four chunks of 64000 samples. -/
theorem sum_chunks {M : Type*} [AddCommMonoid M] (f : Fin 256000 → M) :
    ∑ l : Fin 256000, f l = ∑ j : Fin 4, ∑ q : Fin 64000, f ⟨j.val * 64000 + q.val, by omega⟩ :=
  sum_chunks_of_eq 4 64000 rfl f

/-- … written with `chunk`. -/
theorem sum_eq_sum_chunk {M : Type*} [AddCommMonoid M] (f : Fin 256000 → M) :
    ∑ l : Fin 256000, f l = ∑ j : Fin 4, chunk f j :=
  sum_chunks f

/-- … and with the four chunks written out, added left to right. -/
theorem sum_eq_four {M : Type*} [AddCommMonoid M] (f : Fin 256000 → M) :
    ∑ l : Fin 256000, f l = chunk f 0 + chunk f 1 + chunk f 2 + chunk f 3 := by
  rw [sum_eq_sum_chunk, Fin.sum_univ_four]

/-- The chunks taken one after another: an accumulator that holds a before the first step and adds chunk j at step j
    holds a plus the whole sum after the fourth step. -/
theorem acc_four {M : Type*} [AddCommMonoid M] (f : Fin 256000 → M) (a : M) (acc : ℕ → M) (h0 : acc 0 = a)
    (hstep : ∀ j : Fin 4, acc (j.val + 1) = acc j.val + chunk f j) :
    acc 4 = a + ∑ l : Fin 256000, f l := by
  have h1 := hstep 0
  have h2 := hstep 1
  have h3 := hstep 2
  have h4 := hstep 3
  simp only [Fin.val_zero, Fin.val_one, Fin.val_two, zero_add] at h1 h2 h3 h4
  have e3 : ((3 : Fin 4) : ℕ) = 3 := rfl
  rw [e3] at h4
  rw [sum_eq_four, h4, h3, h2, h1, h0]
  simp only [add_assoc]

/-- From the zero accumulator: the whole sum. -/
theorem acc_four_zero {M : Type*} [AddCommMonoid M] (f : Fin 256000 → M) (acc : ℕ → M) (h0 : acc 0 = 0)
    (hstep : ∀ j : Fin 4, acc (j.val + 1) = acc j.val + chunk f j) :
    acc 4 = ∑ l : Fin 256000, f l := by
  rw [acc_four f 0 acc h0 hstep, zero_add]

end ChunkSum
-- ==== Proof.PartSum.lean ====
/-
  The eight partial sums of one block: rows `r` of a 16-row block, 64000 of the 256000 samples. `partSum`
  is `rowSum` (the specification's eight sums of a row) with the sample range cut to one block; four
  consecutive blocks of a row add up to the row's sums (`rowSum_eq_four`), because a sum over 256000
  samples is the sum of its four chunks of 64000.
-/
import proofs.«171039_j65670049956214_2_alg».proof.Proof.Spec
import proofs.«171039_j65670049956214_2_alg».proof.Proof.LibChunkSum

noncomputable section

open scoped BigOperators

namespace PitSiSdr

open Idealize.ShloMosaic Idealize.ShloMosaic.ValueIdx

/-- The shapes of one block of the stacked estimates and of one target. -/
abbrev SEstBlk : Shape := ⟨3, ![2, 16, 64000]⟩
abbrev STgtBlk : Shape := ⟨2, ![16, 64000]⟩

/-- The eight partial sums of row `r` of a block, numbered as `rowSum`'s. -/
def partSum (x0 : SEstBlk.Idx → EReal) (x1 x2 : STgtBlk.Idx → EReal) (r : Fin 16) : Fin 8 → EReal
  | ⟨0, _⟩ => ∑ q : Fin 64000, x0 (ix3 0 r q) * x0 (ix3 0 r q)
  | ⟨1, _⟩ => ∑ q : Fin 64000, x0 (ix3 1 r q) * x0 (ix3 1 r q)
  | ⟨2, _⟩ => ∑ q : Fin 64000, x1 (ix2 r q) * x1 (ix2 r q)
  | ⟨3, _⟩ => ∑ q : Fin 64000, x2 (ix2 r q) * x2 (ix2 r q)
  | ⟨4, _⟩ => ∑ q : Fin 64000, x0 (ix3 0 r q) * x1 (ix2 r q)
  | ⟨5, _⟩ => ∑ q : Fin 64000, x0 (ix3 1 r q) * x2 (ix2 r q)
  | ⟨6, _⟩ => ∑ q : Fin 64000, x0 (ix3 1 r q) * x1 (ix2 r q)
  | ⟨7, _⟩ => ∑ q : Fin 64000, x0 (ix3 0 r q) * x2 (ix2 r q)
  | ⟨n + 8, h⟩ => absurd h (Nat.not_lt.2 (Nat.le_add_left _ _))

/-- Block `(i, l)` of the arrays: rows `16 i + r`, samples `64000 l + q`. -/
def estBlk (P : SEst.Idx → EReal) (i l : Fin 4) : SEstBlk.Idx → EReal :=
  fun y => P (ix3 (y 0) ⟨16 * i.val + (y 1).val, by have h : (y 1).val < 16 := (y 1).isLt; have := i.isLt; omega⟩
    ⟨64000 * l.val + (y 2).val, by have h : (y 2).val < 64000 := (y 2).isLt; have := l.isLt; omega⟩)
def tgtBlk (T : STgt.Idx → EReal) (i l : Fin 4) : STgtBlk.Idx → EReal :=
  fun y => T (ix2 ⟨16 * i.val + (y 0).val, by have h : (y 0).val < 16 := (y 0).isLt; have := i.isLt; omega⟩
    ⟨64000 * l.val + (y 1).val, by have h : (y 1).val < 64000 := (y 1).isLt; have := l.isLt; omega⟩)

/-- A row's eight sums are the sums of its four blocks' partial sums. -/
theorem rowSum_eq_four (P : SEst.Idx → EReal) (T1 T2 : STgt.Idx → EReal) (i : Fin 4) (r : Fin 16) (k : Fin 8) :
    rowSum P T1 T2 ⟨16 * i.val + r.val, by have := r.isLt; have := i.isLt; omega⟩ k
      = partSum (estBlk P i 0) (tgtBlk T1 i 0) (tgtBlk T2 i 0) r k
        + partSum (estBlk P i 1) (tgtBlk T1 i 1) (tgtBlk T2 i 1) r k
        + partSum (estBlk P i 2) (tgtBlk T1 i 2) (tgtBlk T2 i 2) r k
        + partSum (estBlk P i 3) (tgtBlk T1 i 3) (tgtBlk T2 i 3) r k := by
  match k with
  | ⟨0, _⟩ => exact ChunkSum.sum_eq_four _
  | ⟨1, _⟩ => exact ChunkSum.sum_eq_four _
  | ⟨2, _⟩ => exact ChunkSum.sum_eq_four _
  | ⟨3, _⟩ => exact ChunkSum.sum_eq_four _
  | ⟨4, _⟩ => exact ChunkSum.sum_eq_four _
  | ⟨5, _⟩ => exact ChunkSum.sum_eq_four _
  | ⟨6, _⟩ => exact ChunkSum.sum_eq_four _
  | ⟨7, _⟩ => exact ChunkSum.sum_eq_four _

end PitSiSdr

end
-- ==== Proof.IdealFrame.PieceCols.lean ====
/-
  The body's loads and column values. A load of a whole staging buffer through a unit-stride rectangle reads the
  buffer's contents at the rectangle's offsets plus the local index: the two halves of the stacked block at (0, r, l)
  and (1, r, l), each target's block whole, and column k of the table at (r, k). With the loads read, each of the
  eight column updates at row r is the loaded column's entry plus the row's k-th partial sum over the block.
-/
import proofs.«171039_j65670049956214_2_alg».proof.Proof.Payloads
import proofs.«171039_j65670049956214_2_alg».proof.Proof.PartSum
import Idealize.ShloMosaic.Lib.Pipeline.Frame
import Idealize.ShloMosaic.Lib.Pipeline.FrameBody
import Idealize.ShloMosaic.Lib.Pipeline.Value
import Idealize.ShloMosaic.Lib.Exec.Geometry

set_option maxRecDepth 16384

noncomputable section

namespace Cert.KernelIdeal.Cols

open Cert.KernelIdeal Cert.KernelIdeal.Gen
open Idealize.ShloMosaic Idealize.ShloMosaic.TcCoe Idealize.ShloMosaic.ValueIdx
open scoped BigOperators

/-! ## Loads of whole buffers through unit-stride rectangles -/

theorem hz2 : (![0, 0] : Fin 2 → Nat) = fun _ => 0 := funext fun a => by fin_cases a <;> rfl

/-- A load of a whole 16×64000 buffer through the whole-shape rectangle reads the buffer's contents. -/
theorem loadBlk_eq (a : Memref sig .tc .vmem S16x64000 .f32) (ha : a.IsWhole) (x : Vec Ideal S16x64000 .f32)
    (inb : ∀ d, (![0, 0] : Fin 2 → Nat) d + S16x64000.size d ≤ S16x64000.size d) :
    View.readAt (Elt Ideal) a.view (Rect.unit (s := S16x64000) ![0, 0] S16x64000.size inb).toLoadRect (ha.unread x) = x := by
  rw [View.readAt_eq_ld, ha.read_unread]
  exact View.ld_unit_zero (S := S16x64000) hz2 inb x

/-- A load of half s of the stacked 2×16×64000 buffer, as a 1×16×64000 block, at (0, r, l): the buffer's contents at
    (s, r, l). -/
theorem loadHalf_apply (a : Memref sig .tc .vmem S2x16x64000 .f32) (ha : a.IsWhole) (x : Vec Ideal S2x16x64000 .f32)
    (s : Fin 2) (inb : ∀ d, (![s.val, 0, 0] : Fin 3 → Nat) d + S1x16x64000.size d ≤ S2x16x64000.size d)
    (r : Fin 16) (l : Fin 64000) :
    View.readAt (Elt Ideal) a.view (Rect.unit (s := S2x16x64000) ![s.val, 0, 0] S1x16x64000.size inb).toLoadRect (ha.unread x) (ix3 0 r l)
      = x (ix3 s r l) := by
  rw [View.readAt_eq_ld, ha.read_unread]
  refine congrArg x (funext fun d => Fin.ext ?_)
  match d with
  | ⟨0, _⟩ => show s.val + 1 * 0 = s.val; omega
  | ⟨1, _⟩ => show 0 + 1 * r.val = r.val; omega
  | ⟨2, _⟩ => show 0 + 1 * l.val = l.val; omega

/-- A load of column k of the whole 16×8 table, as a 16×1 column, at (r, 0): the table's contents at (r, k). -/
theorem loadCol_apply (a : Memref sig .tc .vmem S16x8 .f32) (ha : a.IsWhole) (x : Vec Ideal S16x8 .f32)
    (k : Fin 8) (inb : ∀ d, (![0, k.val] : Fin 2 → Nat) d + S16x1.size d ≤ S16x8.size d) (r : Fin 16) :
    View.readAt (Elt Ideal) a.view (Rect.unit (s := S16x8) ![0, k.val] S16x1.size inb).toLoadRect (ha.unread x) (ix2 r 0)
      = x (ix2 r k) := by
  rw [View.readAt_eq_ld, ha.read_unread]
  refine congrArg x (funext fun d => Fin.ext ?_)
  match d with
  | ⟨0, _⟩ => show 0 + 1 * r.val = r.val; omega
  | ⟨1, _⟩ => show k.val + 1 * 0 = k.val; omega

/-! ## Covered loads: a load of what a list of stores left over junk -/

/-- A covered load through the whole-table rectangle, at (r, k): the stores' result at (r, k). -/
theorem readCov_whole_apply {sig : RefSig} {κ : Kind} {sp : Space} (v : View sig κ sp S16x8 .f32)
    (L : List (View.Piece (Elt Ideal) S16x8 .f32))
    (inb : ∀ d, (![0, 0] : Fin 2 → Nat) d + S16x8.size d ≤ S16x8.size d) (r : Fin 16) (k : Fin 8) :
    v.readCov L (Rect.unit (s := S16x8) ![0, 0] S16x8.size inb).toLoadRect (ix2 r k)
      = v.read (Elt Ideal) (v.writes (Elt Ideal) v.junk L) (ix2 r k) := by
  refine congrArg (v.read (Elt Ideal) (v.writes (Elt Ideal) v.junk L)) (funext fun d => Fin.ext ?_)
  match d with
  | ⟨0, _⟩ => show 0 + 1 * r.val = r.val; omega
  | ⟨1, _⟩ => show 0 + 1 * k.val = k.val; omega

/-- A covered load of column k, as a 16×1 column, at (r, 0): the stores' result at (r, k). -/
theorem readCov_col_apply {sig : RefSig} {κ : Kind} {sp : Space} (v : View sig κ sp S16x8 .f32)
    (L : List (View.Piece (Elt Ideal) S16x8 .f32)) (k : Fin 8)
    (inb : ∀ d, (![0, k.val] : Fin 2 → Nat) d + S16x1.size d ≤ S16x8.size d) (r : Fin 16) :
    v.readCov L (Rect.unit (s := S16x8) ![0, k.val] S16x1.size inb).toLoadRect (ix2 r 0)
      = v.read (Elt Ideal) (v.writes (Elt Ideal) v.junk L) (ix2 r k) := by
  refine congrArg (v.read (Elt Ideal) (v.writes (Elt Ideal) v.junk L)) (funext fun d => Fin.ext ?_)
  match d with
  | ⟨0, _⟩ => show 0 + 1 * r.val = r.val; omega
  | ⟨1, _⟩ => show k.val + 1 * 0 = k.val; omega

/-! ## The eight column values, the loads read -/

section Values

variable (x0 : Vec Ideal S2x16x64000 .f32) (x1 x2 : Vec Ideal S16x64000 .f32)
variable (L0 L1 : Vec Ideal S1x16x64000 .f32) (B1 B2 : Vec Ideal S16x64000 .f32)
variable (col : Vec Ideal S16x1 .f32) (r : Fin 16)

open PitSiSdr in
/-- Column 0: the loaded entry plus Σ p0² over the block's row. -/
theorem val0 (h0 : ∀ l : Fin 64000, L0 (ix3 0 r l) = x0 (ix3 0 r l)) :
    k0_pay6 (F := Ideal) L0 col (ix2 r 0) = col (ix2 r 0) + partSum x0 x1 x2 r ⟨0, by decide⟩ := by
  refine (Pay.pay6_apply L0 col r).trans ?_
  show _ = col (ix2 r 0) + ∑ q : Fin 64000, x0 (ix3 0 r q) * x0 (ix3 0 r q)
  exact congrArg (col (ix2 r 0) + ·) (Finset.sum_congr rfl fun l _ => by rw [h0 l])

open PitSiSdr in
/-- Column 1: Σ p1². -/
theorem val1 (h1 : ∀ l : Fin 64000, L1 (ix3 0 r l) = x0 (ix3 1 r l)) :
    k0_pay7 (F := Ideal) L1 col (ix2 r 0) = col (ix2 r 0) + partSum x0 x1 x2 r ⟨1, by decide⟩ := by
  refine (Pay.pay7_apply L1 col r).trans ?_
  show _ = col (ix2 r 0) + ∑ q : Fin 64000, x0 (ix3 1 r q) * x0 (ix3 1 r q)
  exact congrArg (col (ix2 r 0) + ·) (Finset.sum_congr rfl fun l _ => by rw [h1 l])

open PitSiSdr in
/-- Column 2: Σ s1² (stored through the identity cast). -/
theorem val2 (e1 : B1 = x1) :
    k0_pay9 (F := Ideal) (k0_pay8 B1 col) (ix2 r 0) = col (ix2 r 0) + partSum x0 x1 x2 r ⟨2, by decide⟩ := by
  subst e1
  rw [Pay.pay9_eq]
  exact Pay.pay8_apply B1 col r

open PitSiSdr in
/-- Column 3: Σ s2². -/
theorem val3 (e2 : B2 = x2) :
    k0_pay10 (F := Ideal) B2 col (ix2 r 0) = col (ix2 r 0) + partSum x0 x1 x2 r ⟨3, by decide⟩ := by
  subst e2
  exact Pay.pay10_apply B2 col r

open PitSiSdr in
/-- Column 4: Σ p0·s1. -/
theorem val4 (h0 : ∀ l : Fin 64000, L0 (ix3 0 r l) = x0 (ix3 0 r l)) (e1 : B1 = x1) :
    k0_pay11 (F := Ideal) (k0_pay4 L0) B1 col (ix2 r 0) = col (ix2 r 0) + partSum x0 x1 x2 r ⟨4, by decide⟩ := by
  subst e1
  refine (Pay.pay11_apply_stack L0 B1 col r).trans ?_
  show _ = col (ix2 r 0) + ∑ q : Fin 64000, x0 (ix3 0 r q) * B1 (ix2 r q)
  exact congrArg (col (ix2 r 0) + ·) (Finset.sum_congr rfl fun l _ => by rw [h0 l])

open PitSiSdr in
/-- Column 5: Σ p1·s2. -/
theorem val5 (h1 : ∀ l : Fin 64000, L1 (ix3 0 r l) = x0 (ix3 1 r l)) (e2 : B2 = x2) :
    k0_pay12 (F := Ideal) (k0_pay5 L1) B2 col (ix2 r 0) = col (ix2 r 0) + partSum x0 x1 x2 r ⟨5, by decide⟩ := by
  subst e2
  refine (Pay.pay12_apply_stack L1 B2 col r).trans ?_
  show _ = col (ix2 r 0) + ∑ q : Fin 64000, x0 (ix3 1 r q) * B2 (ix2 r q)
  exact congrArg (col (ix2 r 0) + ·) (Finset.sum_congr rfl fun l _ => by rw [h1 l])

open PitSiSdr in
/-- Column 6: Σ p1·s1 (stored through the identity cast). -/
theorem val6 (h1 : ∀ l : Fin 64000, L1 (ix3 0 r l) = x0 (ix3 1 r l)) (e1 : B1 = x1) :
    k0_pay1 (F := Ideal) (k0_pay13 (k0_pay5 L1) B1 col) (ix2 r 0) = col (ix2 r 0) + partSum x0 x1 x2 r ⟨6, by decide⟩ := by
  subst e1
  rw [Pay.pay1_eq]
  refine (Pay.pay13_apply_stack L1 B1 col r).trans ?_
  show _ = col (ix2 r 0) + ∑ q : Fin 64000, x0 (ix3 1 r q) * B1 (ix2 r q)
  exact congrArg (col (ix2 r 0) + ·) (Finset.sum_congr rfl fun l _ => by rw [h1 l])

open PitSiSdr in
/-- Column 7: Σ p0·s2. -/
theorem val7 (h0 : ∀ l : Fin 64000, L0 (ix3 0 r l) = x0 (ix3 0 r l)) (e2 : B2 = x2) :
    k0_pay2 (F := Ideal) (k0_pay4 L0) B2 col (ix2 r 0) = col (ix2 r 0) + partSum x0 x1 x2 r ⟨7, by decide⟩ := by
  subst e2
  refine (Pay.pay2_apply_stack L0 B2 col r).trans ?_
  show _ = col (ix2 r 0) + ∑ q : Fin 64000, x0 (ix3 0 r q) * B2 (ix2 r q)
  exact congrArg (col (ix2 r 0) + ·) (Finset.sum_congr rfl fun l _ => by rw [h0 l])

end Values

end Cert.KernelIdeal.Cols

end
-- ==== Proof.IdealFrame.PiecesA.lean ====
/-
  What each case of the body leaves, read at an index, over the extended reals.

  Each case's run found its stores as a list of pieces, newest first: eight column stores into the 16×8 table — column
  k's payload the loaded column k plus the k-th partial sum of the point's blocks — and, in the last case, one
  whole-table store into the result window's buffer; in the first case, a whole-table store of zeros under the
  eight. Entry (r, k) of the table is under the column-k piece alone among the eight (the newer pieces are other
  columns), at local position (r, 0); its payload there is the table's previous entry (r, k) plus the partial sum.
-/
import proofs.«171039_j65670049956214_2_alg».proof.Proof.IdealFrame.Frame
import proofs.«171039_j65670049956214_2_alg».proof.Proof.IdealFrame.PieceCols
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- An index of column k misses the newest piece, the store of a later column c: read what the rest of the list left. -/
local macro "skip_col" k:num c:num : tactic =>
  `(tactic| refine (View.read_writes_cons_unit_of_not_mem _ _ _ _ _ _ rfl (1 : Fin 2)
      (Or.inl (show ($k : ℕ) < $c from by decide))).trans ?_)
/-- An index of the newest piece's column, at local position (r, 0): read the piece's payload there. -/
local macro "hit_col" r:term : tactic =>
  `(tactic| refine (View.read_writes_cons_unit_of_mem _ _ _ _ _ _ (ix2 $r (0 : Fin 1)) rfl
      (fun a => match a with | ⟨0, _⟩ => (Nat.zero_add _).symm | ⟨1, _⟩ => rfl)).trans ?_)
/-- An index of column k misses the newest piece, the store of an earlier column c: read what the rest of the list left. -/
local macro "skip_below" c:num k:num : tactic =>
  `(tactic| refine (View.read_writes_cons_unit_of_not_mem _ _ _ _ _ _ rfl (1 : Fin 2)
      (Or.inr (show ($c : ℕ) + 1 ≤ $k from by decide))).trans ?_)

/-! ## The first step -/

/-- The table after the first step's stores, at (r, k): under the eight column stores lies a store of zeros over the
    whole table, and column k's load reads that store (the earlier column stores are other columns): zero plus the
    k-th partial sum. -/
theorem runA_read (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : cond0_0 i) (hc1 : ¬cond0_1 i)
    (x0 : Vec Ideal S2x16x64000 .f32) (x1 : Vec Ideal S16x64000 .f32) (x2 : Vec Ideal S16x64000 .f32)
    (v : View sig .tc .vmem S16x8 .f32) (f : v.ty.Contents (Elt Ideal)) (r : Fin 16) (k : Fin 8) :
    v.read (Elt Ideal) (v.writes (Elt Ideal) f (kernelRun0_A (F := Ideal) c i arg2 harg2 arg3 harg3 arg4 harg4 arg5 harg5 arg6 harg6 hc0 hc1 x0 x1 x2).1) (ix2 r k)
      = Ideal.ofBits .f32 0x00000000#32 + PitSiSdr.partSum x0 x1 x2 r k := by
  unfold kernelRun0_A
  dsimp only
  sl_unfold_words
  match k with
  | ⟨0, _⟩ =>
    skip_col 0 7
    skip_col 0 6
    skip_col 0 5
    skip_col 0 4
    skip_col 0 3
    skip_col 0 2
    skip_col 0 1
    hit_col r
    refine (Cols.val0 x0 x1 x2 _ _ r (fun l => Cols.loadHalf_apply arg2 harg2 x0 0 _ r l)).trans ?_
    refine congrArg (· + _) ?_
    refine (Cols.readCov_col_apply _ _ ⟨0, by decide⟩ _ r).trans ?_
    refine (View.read_writes_cons_unit_of_mem _ _ _ _ _ _ (ix2 r ⟨0, by decide⟩) rfl
      (fun a => match a with | ⟨0, _⟩ => (Nat.zero_add _).symm | ⟨1, _⟩ => (Nat.zero_add _).symm)).trans ?_
    exact Pay.pay3_apply _
  | ⟨1, _⟩ =>
    skip_col 1 7
    skip_col 1 6
    skip_col 1 5
    skip_col 1 4
    skip_col 1 3
    skip_col 1 2
    hit_col r
    refine (Cols.val1 x0 x1 x2 _ _ r (fun l => Cols.loadHalf_apply arg2 harg2 x0 1 _ r l)).trans ?_
    refine congrArg (· + _) ?_
    refine (Cols.readCov_col_apply _ _ ⟨1, by decide⟩ _ r).trans ?_
    skip_below 0 1
    refine (View.read_writes_cons_unit_of_mem _ _ _ _ _ _ (ix2 r ⟨1, by decide⟩) rfl
      (fun a => match a with | ⟨0, _⟩ => (Nat.zero_add _).symm | ⟨1, _⟩ => (Nat.zero_add _).symm)).trans ?_
    exact Pay.pay3_apply _
  | ⟨2, _⟩ =>
    skip_col 2 7
    skip_col 2 6
    skip_col 2 5
    skip_col 2 4
    skip_col 2 3
    hit_col r
    refine (Cols.val2 x0 x1 x2 _ _ r (Cols.loadBlk_eq arg3 harg3 x1 _)).trans ?_
    refine congrArg (· + _) ?_
    refine (Cols.readCov_col_apply _ _ ⟨2, by decide⟩ _ r).trans ?_
    skip_below 1 2
    skip_below 0 2
    refine (View.read_writes_cons_unit_of_mem _ _ _ _ _ _ (ix2 r ⟨2, by decide⟩) rfl
      (fun a => match a with | ⟨0, _⟩ => (Nat.zero_add _).symm | ⟨1, _⟩ => (Nat.zero_add _).symm)).trans ?_
    exact Pay.pay3_apply _
  | ⟨3, _⟩ =>
    skip_col 3 7
    skip_col 3 6
    skip_col 3 5
    skip_col 3 4
    hit_col r
    refine (Cols.val3 x0 x1 x2 _ _ r (Cols.loadBlk_eq arg4 harg4 x2 _)).trans ?_
    refine congrArg (· + _) ?_
    refine (Cols.readCov_col_apply _ _ ⟨3, by decide⟩ _ r).trans ?_
    skip_below 2 3
    skip_below 1 3
    skip_below 0 3
    refine (View.read_writes_cons_unit_of_mem _ _ _ _ _ _ (ix2 r ⟨3, by decide⟩) rfl
      (fun a => match a with | ⟨0, _⟩ => (Nat.zero_add _).symm | ⟨1, _⟩ => (Nat.zero_add _).symm)).trans ?_
    exact Pay.pay3_apply _
  | ⟨4, _⟩ =>
    skip_col 4 7
    skip_col 4 6
    skip_col 4 5
    hit_col r
    refine (Cols.val4 x0 x1 x2 _ _ _ r (fun l => Cols.loadHalf_apply arg2 harg2 x0 0 _ r l) (Cols.loadBlk_eq arg3 harg3 x1 _)).trans ?_
    refine congrArg (· + _) ?_
    refine (Cols.readCov_col_apply _ _ ⟨4, by decide⟩ _ r).trans ?_
    skip_below 3 4
    skip_below 2 4
    skip_below 1 4
    skip_below 0 4
    refine (View.read_writes_cons_unit_of_mem _ _ _ _ _ _ (ix2 r ⟨4, by decide⟩) rfl
      (fun a => match a with | ⟨0, _⟩ => (Nat.zero_add _).symm | ⟨1, _⟩ => (Nat.zero_add _).symm)).trans ?_
    exact Pay.pay3_apply _
  | ⟨5, _⟩ =>
    skip_col 5 7
    skip_col 5 6
    hit_col r
    refine (Cols.val5 x0 x1 x2 _ _ _ r (fun l => Cols.loadHalf_apply arg2 harg2 x0 1 _ r l) (Cols.loadBlk_eq arg4 harg4 x2 _)).trans ?_
    refine congrArg (· + _) ?_
    refine (Cols.readCov_col_apply _ _ ⟨5, by decide⟩ _ r).trans ?_
    skip_below 4 5
    skip_below 3 5
    skip_below 2 5
    skip_below 1 5
    skip_below 0 5
    refine (View.read_writes_cons_unit_of_mem _ _ _ _ _ _ (ix2 r ⟨5, by decide⟩) rfl
      (fun a => match a with | ⟨0, _⟩ => (Nat.zero_add _).symm | ⟨1, _⟩ => (Nat.zero_add _).symm)).trans ?_
    exact Pay.pay3_apply _
  | ⟨6, _⟩ =>
    skip_col 6 7
    hit_col r
    refine (Cols.val6 x0 x1 x2 _ _ _ r (fun l => Cols.loadHalf_apply arg2 harg2 x0 1 _ r l) (Cols.loadBlk_eq arg3 harg3 x1 _)).trans ?_
    refine congrArg (· + _) ?_
    refine (Cols.readCov_col_apply _ _ ⟨6, by decide⟩ _ r).trans ?_
    skip_below 5 6
    skip_below 4 6
    skip_below 3 6
    skip_below 2 6
    skip_below 1 6
    skip_below 0 6
    refine (View.read_writes_cons_unit_of_mem _ _ _ _ _ _ (ix2 r ⟨6, by decide⟩) rfl
      (fun a => match a with | ⟨0, _⟩ => (Nat.zero_add _).symm | ⟨1, _⟩ => (Nat.zero_add _).symm)).trans ?_
    exact Pay.pay3_apply _
  | ⟨7, _⟩ =>
    hit_col r
    refine (Cols.val7 x0 x1 x2 _ _ _ r (fun l => Cols.loadHalf_apply arg2 harg2 x0 0 _ r l) (Cols.loadBlk_eq arg4 harg4 x2 _)).trans ?_
    refine congrArg (· + _) ?_
    refine (Cols.readCov_col_apply _ _ ⟨7, by decide⟩ _ r).trans ?_
    skip_below 6 7
    skip_below 5 7
    skip_below 4 7
    skip_below 3 7
    skip_below 2 7
    skip_below 1 7
    skip_below 0 7
    refine (View.read_writes_cons_unit_of_mem _ _ _ _ _ _ (ix2 r ⟨7, by decide⟩) rfl
      (fun a => match a with | ⟨0, _⟩ => (Nat.zero_add _).symm | ⟨1, _⟩ => (Nat.zero_add _).symm)).trans ?_
    exact Pay.pay3_apply _

/-- THE TABLE AFTER A FIRST STEP at (r, k): the word of 0.0 plus the k-th partial sum of the point's blocks. -/
theorem soutA_apply (c : Dev nD) (t : Fin cfg0.N) (hc0 : cond0_0 (grid0.coords t)) (hc1 : ¬cond0_1 (grid0.coords t))
    (r : Fin 16) (k : Fin 8) :
    soutA (F := Ideal) m c t hc0 hc1 (ix2 r k)
      = Ideal.ofBits .f32 0x00000000#32 + PitSiSdr.partSum (iblk m c 0 t) (iblk m c 1 t) (iblk m c 2 t) r k := by
  unfold soutA
  exact runA_read c (grid0.coords t) (ms0_0 t) (hs0_0 t) (ms0_1 t) (hs0_1 t) (ms0_2 t) (hs0_2 t) (ms0_3 t) (hs0_3 t) scM0_0
    (Memref.isWhole_whole _) hc0 hc1 (iblk m c 0 t) (iblk m c 1 t) (iblk m c 2 t) VS0_0 VS0_0.junk r k

/-- … which is the partial sum itself: the word of 0.0 is the real number zero. -/
theorem soutA_apply' (c : Dev nD) (t : Fin cfg0.N) (hc0 : cond0_0 (grid0.coords t)) (hc1 : ¬cond0_1 (grid0.coords t))
    (r : Fin 16) (k : Fin 8) :
    soutA (F := Ideal) m c t hc0 hc1 (ix2 r k) = PitSiSdr.partSum (iblk m c 0 t) (iblk m c 1 t) (iblk m c 2 t) r k := by
  rw [soutA_apply, Ideal.ofBits_zero_f32, zero_add]

end Cert.KernelIdeal.Hand

end
-- ==== Proof.IdealFrame.PiecesB.lean ====
/-
  What each case of the body leaves, read at an index, over the extended reals.

  Each case's run found its stores as a list of pieces, newest first: eight column stores into the 16×8 table — column
  k's payload the loaded column k plus the k-th partial sum of the point's blocks — and, in the last case, one
  whole-table store into the result window's buffer; in the first case, a whole-table store of zeros under the
  eight. Entry (r, k) of the table is under the column-k piece alone among the eight (the newer pieces are other
  columns), at local position (r, 0); its payload there is the table's previous entry (r, k) plus the partial sum.
-/
import proofs.«171039_j65670049956214_2_alg».proof.Proof.IdealFrame.Frame
import proofs.«171039_j65670049956214_2_alg».proof.Proof.IdealFrame.PieceCols
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- An index of column k misses the newest piece, the store of a later column c: read what the rest of the list left. -/
local macro "skip_col" k:num c:num : tactic =>
  `(tactic| refine (View.read_writes_cons_unit_of_not_mem _ _ _ _ _ _ rfl (1 : Fin 2)
      (Or.inl (show ($k : ℕ) < $c from by decide))).trans ?_)
/-- An index of the newest piece's column, at local position (r, 0): read the piece's payload there. -/
local macro "hit_col" r:term : tactic =>
  `(tactic| refine (View.read_writes_cons_unit_of_mem _ _ _ _ _ _ (ix2 $r (0 : Fin 1)) rfl
      (fun a => match a with | ⟨0, _⟩ => (Nat.zero_add _).symm | ⟨1, _⟩ => rfl)).trans ?_)

/-! ## A middle step -/

/-- The table after a middle step's eight stores, at (r, k): what it held plus the k-th partial sum. -/
theorem runB_read (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : ¬cond0_1 i)
    (x0 : Vec Ideal S2x16x64000 .f32) (x1 : Vec Ideal S16x64000 .f32) (x2 : Vec Ideal S16x64000 .f32) (xs0 : Vec Ideal S16x8 .f32)
    (v : View sig .tc .vmem S16x8 .f32) (f : v.ty.Contents (Elt Ideal)) (r : Fin 16) (k : Fin 8) :
    v.read (Elt Ideal) (v.writes (Elt Ideal) f (kernelRun0_B (F := Ideal) c i arg2 harg2 arg3 harg3 arg4 harg4 arg5 harg5 arg6 harg6 hc0 hc1 x0 x1 x2 xs0).1) (ix2 r k)
      = xs0 (ix2 r k) + PitSiSdr.partSum x0 x1 x2 r k := by
  unfold kernelRun0_B
  dsimp only
  sl_unfold_words
  match k with
  | ⟨0, _⟩ =>
    skip_col 0 7
    skip_col 0 6
    skip_col 0 5
    skip_col 0 4
    skip_col 0 3
    skip_col 0 2
    skip_col 0 1
    hit_col r
    refine (Cols.val0 x0 x1 x2 _ _ r (fun l => Cols.loadHalf_apply arg2 harg2 x0 0 _ r l)).trans ?_
    exact congrArg (· + _) (Cols.loadCol_apply arg6 harg6 xs0 ⟨0, by decide⟩ _ r)
  | ⟨1, _⟩ =>
    skip_col 1 7
    skip_col 1 6
    skip_col 1 5
    skip_col 1 4
    skip_col 1 3
    skip_col 1 2
    hit_col r
    refine (Cols.val1 x0 x1 x2 _ _ r (fun l => Cols.loadHalf_apply arg2 harg2 x0 1 _ r l)).trans ?_
    exact congrArg (· + _) (Cols.loadCol_apply arg6 harg6 xs0 ⟨1, by decide⟩ _ r)
  | ⟨2, _⟩ =>
    skip_col 2 7
    skip_col 2 6
    skip_col 2 5
    skip_col 2 4
    skip_col 2 3
    hit_col r
    refine (Cols.val2 x0 x1 x2 _ _ r (Cols.loadBlk_eq arg3 harg3 x1 _)).trans ?_
    exact congrArg (· + _) (Cols.loadCol_apply arg6 harg6 xs0 ⟨2, by decide⟩ _ r)
  | ⟨3, _⟩ =>
    skip_col 3 7
    skip_col 3 6
    skip_col 3 5
    skip_col 3 4
    hit_col r
    refine (Cols.val3 x0 x1 x2 _ _ r (Cols.loadBlk_eq arg4 harg4 x2 _)).trans ?_
    exact congrArg (· + _) (Cols.loadCol_apply arg6 harg6 xs0 ⟨3, by decide⟩ _ r)
  | ⟨4, _⟩ =>
    skip_col 4 7
    skip_col 4 6
    skip_col 4 5
    hit_col r
    refine (Cols.val4 x0 x1 x2 _ _ _ r (fun l => Cols.loadHalf_apply arg2 harg2 x0 0 _ r l) (Cols.loadBlk_eq arg3 harg3 x1 _)).trans ?_
    exact congrArg (· + _) (Cols.loadCol_apply arg6 harg6 xs0 ⟨4, by decide⟩ _ r)
  | ⟨5, _⟩ =>
    skip_col 5 7
    skip_col 5 6
    hit_col r
    refine (Cols.val5 x0 x1 x2 _ _ _ r (fun l => Cols.loadHalf_apply arg2 harg2 x0 1 _ r l) (Cols.loadBlk_eq arg4 harg4 x2 _)).trans ?_
    exact congrArg (· + _) (Cols.loadCol_apply arg6 harg6 xs0 ⟨5, by decide⟩ _ r)
  | ⟨6, _⟩ =>
    skip_col 6 7
    hit_col r
    refine (Cols.val6 x0 x1 x2 _ _ _ r (fun l => Cols.loadHalf_apply arg2 harg2 x0 1 _ r l) (Cols.loadBlk_eq arg3 harg3 x1 _)).trans ?_
    exact congrArg (· + _) (Cols.loadCol_apply arg6 harg6 xs0 ⟨6, by decide⟩ _ r)
  | ⟨7, _⟩ =>
    hit_col r
    refine (Cols.val7 x0 x1 x2 _ _ _ r (fun l => Cols.loadHalf_apply arg2 harg2 x0 0 _ r l) (Cols.loadBlk_eq arg4 harg4 x2 _)).trans ?_
    exact congrArg (· + _) (Cols.loadCol_apply arg6 harg6 xs0 ⟨7, by decide⟩ _ r)

/-- THE TABLE AFTER A MIDDLE STEP at (r, k): what the step before left plus the k-th partial sum of the point's blocks. -/
theorem soutB_apply (c : Dev nD) (t : Fin cfg0.N) (hc0 : ¬cond0_0 (grid0.coords t)) (hc1 : ¬cond0_1 (grid0.coords t))
    (xs0 : Vec Ideal S16x8 .f32) (r : Fin 16) (k : Fin 8) :
    soutB (F := Ideal) m c t hc0 hc1 xs0 (ix2 r k)
      = xs0 (ix2 r k) + PitSiSdr.partSum (iblk m c 0 t) (iblk m c 1 t) (iblk m c 2 t) r k := by
  unfold soutB
  exact runB_read c (grid0.coords t) (ms0_0 t) (hs0_0 t) (ms0_1 t) (hs0_1 t) (ms0_2 t) (hs0_2 t) (ms0_3 t) (hs0_3 t) scM0_0
    (Memref.isWhole_whole _) hc0 hc1 (iblk m c 0 t) (iblk m c 1 t) (iblk m c 2 t) xs0 VS0_0 VS0_0.junk r k

end Cert.KernelIdeal.Hand

end
-- ==== Proof.IdealFrame.PiecesC.lean ====
/-
  What each case of the body leaves, read at an index, over the extended reals.

  Each case's run found its stores as a list of pieces, newest first: eight column stores into the 16×8 table — column
  k's payload the loaded column k plus the k-th partial sum of the point's blocks — and, in the last case, one
  whole-table store into the result window's buffer; in the first case, a whole-table store of zeros under the
  eight. Entry (r, k) of the table is under the column-k piece alone among the eight (the newer pieces are other
  columns), at local position (r, 0); its payload there is the table's previous entry (r, k) plus the partial sum.
-/
import proofs.«171039_j65670049956214_2_alg».proof.Proof.IdealFrame.Frame
import proofs.«171039_j65670049956214_2_alg».proof.Proof.IdealFrame.PieceCols
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- An index of column k misses the newest piece, the store of a later column c: read what the rest of the list left. -/
local macro "skip_col" k:num c:num : tactic =>
  `(tactic| refine (View.read_writes_cons_unit_of_not_mem _ _ _ _ _ _ rfl (1 : Fin 2)
      (Or.inl (show ($k : ℕ) < $c from by decide))).trans ?_)
/-- An index of the newest piece's column, at local position (r, 0): read the piece's payload there. -/
local macro "hit_col" r:term : tactic =>
  `(tactic| refine (View.read_writes_cons_unit_of_mem _ _ _ _ _ _ (ix2 $r (0 : Fin 1)) rfl
      (fun a => match a with | ⟨0, _⟩ => (Nat.zero_add _).symm | ⟨1, _⟩ => rfl)).trans ?_)

/-! ## The last step -/

/-- The table after the last step's eight stores, at (r, k): as after a middle step. -/
theorem runC_table_read (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : cond0_1 i)
    (x0 : Vec Ideal S2x16x64000 .f32) (x1 : Vec Ideal S16x64000 .f32) (x2 : Vec Ideal S16x64000 .f32) (xs0 : Vec Ideal S16x8 .f32)
    (v : View sig .tc .vmem S16x8 .f32) (f : v.ty.Contents (Elt Ideal)) (r : Fin 16) (k : Fin 8) :
    v.read (Elt Ideal) (v.writes (Elt Ideal) f (kernelRun0_C (F := Ideal) c i arg2 harg2 arg3 harg3 arg4 harg4 arg5 harg5 arg6 harg6 hc0 hc1 x0 x1 x2 xs0).2.1) (ix2 r k)
      = xs0 (ix2 r k) + PitSiSdr.partSum x0 x1 x2 r k := by
  unfold kernelRun0_C
  dsimp only
  sl_unfold_words
  match k with
  | ⟨0, _⟩ =>
    skip_col 0 7
    skip_col 0 6
    skip_col 0 5
    skip_col 0 4
    skip_col 0 3
    skip_col 0 2
    skip_col 0 1
    hit_col r
    refine (Cols.val0 x0 x1 x2 _ _ r (fun l => Cols.loadHalf_apply arg2 harg2 x0 0 _ r l)).trans ?_
    exact congrArg (· + _) (Cols.loadCol_apply arg6 harg6 xs0 ⟨0, by decide⟩ _ r)
  | ⟨1, _⟩ =>
    skip_col 1 7
    skip_col 1 6
    skip_col 1 5
    skip_col 1 4
    skip_col 1 3
    skip_col 1 2
    hit_col r
    refine (Cols.val1 x0 x1 x2 _ _ r (fun l => Cols.loadHalf_apply arg2 harg2 x0 1 _ r l)).trans ?_
    exact congrArg (· + _) (Cols.loadCol_apply arg6 harg6 xs0 ⟨1, by decide⟩ _ r)
  | ⟨2, _⟩ =>
    skip_col 2 7
    skip_col 2 6
    skip_col 2 5
    skip_col 2 4
    skip_col 2 3
    hit_col r
    refine (Cols.val2 x0 x1 x2 _ _ r (Cols.loadBlk_eq arg3 harg3 x1 _)).trans ?_
    exact congrArg (· + _) (Cols.loadCol_apply arg6 harg6 xs0 ⟨2, by decide⟩ _ r)
  | ⟨3, _⟩ =>
    skip_col 3 7
    skip_col 3 6
    skip_col 3 5
    skip_col 3 4
    hit_col r
    refine (Cols.val3 x0 x1 x2 _ _ r (Cols.loadBlk_eq arg4 harg4 x2 _)).trans ?_
    exact congrArg (· + _) (Cols.loadCol_apply arg6 harg6 xs0 ⟨3, by decide⟩ _ r)
  | ⟨4, _⟩ =>
    skip_col 4 7
    skip_col 4 6
    skip_col 4 5
    hit_col r
    refine (Cols.val4 x0 x1 x2 _ _ _ r (fun l => Cols.loadHalf_apply arg2 harg2 x0 0 _ r l) (Cols.loadBlk_eq arg3 harg3 x1 _)).trans ?_
    exact congrArg (· + _) (Cols.loadCol_apply arg6 harg6 xs0 ⟨4, by decide⟩ _ r)
  | ⟨5, _⟩ =>
    skip_col 5 7
    skip_col 5 6
    hit_col r
    refine (Cols.val5 x0 x1 x2 _ _ _ r (fun l => Cols.loadHalf_apply arg2 harg2 x0 1 _ r l) (Cols.loadBlk_eq arg4 harg4 x2 _)).trans ?_
    exact congrArg (· + _) (Cols.loadCol_apply arg6 harg6 xs0 ⟨5, by decide⟩ _ r)
  | ⟨6, _⟩ =>
    skip_col 6 7
    hit_col r
    refine (Cols.val6 x0 x1 x2 _ _ _ r (fun l => Cols.loadHalf_apply arg2 harg2 x0 1 _ r l) (Cols.loadBlk_eq arg3 harg3 x1 _)).trans ?_
    exact congrArg (· + _) (Cols.loadCol_apply arg6 harg6 xs0 ⟨6, by decide⟩ _ r)
  | ⟨7, _⟩ =>
    hit_col r
    refine (Cols.val7 x0 x1 x2 _ _ _ r (fun l => Cols.loadHalf_apply arg2 harg2 x0 0 _ r l) (Cols.loadBlk_eq arg4 harg4 x2 _)).trans ?_
    exact congrArg (· + _) (Cols.loadCol_apply arg6 harg6 xs0 ⟨7, by decide⟩ _ r)

/-- The result window's buffer after the last step, at (r, k): the one store into it is the whole table, loaded after
    the eight column stores — the same value. -/
theorem runC_out_read (c : Dev nD) (i : grid0.Coords) (arg2 : Memref sig .tc .vmem S2x16x64000 .f32) (harg2 : arg2.IsWhole) (arg3 : Memref sig .tc .vmem S16x64000 .f32) (harg3 : arg3.IsWhole) (arg4 : Memref sig .tc .vmem S16x64000 .f32) (harg4 : arg4.IsWhole) (arg5 : Memref sig .tc .vmem S16x8 .f32) (harg5 : arg5.IsWhole) (arg6 : Memref sig .tc .vmem S16x8 .f32) (harg6 : arg6.IsWhole) (hc0 : ¬cond0_0 i) (hc1 : cond0_1 i)
    (x0 : Vec Ideal S2x16x64000 .f32) (x1 : Vec Ideal S16x64000 .f32) (x2 : Vec Ideal S16x64000 .f32) (xs0 : Vec Ideal S16x8 .f32)
    (v : View sig .tc .vmem S16x8 .f32) (f : v.ty.Contents (Elt Ideal)) (r : Fin 16) (k : Fin 8) :
    v.read (Elt Ideal) (v.writes (Elt Ideal) f (kernelRun0_C (F := Ideal) c i arg2 harg2 arg3 harg3 arg4 harg4 arg5 harg5 arg6 harg6 hc0 hc1 x0 x1 x2 xs0).1) (ix2 r k)
      = xs0 (ix2 r k) + PitSiSdr.partSum x0 x1 x2 r k := by
  unfold kernelRun0_C
  dsimp only
  sl_unfold_words
  refine (View.read_writes_cons_unit_of_mem _ _ _ _ _ _ (ix2 r k) rfl
    (fun a => match a with | ⟨0, _⟩ => (Nat.zero_add _).symm | ⟨1, _⟩ => (Nat.zero_add _).symm)).trans ?_
  refine (Cols.readCov_whole_apply _ _ _ r k).trans ?_
  match k with
  | ⟨0, _⟩ =>
    skip_col 0 7
    skip_col 0 6
    skip_col 0 5
    skip_col 0 4
    skip_col 0 3
    skip_col 0 2
    skip_col 0 1
    hit_col r
    refine (Cols.val0 x0 x1 x2 _ _ r (fun l => Cols.loadHalf_apply arg2 harg2 x0 0 _ r l)).trans ?_
    exact congrArg (· + _) (Cols.loadCol_apply arg6 harg6 xs0 ⟨0, by decide⟩ _ r)
  | ⟨1, _⟩ =>
    skip_col 1 7
    skip_col 1 6
    skip_col 1 5
    skip_col 1 4
    skip_col 1 3
    skip_col 1 2
    hit_col r
    refine (Cols.val1 x0 x1 x2 _ _ r (fun l => Cols.loadHalf_apply arg2 harg2 x0 1 _ r l)).trans ?_
    exact congrArg (· + _) (Cols.loadCol_apply arg6 harg6 xs0 ⟨1, by decide⟩ _ r)
  | ⟨2, _⟩ =>
    skip_col 2 7
    skip_col 2 6
    skip_col 2 5
    skip_col 2 4
    skip_col 2 3
    hit_col r
    refine (Cols.val2 x0 x1 x2 _ _ r (Cols.loadBlk_eq arg3 harg3 x1 _)).trans ?_
    exact congrArg (· + _) (Cols.loadCol_apply arg6 harg6 xs0 ⟨2, by decide⟩ _ r)
  | ⟨3, _⟩ =>
    skip_col 3 7
    skip_col 3 6
    skip_col 3 5
    skip_col 3 4
    hit_col r
    refine (Cols.val3 x0 x1 x2 _ _ r (Cols.loadBlk_eq arg4 harg4 x2 _)).trans ?_
    exact congrArg (· + _) (Cols.loadCol_apply arg6 harg6 xs0 ⟨3, by decide⟩ _ r)
  | ⟨4, _⟩ =>
    skip_col 4 7
    skip_col 4 6
    skip_col 4 5
    hit_col r
    refine (Cols.val4 x0 x1 x2 _ _ _ r (fun l => Cols.loadHalf_apply arg2 harg2 x0 0 _ r l) (Cols.loadBlk_eq arg3 harg3 x1 _)).trans ?_
    exact congrArg (· + _) (Cols.loadCol_apply arg6 harg6 xs0 ⟨4, by decide⟩ _ r)
  | ⟨5, _⟩ =>
    skip_col 5 7
    skip_col 5 6
    hit_col r
    refine (Cols.val5 x0 x1 x2 _ _ _ r (fun l => Cols.loadHalf_apply arg2 harg2 x0 1 _ r l) (Cols.loadBlk_eq arg4 harg4 x2 _)).trans ?_
    exact congrArg (· + _) (Cols.loadCol_apply arg6 harg6 xs0 ⟨5, by decide⟩ _ r)
  | ⟨6, _⟩ =>
    skip_col 6 7
    hit_col r
    refine (Cols.val6 x0 x1 x2 _ _ _ r (fun l => Cols.loadHalf_apply arg2 harg2 x0 1 _ r l) (Cols.loadBlk_eq arg3 harg3 x1 _)).trans ?_
    exact congrArg (· + _) (Cols.loadCol_apply arg6 harg6 xs0 ⟨6, by decide⟩ _ r)
  | ⟨7, _⟩ =>
    hit_col r
    refine (Cols.val7 x0 x1 x2 _ _ _ r (fun l => Cols.loadHalf_apply arg2 harg2 x0 0 _ r l) (Cols.loadBlk_eq arg4 harg4 x2 _)).trans ?_
    exact congrArg (· + _) (Cols.loadCol_apply arg6 harg6 xs0 ⟨7, by decide⟩ _ r)

/-- THE TABLE AFTER THE LAST STEP at (r, k). -/
theorem soutC_apply (c : Dev nD) (t : Fin cfg0.N) (hc0 : ¬cond0_0 (grid0.coords t)) (hc1 : cond0_1 (grid0.coords t))
    (xs0 : Vec Ideal S16x8 .f32) (r : Fin 16) (k : Fin 8) :
    soutC (F := Ideal) m c t hc0 hc1 xs0 (ix2 r k)
      = xs0 (ix2 r k) + PitSiSdr.partSum (iblk m c 0 t) (iblk m c 1 t) (iblk m c 2 t) r k := by
  unfold soutC
  exact runC_table_read c (grid0.coords t) (ms0_0 t) (hs0_0 t) (ms0_1 t) (hs0_1 t) (ms0_2 t) (hs0_2 t) (ms0_3 t) (hs0_3 t) scM0_0
    (Memref.isWhole_whole _) hc0 hc1 (iblk m c 0 t) (iblk m c 1 t) (iblk m c 2 t) xs0 VS0_0 VS0_0.junk r k

/-- THE RESULT WINDOW'S BUFFER AFTER THE LAST STEP at (r, k): the same value, which the grid then writes back. -/
theorem outC_apply (c : Dev nD) (t : Fin cfg0.N) (hc0 : ¬cond0_0 (grid0.coords t)) (hc1 : cond0_1 (grid0.coords t))
    (xs0 : Vec Ideal S16x8 .f32) (r : Fin 16) (k : Fin 8) :
    outC (F := Ideal) m c t hc0 hc1 xs0 (ix2 r k)
      = xs0 (ix2 r k) + PitSiSdr.partSum (iblk m c 0 t) (iblk m c 1 t) (iblk m c 2 t) r k := by
  unfold outC
  exact runC_out_read c (grid0.coords t) (ms0_0 t) (hs0_0 t) (ms0_1 t) (hs0_1 t) (ms0_2 t) (hs0_2 t) (ms0_3 t) (hs0_3 t) scM0_0
    (Memref.isWhole_whole _) hc0 hc1 (iblk m c 0 t) (iblk m c 1 t) (iblk m c 2 t) xs0 VO0_3 VO0_3.junk r k

end Cert.KernelIdeal.Hand

end
-- ==== Proof.IdealFrame.Pieces.lean ====
/-
  What each case of the body leaves, read at an index: the three cases' modules under one name.
-/
import proofs.«171039_j65670049956214_2_alg».proof.Proof.IdealFrame.PiecesA
import proofs.«171039_j65670049956214_2_alg».proof.Proof.IdealFrame.PiecesB
import proofs.«171039_j65670049956214_2_alg».proof.Proof.IdealFrame.PiecesC
-- ==== Proof.IdealFrame.Blocks.lean ====
/-
  The windows' blocks read at coordinates, and the result's blocks covering the result.

  The grid is 4 × 4; point t has coordinates (t / 4, t % 4). At point t the stacked array's block is rows
  16 (t / 4) … 16 (t / 4) + 15, samples 64000 (t % 4) … 64000 (t % 4) + 63999 of both sources, each target's block the
  same rows and samples, and the result's block the same sixteen rows of the 64 × 8 table. So a block read at block
  coordinates is the array read at the shifted coordinates; and the result's blocks written back at the points with
  t % 4 = 3 — one per row block — contain every index of the result between them.
-/
import proofs.«171039_j65670049956214_2_alg».proof.Proof.IdealFrame.Shared
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The printed index maps over the grid -/

/-- Point t of the 4 × 4 grid has coordinates (t / 4, t % 4): the stacked array's block index is (0, t / 4, t % 4), the
    two targets' (t / 4, t % 4), the result's (t / 4, 0). Decided once over the sixteen points. -/
theorem idx_facts : ∀ t : Fin cfg0.N,
    win0_0.index t (0 : Fin 3) = 0 ∧ win0_0.index t (1 : Fin 3) = t.val / 4 ∧ win0_0.index t (2 : Fin 3) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = t.val / 4 ∧ win0_3.index t (1 : Fin 2) = 0 :=
  (by decide +kernel : ∀ t : Fin grid0.N, _)

/-- A point's row-block index is below 4 and its sample-block index is below 4. -/
theorem t_lt (t : Fin cfg0.N) : t.val < 16 := by
  have h : cfg0.N = 16 := Gen.N_0
  have := t.isLt
  omega

/-! ## Block coordinates to array coordinates -/

/-- Block coordinates (s, r, q) of the stacked array's block at point t are array coordinates
    (s, 16 (t / 4) + r, 64000 (t % 4) + q). -/
theorem emb0 (t : Fin cfg0.N) (s : Fin 2) (r : Fin 16) (q : Fin 64000) :
    ((cfg0.win 0).blk t).view.emb (ix3 s r q)
      = ix3 s ⟨16 * (t.val / 4) + r.val, by have := t_lt t; omega⟩ ⟨64000 * (t.val % 4) + q.val, by have := t_lt t; omega⟩ := by
  obtain ⟨e0, e1, e2, -⟩ := idx_facts t
  funext a; apply Fin.ext
  match a with
  | ⟨0, _⟩ => show win0_0.index t (0 : Fin 3) * 2 + 1 * s.val = s.val; omega
  | ⟨1, _⟩ => show win0_0.index t (1 : Fin 3) * 16 + 1 * r.val = 16 * (t.val / 4) + r.val; omega
  | ⟨2, _⟩ => show win0_0.index t (2 : Fin 3) * 64000 + 1 * q.val = 64000 * (t.val % 4) + q.val; omega

/-- Block coordinates (r, q) of the first target's block at point t are array coordinates
    (16 (t / 4) + r, 64000 (t % 4) + q). -/
theorem emb1 (t : Fin cfg0.N) (r : Fin 16) (q : Fin 64000) :
    ((cfg0.win 1).blk t).view.emb (ix2 r q)
      = ix2 ⟨16 * (t.val / 4) + r.val, by have := t_lt t; omega⟩ ⟨64000 * (t.val % 4) + q.val, by have := t_lt t; omega⟩ := by
  obtain ⟨-, -, -, e0, e1, -⟩ := idx_facts t
  funext a; apply Fin.ext
  match a with
  | ⟨0, _⟩ => show win0_1.index t (0 : Fin 2) * 16 + 1 * r.val = 16 * (t.val / 4) + r.val; omega
  | ⟨1, _⟩ => show win0_1.index t (1 : Fin 2) * 64000 + 1 * q.val = 64000 * (t.val % 4) + q.val; omega

/-- The second target's block likewise. -/
theorem emb2 (t : Fin cfg0.N) (r : Fin 16) (q : Fin 64000) :
    ((cfg0.win 2).blk t).view.emb (ix2 r q)
      = ix2 ⟨16 * (t.val / 4) + r.val, by have := t_lt t; omega⟩ ⟨64000 * (t.val % 4) + q.val, by have := t_lt t; omega⟩ := by
  obtain ⟨-, -, -, -, -, e0, e1, -⟩ := idx_facts t
  funext a; apply Fin.ext
  match a with
  | ⟨0, _⟩ => show win0_2.index t (0 : Fin 2) * 16 + 1 * r.val = 16 * (t.val / 4) + r.val; omega
  | ⟨1, _⟩ => show win0_2.index t (1 : Fin 2) * 64000 + 1 * q.val = 64000 * (t.val % 4) + q.val; omega

/-- Block coordinates (r, k) of the result's block at point t are array coordinates (16 (t / 4) + r, k). -/
theorem emb3 (t : Fin cfg0.N) (r : Fin 16) (k : Fin 8) :
    ((cfg0.win 3).blk t).view.emb (ix2 r k) = ix2 ⟨16 * (t.val / 4) + r.val, by have := t_lt t; omega⟩ k := by
  obtain ⟨-, -, -, -, -, -, -, e0, e1⟩ := idx_facts t
  funext a; apply Fin.ext
  match a with
  | ⟨0, _⟩ => show win0_3.index t (0 : Fin 2) * 16 + 1 * r.val = 16 * (t.val / 4) + r.val; omega
  | ⟨1, _⟩ => show win0_3.index t (1 : Fin 2) * 8 + 1 * k.val = k.val; omega

/-! ## The result's blocks cover the result -/

/-- An index of the 64 × 8 result is in point t's block iff its row is one of the block's sixteen rows. -/
theorem mem_blk3 (t : Fin cfg0.N) (i : S64x8.Idx) :
    i ∈ ((cfg0.win 3).blk t).view.set ↔ 16 * (t.val / 4) ≤ (i 0).val ∧ (i 0).val < 16 * (t.val / 4) + 16 := by
  show i ∈ ((View.whole main_v0).slice (win0_3.rect t)).set ↔ _
  rw [View.set_slice_whole, Rect.mem_set_unit]
  obtain ⟨-, -, -, -, -, -, -, e0, e1⟩ := idx_facts t
  have h1 : (i 1).val < 8 := (i 1).isLt
  constructor
  · intro h
    have b0 : win0_3.index t (0 : Fin 2) * 16 ≤ (i 0).val ∧ (i 0).val < win0_3.index t (0 : Fin 2) * 16 + 16 := h 0
    omega
  · intro h a
    match a with
    | ⟨0, _⟩ => show win0_3.index t (0 : Fin 2) * 16 ≤ (i 0).val ∧ (i 0).val < win0_3.index t (0 : Fin 2) * 16 + 16; omega
    | ⟨1, _⟩ => show win0_3.index t (1 : Fin 2) * 8 ≤ (i 1).val ∧ (i 1).val < win0_3.index t (1 : Fin 2) * 8 + 8; omega

/-- The last point along the samples of the row block that holds row j: point 4 (j / 16) + 3. -/
def lastPoint (j : ℕ) (hj : j < 64) : Fin cfg0.N :=
  ⟨4 * (j / 16) + 3, by have h : cfg0.N = 16 := Gen.N_0; omega⟩

theorem lastPoint_val (j : ℕ) (hj : j < 64) : (lastPoint j hj).val = 4 * (j / 16) + 3 := rfl

/-- It writes its block back, -/
theorem lastPoint_flush (j : ℕ) (hj : j < 64) : (cfg0.win 3).flush (lastPoint j hj) = true :=
  (Gen.flush0_3 (lastPoint j hj)).mpr (by have e := lastPoint_val j hj; omega)

/-- and every index of row j is in that block. -/
theorem mem_lastPoint (i : S64x8.Idx) : i ∈ ((cfg0.win 3).blk (lastPoint (i 0).val (i 0).isLt)).view.set := by
  have e := lastPoint_val (i 0).val (i 0).isLt
  have h0 : (i 0).val < 64 := (i 0).isLt
  rw [mem_blk3]
  omega

/-- THE COVER: every index of the result is in the block of a point that writes back. -/
theorem cover3 (i : S64x8.Idx) : ∃ t : Fin cfg0.N, (cfg0.win 3).flush t = true ∧ i ∈ ((cfg0.win 3).blk t).view.set :=
  ⟨lastPoint (i 0).val (i 0).isLt, lastPoint_flush _ _, mem_lastPoint i⟩

/-- A block of the result read off a whole-array function G, at block coordinates (r, k): G at
    (16 (t / 4) + r, k). -/
theorem read3_apply {Val : EltTy → Type} (t : Fin cfg0.N) (G : S64x8.Idx → Val .f32) (r : Fin 16) (k : Fin 8) :
    ((cfg0.win 3).blk t).view.read Val G (ix2 r k) = G (ix2 ⟨16 * (t.val / 4) + r.val, by have := t_lt t; omega⟩ k) := by
  rw [View.read_apply]
  exact congrArg G (emb3 t r k)

/-! ## The input windows' blocks read at coordinates -/

/-- The stacked array's block at point t, at (s, r, q): the array at (s, 16 (t / 4) + r, 64000 (t % 4) + q). -/
theorem iblk0_apply (c : Dev nD) (t : Fin cfg0.N) (s : Fin 2) (r : Fin 16) (q : Fin 64000) :
    iblk m c 0 t (ix3 s r q)
      = V m c main_arg0 (ix3 s ⟨16 * (t.val / 4) + r.val, by have := t_lt t; omega⟩ ⟨64000 * (t.val % 4) + q.val, by have := t_lt t; omega⟩) := by
  show V m c main_arg0 (((cfg0.win 0).blk t).view.emb (ix3 s r q)) = _
  rw [emb0]

/-- The first target's block at point t, at (r, q): the array at (16 (t / 4) + r, 64000 (t % 4) + q). -/
theorem iblk1_apply (c : Dev nD) (t : Fin cfg0.N) (r : Fin 16) (q : Fin 64000) :
    iblk m c 1 t (ix2 r q)
      = V m c main_arg1 (ix2 ⟨16 * (t.val / 4) + r.val, by have := t_lt t; omega⟩ ⟨64000 * (t.val % 4) + q.val, by have := t_lt t; omega⟩) := by
  show V m c main_arg1 (((cfg0.win 1).blk t).view.emb (ix2 r q)) = _
  rw [emb1]

/-- The second target's block likewise. -/
theorem iblk2_apply (c : Dev nD) (t : Fin cfg0.N) (r : Fin 16) (q : Fin 64000) :
    iblk m c 2 t (ix2 r q)
      = V m c main_arg2 (ix2 ⟨16 * (t.val / 4) + r.val, by have := t_lt t; omega⟩ ⟨64000 * (t.val % 4) + q.val, by have := t_lt t; omega⟩) := by
  show V m c main_arg2 (((cfg0.win 2).blk t).view.emb (ix2 r q)) = _
  rw [emb2]

/-- A function of the result block's coordinates that is G at the shifted coordinates, for every (r, k), IS point t's
    block of G: the form in which a point's written-back block is compared with a whole-array function. -/
theorem eq_read3_of (t : Fin cfg0.N) (G : S64x8.Idx → Elt F .f32)
    (f : ((cfg0.win 3).xblock (cfg0.grid.coords t)).Idx → Elt F (cfg0.win 3).elt)
    (h : ∀ (r : Fin 16) (k : Fin 8), f (ix2 r k) = G (ix2 ⟨16 * (t.val / 4) + r.val, by have := t_lt t; omega⟩ k)) :
    f = ((cfg0.win 3).blk t).view.read (Elt F) G := by
  funext y
  obtain ⟨r, k, rfl⟩ : ∃ (r : Fin 16) (k : Fin 8), y = ix2 r k := ⟨y 0, y 1, eq_ix2 y⟩
  rw [h, read3_apply]

end Cert.KernelIdeal.Hand

end
-- ==== Proof.IdealFrame.Table.lean ====
/-
  What the result array holds after the grid: the table of the specification's row sums.

  A row block is visited by four consecutive points. The first clears the table and adds its eight partial sums,
  the next two add theirs, the last adds its own and copies the table out; so what is written back for rows
  `16 i … 16 i + 15` is, entry by entry, the sum of the four points' partial sums — and four chunks of 64000 samples
  are the 256000 samples of the row. The four write-backs cover the 64 rows.
-/
import proofs.«171039_j65670049956214_2_alg».proof.Proof.IdealFrame.Pieces
import proofs.«171039_j65670049956214_2_alg».proof.Proof.IdealFrame.Blocks
import proofs.«171039_j65670049956214_2_alg».proof.Proof.PartSum
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx
open PitSiSdr (partSum estBlk tgtBlk rowSum SEst STgt SEstBlk STgtBlk)

variable (mI : (ℓ : Loc nD τ sig) → Buf (Elt Ideal) ℓ)

/-- The zero word is the extended real zero. -/
theorem zeroW : (Ideal.ofBits .f32 0x00000000#32 : EReal) = 0 := Ideal.ofBits_zero_f32

/-- The three argument arrays as the grid finds them, and the block row and step of a point. -/
abbrev arrP (c : Dev nD) : SEst.Idx → EReal := V mI c main_arg0
abbrev arrT1 (c : Dev nD) : STgt.Idx → EReal := V mI c main_arg1
abbrev arrT2 (c : Dev nD) : STgt.Idx → EReal := V mI c main_arg2
def rowOf (t : Fin cfg0.N) : Fin 4 := ⟨t.val / 4, by have := t_lt t; omega⟩
def stepOf (t : Fin cfg0.N) : Fin 4 := ⟨t.val % 4, by omega⟩

/-- A point's three input blocks are blocks `(rowOf t, stepOf t)` of the arrays. -/
theorem iblk0_eq (c : Dev nD) (t : Fin cfg0.N) :
    (iblk mI c 0 t : SEstBlk.Idx → EReal) = estBlk (arrP mI c) (rowOf t) (stepOf t) := by
  funext y
  obtain ⟨s, r, q, rfl⟩ : ∃ (s : Fin 2) (r : Fin 16) (q : Fin 64000), y = ix3 s r q := ⟨y 0, y 1, y 2, eq_ix3 y⟩
  exact iblk0_apply mI c t s r q
theorem iblk1_eq (c : Dev nD) (t : Fin cfg0.N) :
    (iblk mI c 1 t : STgtBlk.Idx → EReal) = tgtBlk (arrT1 mI c) (rowOf t) (stepOf t) := by
  funext y
  obtain ⟨r, q, rfl⟩ : ∃ (r : Fin 16) (q : Fin 64000), y = ix2 r q := ⟨y 0, y 1, eq_ix2 y⟩
  exact iblk1_apply mI c t r q
theorem iblk2_eq (c : Dev nD) (t : Fin cfg0.N) :
    (iblk mI c 2 t : STgtBlk.Idx → EReal) = tgtBlk (arrT2 mI c) (rowOf t) (stepOf t) := by
  funext y
  obtain ⟨r, q, rfl⟩ : ∃ (r : Fin 16) (q : Fin 64000), y = ix2 r q := ⟨y 0, y 1, eq_ix2 y⟩
  exact iblk2_apply mI c t r q

/-- The eight partial sums a point adds. -/
def part (c : Dev nD) (i l : Fin 4) (r : Fin 16) (k : Fin 8) : EReal :=
  partSum (estBlk (arrP mI c) i l) (tgtBlk (arrT1 mI c) i l) (tgtBlk (arrT2 mI c) i l) r k

theorem part_of_point (c : Dev nD) (t : Fin cfg0.N) (r : Fin 16) (k : Fin 8) :
    partSum (iblk mI c 0 t) (iblk mI c 1 t) (iblk mI c 2 t) r k = part mI c (rowOf t) (stepOf t) r k := by
  unfold part
  rw [iblk0_eq, iblk1_eq, iblk2_eq]

/-- After the last step of a row block the result window's buffer holds the four steps' partial sums added in order. -/
theorem out_last (c : Dev nD) (t : Fin cfg0.N) (h3 : t.val % 4 = 3) (r : Fin 16) (k : Fin 8) :
    (outsAt0 (F := Ideal) mI c t.val t.isLt).1 (ix2 r k)
      = part mI c (rowOf t) 0 r k + part mI c (rowOf t) 1 r k + part mI c (rowOf t) 2 r k + part mI c (rowOf t) 3 r k := by
  have hN := t_lt t
  let t1 : Fin cfg0.N := ⟨t.val - 1, by omega⟩
  let t2 : Fin cfg0.N := ⟨t.val - 2, by omega⟩
  let t3 : Fin cfg0.N := ⟨t.val - 3, by omega⟩
  have e1 : outsAt0 (F := Ideal) mI c (t.val - 1) (Nat.lt_of_le_of_lt (Nat.sub_le _ _) t.isLt) = outsAt0 mI c t1.val t1.isLt := rfl
  have e2 : outsAt0 (F := Ideal) mI c (t1.val - 1) (Nat.lt_of_le_of_lt (Nat.sub_le _ _) t1.isLt) = outsAt0 mI c t2.val t2.isLt := by
    congr 1
  have e3 : outsAt0 (F := Ideal) mI c (t2.val - 1) (Nat.lt_of_le_of_lt (Nat.sub_le _ _) t2.isLt) = outsAt0 mI c t3.val t3.isLt := by
    congr 1
  have h10 : ¬t1.val % 4 = 0 := by show ¬(t.val - 1) % 4 = 0; omega
  have h13 : ¬t1.val % 4 = 3 := by show ¬(t.val - 1) % 4 = 3; omega
  have h20 : ¬t2.val % 4 = 0 := by show ¬(t.val - 2) % 4 = 0; omega
  have h23 : ¬t2.val % 4 = 3 := by show ¬(t.val - 2) % 4 = 3; omega
  have h30 : t3.val % 4 = 0 := by show (t.val - 3) % 4 = 0; omega
  rw [outsAt0_C mI c t (by omega) h3]
  dsimp only
  rw [outC_apply, e1, outsAt0_B mI c t1 h10 h13]
  dsimp only
  rw [soutB_apply, e2, outsAt0_B mI c t2 h20 h23]
  dsimp only
  rw [soutB_apply, e3, outsAt0_A mI c t3 h30]
  dsimp only
  rw [soutA_apply, zeroW, zero_add, part_of_point, part_of_point, part_of_point, part_of_point]
  have r0 : rowOf t3 = rowOf t := Fin.ext (by show (t.val - 3) / 4 = t.val / 4; omega)
  have r1 : rowOf t2 = rowOf t := Fin.ext (by show (t.val - 2) / 4 = t.val / 4; omega)
  have r2 : rowOf t1 = rowOf t := Fin.ext (by show (t.val - 1) / 4 = t.val / 4; omega)
  have s0 : stepOf t3 = 0 := Fin.ext (by show (t.val - 3) % 4 = 0; omega)
  have s1 : stepOf t2 = 1 := Fin.ext (by show (t.val - 2) % 4 = 1; omega)
  have s2 : stepOf t1 = 2 := Fin.ext (by show (t.val - 1) % 4 = 2; omega)
  have s3 : stepOf t = 3 := Fin.ext (by show t.val % 4 = 3; exact h3)
  rw [r0, r1, r2, s0, s1, s2, s3]

/-- The 64 × 8 table of the specification's row sums, as contents of the result array. -/
def sumTable (c : Dev nD) : S64x8.Idx → EReal := fun j => rowSum (arrP mI c) (arrT1 mI c) (arrT2 mI c) (j 0) (j 1)

/-- What a write-back writes is the table's block. -/
theorem flushed_eq (c : Dev nD) (t : Fin cfg0.N) (hf : (cfg0.win 3).flush t = true) :
    (dats (F := Ideal) mI 0 c).flushed 3 t = ((cfg0.win 3).blk t).view.read (Elt Ideal) (sumTable mI c) := by
  have h3 : t.val % 4 = 3 := (flush0_3 t).mp hf
  refine eq_read3_of (F := Ideal) t (sumTable mI c) _ fun r k => ?_
  show (cfg0.win 3).cut (grid0.coords t) ((dats (F := Ideal) mI 0 c).after 3 t) (ix2 r k) = _
  rw [after0_3]
  show (outsAt0 (F := Ideal) mI c t.val t.isLt).1 (ix2 r k) = _
  rw [out_last mI c t h3 r k]
  exact (PitSiSdr.rowSum_eq_four (arrP mI c) (arrT1 mI c) (arrT2 mI c) (rowOf t) r k).symm

/-- So the result array ends holding the table of row sums: the four write-backs cover it. -/
theorem table_eq (c : Dev nD) : (dats (F := Ideal) mI 0 c).arrAt 3 cfg0.N = sumTable mI c :=
  (dats (F := Ideal) mI 0 c).arrAt_eq_of_cover 3 (sumTable mI c) (flushed_eq mI c) cover3

end Cert.KernelIdeal.Hand

end
-- ==== Proof.TailOps.lean ====
/-
  The host operations that follow the kernel's region, cut along the mathematics into eight consecutive lists:
  the eight columns of the 64 × 8 table of sums; the four scale-invariant ratios, each a chain of 34 operations over
  three of the columns; the two means; the maximum; and the final sum over the rows, negation and division by 64.
  Their concatenation is the program's list of host operations, and each list leaves every buffer it does not write
  as it found it.
-/
import proofs.«171039_j65670049956214_2_alg».proof.Proof.Gen.KernelIdeal.Launch
import Idealize.ShloMosaic.Lib.StableHlo.Run

set_option maxRecDepth 4096

noncomputable section

namespace Cert.KernelIdeal.Tail

open Idealize.ShloMosaic Idealize.ShloMosaic.TcCoe Idealize.SL.Sem Cert.KernelIdeal Cert.KernelIdeal.Gen

variable {F : FTy → Type} [FloatOps F]

/-- The eight columns of the table: each a 64 × 1 cut flattened to a vector of 64 entries. -/
abbrev colOps : List (HloOp τ sig (Elt F)) :=
  [ StableHlo.unary main_v0 main_v1 ((extractStridedSlice S64x1 ![0, 0] · slices_S64x8_S64x1_0_0) : (⟨S64x8, .f32⟩ : BufTy).Contents (Elt F) → (⟨S64x1, .f32⟩ : BufTy).Contents (Elt F)),
    StableHlo.reshape main_v1 main_v2 rfl shapeCasts_S64x1_S64,
    StableHlo.unary main_v0 main_v3 ((extractStridedSlice S64x1 ![0, 1] · slices_S64x8_S64x1_0_1) : (⟨S64x8, .f32⟩ : BufTy).Contents (Elt F) → (⟨S64x1, .f32⟩ : BufTy).Contents (Elt F)),
    StableHlo.reshape main_v3 main_v4 rfl shapeCasts_S64x1_S64,
    StableHlo.unary main_v0 main_v5 ((extractStridedSlice S64x1 ![0, 2] · slices_S64x8_S64x1_0_2) : (⟨S64x8, .f32⟩ : BufTy).Contents (Elt F) → (⟨S64x1, .f32⟩ : BufTy).Contents (Elt F)),
    StableHlo.reshape main_v5 main_v6 rfl shapeCasts_S64x1_S64,
    StableHlo.unary main_v0 main_v7 ((extractStridedSlice S64x1 ![0, 3] · slices_S64x8_S64x1_0_3) : (⟨S64x8, .f32⟩ : BufTy).Contents (Elt F) → (⟨S64x1, .f32⟩ : BufTy).Contents (Elt F)),
    StableHlo.reshape main_v7 main_v8 rfl shapeCasts_S64x1_S64,
    StableHlo.unary main_v0 main_v9 ((extractStridedSlice S64x1 ![0, 4] · slices_S64x8_S64x1_0_4) : (⟨S64x8, .f32⟩ : BufTy).Contents (Elt F) → (⟨S64x1, .f32⟩ : BufTy).Contents (Elt F)),
    StableHlo.reshape main_v9 main_v10 rfl shapeCasts_S64x1_S64,
    StableHlo.unary main_v0 main_v11 ((extractStridedSlice S64x1 ![0, 5] · slices_S64x8_S64x1_0_5) : (⟨S64x8, .f32⟩ : BufTy).Contents (Elt F) → (⟨S64x1, .f32⟩ : BufTy).Contents (Elt F)),
    StableHlo.reshape main_v11 main_v12 rfl shapeCasts_S64x1_S64,
    StableHlo.unary main_v0 main_v13 ((extractStridedSlice S64x1 ![0, 6] · slices_S64x8_S64x1_0_6) : (⟨S64x8, .f32⟩ : BufTy).Contents (Elt F) → (⟨S64x1, .f32⟩ : BufTy).Contents (Elt F)),
    StableHlo.reshape main_v13 main_v14 rfl shapeCasts_S64x1_S64,
    StableHlo.unary main_v0 main_v15 ((extractStridedSlice S64x1 ![0, 7] · slices_S64x8_S64x1_0_7) : (⟨S64x8, .f32⟩ : BufTy).Contents (Elt F) → (⟨S64x1, .f32⟩ : BufTy).Contents (Elt F)),
    StableHlo.reshape main_v15 main_v16 rfl shapeCasts_S64x1_S64 ]

/-- The ratio of the first estimate against the first target (energy column 0, correlation column 4, target energy column 2). -/
abbrev sdrOps1 : List (HloOp τ sig (Elt F)) :=
  [ StableHlo.nullary main_cst (constant S_ .f32 0x34000000#32),
    StableHlo.unary main_cst main_v17 (broadcastInDim S64 ![] bcast_S_S64 : (⟨S_, .f32⟩ : BufTy).Contents (Elt F) → (⟨S64, .f32⟩ : BufTy).Contents (Elt F)),
    StableHlo.binary main_v10 main_v17 main_v18 (addf : (⟨S64, .f32⟩ : BufTy).Contents (Elt F) → (⟨S64, .f32⟩ : BufTy).Contents (Elt F) → (⟨S64, .f32⟩ : BufTy).Contents (Elt F)),
    StableHlo.nullary main_cst_0 (constant S_ .f32 0x34000000#32),
    StableHlo.unary main_cst_0 main_v19 (broadcastInDim S64 ![] bcast_S_S64 : (⟨S_, .f32⟩ : BufTy).Contents (Elt F) → (⟨S64, .f32⟩ : BufTy).Contents (Elt F)),
    StableHlo.binary main_v6 main_v19 main_v20 (addf : (⟨S64, .f32⟩ : BufTy).Contents (Elt F) → (⟨S64, .f32⟩ : BufTy).Contents (Elt F) → (⟨S64, .f32⟩ : BufTy).Contents (Elt F)),
    StableHlo.binary main_v18 main_v20 main_v21 (Host.divf : (⟨S64, .f32⟩ : BufTy).Contents (Elt F) → (⟨S64, .f32⟩ : BufTy).Contents (Elt F) → (⟨S64, .f32⟩ : BufTy).Contents (Elt F)),
    StableHlo.binary main_v21 main_v21 main_v22 (mulf : (⟨S64, .f32⟩ : BufTy).Contents (Elt F) → (⟨S64, .f32⟩ : BufTy).Contents (Elt F) → (⟨S64, .f32⟩ : BufTy).Contents (Elt F)),
    StableHlo.binary main_v22 main_v6 main_v23 (mulf : (⟨S64, .f32⟩ : BufTy).Contents (Elt F) → (⟨S64, .f32⟩ : BufTy).Contents (Elt F) → (⟨S64, .f32⟩ : BufTy).Contents (Elt F)),
    StableHlo.nullary main_cst_1 (constant S_ .f32 0x40000000#32),
    StableHlo.unary main_cst_1 main_v24 (broadcastInDim S64 ![] bcast_S_S64 : (⟨S_, .f32⟩ : BufTy).Contents (Elt F) → (⟨S64, .f32⟩ : BufTy).Contents (Elt F)),
    StableHlo.binary main_v24 main_v21 main_v25 (mulf : (⟨S64, .f32⟩ : BufTy).Contents (Elt F) → (⟨S64, .f32⟩ : BufTy).Contents (Elt F) → (⟨S64, .f32⟩ : BufTy).Contents (Elt F)),
    StableHlo.binary main_v25 main_v10 main_v26 (mulf : (⟨S64, .f32⟩ : BufTy).Contents (Elt F) → (⟨S64, .f32⟩ : BufTy).Contents (Elt F) → (⟨S64, .f32⟩ : BufTy).Contents (Elt F)),
    StableHlo.binary main_v2 main_v26 main_v27 (subf : (⟨S64, .f32⟩ : BufTy).Contents (Elt F) → (⟨S64, .f32⟩ : BufTy).Contents (Elt F) → (⟨S64, .f32⟩ : BufTy).Contents (Elt F)),
    StableHlo.binary main_v21 main_v21 main_v28 (mulf : (⟨S64, .f32⟩ : BufTy).Contents (Elt F) → (⟨S64, .f32⟩ : BufTy).Contents (Elt F) → (⟨S64, .f32⟩ : BufTy).Contents (Elt F)),
    StableHlo.binary main_v28 main_v6 main_v29 (mulf : (⟨S64, .f32⟩ : BufTy).Contents (Elt F) → (⟨S64, .f32⟩ : BufTy).Contents (Elt F) → (⟨S64, .f32⟩ : BufTy).Contents (Elt F)),
    StableHlo.binary main_v27 main_v29 main_v30 (addf : (⟨S64, .f32⟩ : BufTy).Contents (Elt F) → (⟨S64, .f32⟩ : BufTy).Contents (Elt F) → (⟨S64, .f32⟩ : BufTy).Contents (Elt F)),
    StableHlo.nullary main_cst_2 (constant S_ .f32 0x00000000#32),
    StableHlo.unary main_cst_2 main_v31 (broadcastInDim S64 ![] bcast_S_S64 : (⟨S_, .f32⟩ : BufTy).Contents (Elt F) → (⟨S64, .f32⟩ : BufTy).Contents (Elt F)),
    StableHlo.binary main_v30 main_v31 main_v32 (maximumf : (⟨S64, .f32⟩ : BufTy).Contents (Elt F) → (⟨S64, .f32⟩ : BufTy).Contents (Elt F) → (⟨S64, .f32⟩ : BufTy).Contents (Elt F)),
    StableHlo.nullary main_cst_3 (constant S_ .f32 0x34000000#32),
    StableHlo.unary main_cst_3 main_v33 (broadcastInDim S64 ![] bcast_S_S64 : (⟨S_, .f32⟩ : BufTy).Contents (Elt F) → (⟨S64, .f32⟩ : BufTy).Contents (Elt F)),
    StableHlo.binary main_v23 main_v33 main_v34 (addf : (⟨S64, .f32⟩ : BufTy).Contents (Elt F) → (⟨S64, .f32⟩ : BufTy).Contents (Elt F) → (⟨S64, .f32⟩ : BufTy).Contents (Elt F)),
    StableHlo.nullary main_cst_4 (constant S_ .f32 0x34000000#32),
    StableHlo.unary main_cst_4 main_v35 (broadcastInDim S64 ![] bcast_S_S64 : (⟨S_, .f32⟩ : BufTy).Contents (Elt F) → (⟨S64, .f32⟩ : BufTy).Contents (Elt F)),
    StableHlo.binary main_v32 main_v35 main_v36 (addf : (⟨S64, .f32⟩ : BufTy).Contents (Elt F) → (⟨S64, .f32⟩ : BufTy).Contents (Elt F) → (⟨S64, .f32⟩ : BufTy).Contents (Elt F)),
    StableHlo.binary main_v34 main_v36 main_v37 (Host.divf : (⟨S64, .f32⟩ : BufTy).Contents (Elt F) → (⟨S64, .f32⟩ : BufTy).Contents (Elt F) → (⟨S64, .f32⟩ : BufTy).Contents (Elt F)),
    StableHlo.unary main_v37 main_v38 (Host.log : (⟨S64, .f32⟩ : BufTy).Contents (Elt F) → (⟨S64, .f32⟩ : BufTy).Contents (Elt F)),
    StableHlo.nullary main_cst_5 (constant S_ .f32 0x3EDE5BD9#32),
    StableHlo.unary main_cst_5 main_v39 (broadcastInDim S64 ![] bcast_S_S64 : (⟨S_, .f32⟩ : BufTy).Contents (Elt F) → (⟨S64, .f32⟩ : BufTy).Contents (Elt F)),
    StableHlo.binary main_v38 main_v39 main_v40 (mulf : (⟨S64, .f32⟩ : BufTy).Contents (Elt F) → (⟨S64, .f32⟩ : BufTy).Contents (Elt F) → (⟨S64, .f32⟩ : BufTy).Contents (Elt F)),
    StableHlo.nullary main_cst_6 (constant S_ .f32 0x41200000#32),
    StableHlo.unary main_cst_6 main_v41 (broadcastInDim S64 ![] bcast_S_S64 : (⟨S_, .f32⟩ : BufTy).Contents (Elt F) → (⟨S64, .f32⟩ : BufTy).Contents (Elt F)),
    StableHlo.binary main_v41 main_v40 main_v42 (mulf : (⟨S64, .f32⟩ : BufTy).Contents (Elt F) → (⟨S64, .f32⟩ : BufTy).Contents (Elt F) → (⟨S64, .f32⟩ : BufTy).Contents (Elt F)) ]

/-- The ratio of the second estimate against the second target (columns 1, 5, 3). -/
abbrev sdrOps2 : List (HloOp τ sig (Elt F)) :=
  [ StableHlo.nullary main_cst_7 (constant S_ .f32 0x34000000#32),
    StableHlo.unary main_cst_7 main_v43 (broadcastInDim S64 ![] bcast_S_S64 : (⟨S_, .f32⟩ : BufTy).Contents (Elt F) → (⟨S64, .f32⟩ : BufTy).Contents (Elt F)),
    StableHlo.binary main_v12 main_v43 main_v44 (addf : (⟨S64, .f32⟩ : BufTy).Contents (Elt F) → (⟨S64, .f32⟩ : BufTy).Contents (Elt F) → (⟨S64, .f32⟩ : BufTy).Contents (Elt F)),
    StableHlo.nullary main_cst_8 (constant S_ .f32 0x34000000#32),
    StableHlo.unary main_cst_8 main_v45 (broadcastInDim S64 ![] bcast_S_S64 : (⟨S_, .f32⟩ : BufTy).Contents (Elt F) → (⟨S64, .f32⟩ : BufTy).Contents (Elt F)),
    StableHlo.binary main_v8 main_v45 main_v46 (addf : (⟨S64, .f32⟩ : BufTy).Contents (Elt F) → (⟨S64, .f32⟩ : BufTy).Contents (Elt F) → (⟨S64, .f32⟩ : BufTy).Contents (Elt F)),
    StableHlo.binary main_v44 main_v46 main_v47 (Host.divf : (⟨S64, .f32⟩ : BufTy).Contents (Elt F) → (⟨S64, .f32⟩ : BufTy).Contents (Elt F) → (⟨S64, .f32⟩ : BufTy).Contents (Elt F)),
    StableHlo.binary main_v47 main_v47 main_v48 (mulf : (⟨S64, .f32⟩ : BufTy).Contents (Elt F) → (⟨S64, .f32⟩ : BufTy).Contents (Elt F) → (⟨S64, .f32⟩ : BufTy).Contents (Elt F)),
    StableHlo.binary main_v48 main_v8 main_v49 (mulf : (⟨S64, .f32⟩ : BufTy).Contents (Elt F) → (⟨S64, .f32⟩ : BufTy).Contents (Elt F) → (⟨S64, .f32⟩ : BufTy).Contents (Elt F)),
    StableHlo.nullary main_cst_9 (constant S_ .f32 0x40000000#32),
    StableHlo.unary main_cst_9 main_v50 (broadcastInDim S64 ![] bcast_S_S64 : (⟨S_, .f32⟩ : BufTy).Contents (Elt F) → (⟨S64, .f32⟩ : BufTy).Contents (Elt F)),
    StableHlo.binary main_v50 main_v47 main_v51 (mulf : (⟨S64, .f32⟩ : BufTy).Contents (Elt F) → (⟨S64, .f32⟩ : BufTy).Contents (Elt F) → (⟨S64, .f32⟩ : BufTy).Contents (Elt F)),
    StableHlo.binary main_v51 main_v12 main_v52 (mulf : (⟨S64, .f32⟩ : BufTy).Contents (Elt F) → (⟨S64, .f32⟩ : BufTy).Contents (Elt F) → (⟨S64, .f32⟩ : BufTy).Contents (Elt F)),
    StableHlo.binary main_v4 main_v52 main_v53 (subf : (⟨S64, .f32⟩ : BufTy).Contents (Elt F) → (⟨S64, .f32⟩ : BufTy).Contents (Elt F) → (⟨S64, .f32⟩ : BufTy).Contents (Elt F)),
    StableHlo.binary main_v47 main_v47 main_v54 (mulf : (⟨S64, .f32⟩ : BufTy).Contents (Elt F) → (⟨S64, .f32⟩ : BufTy).Contents (Elt F) → (⟨S64, .f32⟩ : BufTy).Contents (Elt F)),
    StableHlo.binary main_v54 main_v8 main_v55 (mulf : (⟨S64, .f32⟩ : BufTy).Contents (Elt F) → (⟨S64, .f32⟩ : BufTy).Contents (Elt F) → (⟨S64, .f32⟩ : BufTy).Contents (Elt F)),
    StableHlo.binary main_v53 main_v55 main_v56 (addf : (⟨S64, .f32⟩ : BufTy).Contents (Elt F) → (⟨S64, .f32⟩ : BufTy).Contents (Elt F) → (⟨S64, .f32⟩ : BufTy).Contents (Elt F)),
    StableHlo.nullary main_cst_10 (constant S_ .f32 0x00000000#32),
    StableHlo.unary main_cst_10 main_v57 (broadcastInDim S64 ![] bcast_S_S64 : (⟨S_, .f32⟩ : BufTy).Contents (Elt F) → (⟨S64, .f32⟩ : BufTy).Contents (Elt F)),
    StableHlo.binary main_v56 main_v57 main_v58 (maximumf : (⟨S64, .f32⟩ : BufTy).Contents (Elt F) → (⟨S64, .f32⟩ : BufTy).Contents (Elt F) → (⟨S64, .f32⟩ : BufTy).Contents (Elt F)),
    StableHlo.nullary main_cst_11 (constant S_ .f32 0x34000000#32),
    StableHlo.unary main_cst_11 main_v59 (broadcastInDim S64 ![] bcast_S_S64 : (⟨S_, .f32⟩ : BufTy).Contents (Elt F) → (⟨S64, .f32⟩ : BufTy).Contents (Elt F)),
    StableHlo.binary main_v49 main_v59 main_v60 (addf : (⟨S64, .f32⟩ : BufTy).Contents (Elt F) → (⟨S64, .f32⟩ : BufTy).Contents (Elt F) → (⟨S64, .f32⟩ : BufTy).Contents (Elt F)),
    StableHlo.nullary main_cst_12 (constant S_ .f32 0x34000000#32),
    StableHlo.unary main_cst_12 main_v61 (broadcastInDim S64 ![] bcast_S_S64 : (⟨S_, .f32⟩ : BufTy).Contents (Elt F) → (⟨S64, .f32⟩ : BufTy).Contents (Elt F)),
    StableHlo.binary main_v58 main_v61 main_v62 (addf : (⟨S64, .f32⟩ : BufTy).Contents (Elt F) → (⟨S64, .f32⟩ : BufTy).Contents (Elt F) → (⟨S64, .f32⟩ : BufTy).Contents (Elt F)),
    StableHlo.binary main_v60 main_v62 main_v63 (Host.divf : (⟨S64, .f32⟩ : BufTy).Contents (Elt F) → (⟨S64, .f32⟩ : BufTy).Contents (Elt F) → (⟨S64, .f32⟩ : BufTy).Contents (Elt F)),
    StableHlo.unary main_v63 main_v64 (Host.log : (⟨S64, .f32⟩ : BufTy).Contents (Elt F) → (⟨S64, .f32⟩ : BufTy).Contents (Elt F)),
    StableHlo.nullary main_cst_13 (constant S_ .f32 0x3EDE5BD9#32),
    StableHlo.unary main_cst_13 main_v65 (broadcastInDim S64 ![] bcast_S_S64 : (⟨S_, .f32⟩ : BufTy).Contents (Elt F) → (⟨S64, .f32⟩ : BufTy).Contents (Elt F)),
    StableHlo.binary main_v64 main_v65 main_v66 (mulf : (⟨S64, .f32⟩ : BufTy).Contents (Elt F) → (⟨S64, .f32⟩ : BufTy).Contents (Elt F) → (⟨S64, .f32⟩ : BufTy).Contents (Elt F)),
    StableHlo.nullary main_cst_14 (constant S_ .f32 0x41200000#32),
    StableHlo.unary main_cst_14 main_v67 (broadcastInDim S64 ![] bcast_S_S64 : (⟨S_, .f32⟩ : BufTy).Contents (Elt F) → (⟨S64, .f32⟩ : BufTy).Contents (Elt F)),
    StableHlo.binary main_v67 main_v66 main_v68 (mulf : (⟨S64, .f32⟩ : BufTy).Contents (Elt F) → (⟨S64, .f32⟩ : BufTy).Contents (Elt F) → (⟨S64, .f32⟩ : BufTy).Contents (Elt F)) ]

/-- The mean of the two ratios of the first assignment: their sum times one half. -/
abbrev meanOps1 : List (HloOp τ sig (Elt F)) :=
  [ StableHlo.binary main_v42 main_v68 main_v69 (addf : (⟨S64, .f32⟩ : BufTy).Contents (Elt F) → (⟨S64, .f32⟩ : BufTy).Contents (Elt F) → (⟨S64, .f32⟩ : BufTy).Contents (Elt F)),
    StableHlo.nullary main_cst_15 (constant S_ .f32 0x3F000000#32),
    StableHlo.unary main_cst_15 main_v70 (broadcastInDim S64 ![] bcast_S_S64 : (⟨S_, .f32⟩ : BufTy).Contents (Elt F) → (⟨S64, .f32⟩ : BufTy).Contents (Elt F)),
    StableHlo.binary main_v69 main_v70 main_v71 (mulf : (⟨S64, .f32⟩ : BufTy).Contents (Elt F) → (⟨S64, .f32⟩ : BufTy).Contents (Elt F) → (⟨S64, .f32⟩ : BufTy).Contents (Elt F)) ]

/-- The ratio of the second estimate against the first target (columns 1, 6, 2). -/
abbrev sdrOps3 : List (HloOp τ sig (Elt F)) :=
  [ StableHlo.nullary main_cst_16 (constant S_ .f32 0x34000000#32),
    StableHlo.unary main_cst_16 main_v72 (broadcastInDim S64 ![] bcast_S_S64 : (⟨S_, .f32⟩ : BufTy).Contents (Elt F) → (⟨S64, .f32⟩ : BufTy).Contents (Elt F)),
    StableHlo.binary main_v14 main_v72 main_v73 (addf : (⟨S64, .f32⟩ : BufTy).Contents (Elt F) → (⟨S64, .f32⟩ : BufTy).Contents (Elt F) → (⟨S64, .f32⟩ : BufTy).Contents (Elt F)),
    StableHlo.nullary main_cst_17 (constant S_ .f32 0x34000000#32),
    StableHlo.unary main_cst_17 main_v74 (broadcastInDim S64 ![] bcast_S_S64 : (⟨S_, .f32⟩ : BufTy).Contents (Elt F) → (⟨S64, .f32⟩ : BufTy).Contents (Elt F)),
    StableHlo.binary main_v6 main_v74 main_v75 (addf : (⟨S64, .f32⟩ : BufTy).Contents (Elt F) → (⟨S64, .f32⟩ : BufTy).Contents (Elt F) → (⟨S64, .f32⟩ : BufTy).Contents (Elt F)),
    StableHlo.binary main_v73 main_v75 main_v76 (Host.divf : (⟨S64, .f32⟩ : BufTy).Contents (Elt F) → (⟨S64, .f32⟩ : BufTy).Contents (Elt F) → (⟨S64, .f32⟩ : BufTy).Contents (Elt F)),
    StableHlo.binary main_v76 main_v76 main_v77 (mulf : (⟨S64, .f32⟩ : BufTy).Contents (Elt F) → (⟨S64, .f32⟩ : BufTy).Contents (Elt F) → (⟨S64, .f32⟩ : BufTy).Contents (Elt F)),
    StableHlo.binary main_v77 main_v6 main_v78 (mulf : (⟨S64, .f32⟩ : BufTy).Contents (Elt F) → (⟨S64, .f32⟩ : BufTy).Contents (Elt F) → (⟨S64, .f32⟩ : BufTy).Contents (Elt F)),
    StableHlo.nullary main_cst_18 (constant S_ .f32 0x40000000#32),
    StableHlo.unary main_cst_18 main_v79 (broadcastInDim S64 ![] bcast_S_S64 : (⟨S_, .f32⟩ : BufTy).Contents (Elt F) → (⟨S64, .f32⟩ : BufTy).Contents (Elt F)),
    StableHlo.binary main_v79 main_v76 main_v80 (mulf : (⟨S64, .f32⟩ : BufTy).Contents (Elt F) → (⟨S64, .f32⟩ : BufTy).Contents (Elt F) → (⟨S64, .f32⟩ : BufTy).Contents (Elt F)),
    StableHlo.binary main_v80 main_v14 main_v81 (mulf : (⟨S64, .f32⟩ : BufTy).Contents (Elt F) → (⟨S64, .f32⟩ : BufTy).Contents (Elt F) → (⟨S64, .f32⟩ : BufTy).Contents (Elt F)),
    StableHlo.binary main_v4 main_v81 main_v82 (subf : (⟨S64, .f32⟩ : BufTy).Contents (Elt F) → (⟨S64, .f32⟩ : BufTy).Contents (Elt F) → (⟨S64, .f32⟩ : BufTy).Contents (Elt F)),
    StableHlo.binary main_v76 main_v76 main_v83 (mulf : (⟨S64, .f32⟩ : BufTy).Contents (Elt F) → (⟨S64, .f32⟩ : BufTy).Contents (Elt F) → (⟨S64, .f32⟩ : BufTy).Contents (Elt F)),
    StableHlo.binary main_v83 main_v6 main_v84 (mulf : (⟨S64, .f32⟩ : BufTy).Contents (Elt F) → (⟨S64, .f32⟩ : BufTy).Contents (Elt F) → (⟨S64, .f32⟩ : BufTy).Contents (Elt F)),
    StableHlo.binary main_v82 main_v84 main_v85 (addf : (⟨S64, .f32⟩ : BufTy).Contents (Elt F) → (⟨S64, .f32⟩ : BufTy).Contents (Elt F) → (⟨S64, .f32⟩ : BufTy).Contents (Elt F)),
    StableHlo.nullary main_cst_19 (constant S_ .f32 0x00000000#32),
    StableHlo.unary main_cst_19 main_v86 (broadcastInDim S64 ![] bcast_S_S64 : (⟨S_, .f32⟩ : BufTy).Contents (Elt F) → (⟨S64, .f32⟩ : BufTy).Contents (Elt F)),
    StableHlo.binary main_v85 main_v86 main_v87 (maximumf : (⟨S64, .f32⟩ : BufTy).Contents (Elt F) → (⟨S64, .f32⟩ : BufTy).Contents (Elt F) → (⟨S64, .f32⟩ : BufTy).Contents (Elt F)),
    StableHlo.nullary main_cst_20 (constant S_ .f32 0x34000000#32),
    StableHlo.unary main_cst_20 main_v88 (broadcastInDim S64 ![] bcast_S_S64 : (⟨S_, .f32⟩ : BufTy).Contents (Elt F) → (⟨S64, .f32⟩ : BufTy).Contents (Elt F)),
    StableHlo.binary main_v78 main_v88 main_v89 (addf : (⟨S64, .f32⟩ : BufTy).Contents (Elt F) → (⟨S64, .f32⟩ : BufTy).Contents (Elt F) → (⟨S64, .f32⟩ : BufTy).Contents (Elt F)),
    StableHlo.nullary main_cst_21 (constant S_ .f32 0x34000000#32),
    StableHlo.unary main_cst_21 main_v90 (broadcastInDim S64 ![] bcast_S_S64 : (⟨S_, .f32⟩ : BufTy).Contents (Elt F) → (⟨S64, .f32⟩ : BufTy).Contents (Elt F)),
    StableHlo.binary main_v87 main_v90 main_v91 (addf : (⟨S64, .f32⟩ : BufTy).Contents (Elt F) → (⟨S64, .f32⟩ : BufTy).Contents (Elt F) → (⟨S64, .f32⟩ : BufTy).Contents (Elt F)),
    StableHlo.binary main_v89 main_v91 main_v92 (Host.divf : (⟨S64, .f32⟩ : BufTy).Contents (Elt F) → (⟨S64, .f32⟩ : BufTy).Contents (Elt F) → (⟨S64, .f32⟩ : BufTy).Contents (Elt F)),
    StableHlo.unary main_v92 main_v93 (Host.log : (⟨S64, .f32⟩ : BufTy).Contents (Elt F) → (⟨S64, .f32⟩ : BufTy).Contents (Elt F)),
    StableHlo.nullary main_cst_22 (constant S_ .f32 0x3EDE5BD9#32),
    StableHlo.unary main_cst_22 main_v94 (broadcastInDim S64 ![] bcast_S_S64 : (⟨S_, .f32⟩ : BufTy).Contents (Elt F) → (⟨S64, .f32⟩ : BufTy).Contents (Elt F)),
    StableHlo.binary main_v93 main_v94 main_v95 (mulf : (⟨S64, .f32⟩ : BufTy).Contents (Elt F) → (⟨S64, .f32⟩ : BufTy).Contents (Elt F) → (⟨S64, .f32⟩ : BufTy).Contents (Elt F)),
    StableHlo.nullary main_cst_23 (constant S_ .f32 0x41200000#32),
    StableHlo.unary main_cst_23 main_v96 (broadcastInDim S64 ![] bcast_S_S64 : (⟨S_, .f32⟩ : BufTy).Contents (Elt F) → (⟨S64, .f32⟩ : BufTy).Contents (Elt F)),
    StableHlo.binary main_v96 main_v95 main_v97 (mulf : (⟨S64, .f32⟩ : BufTy).Contents (Elt F) → (⟨S64, .f32⟩ : BufTy).Contents (Elt F) → (⟨S64, .f32⟩ : BufTy).Contents (Elt F)) ]

/-- The ratio of the first estimate against the second target (columns 0, 7, 3). -/
abbrev sdrOps4 : List (HloOp τ sig (Elt F)) :=
  [ StableHlo.nullary main_cst_24 (constant S_ .f32 0x34000000#32),
    StableHlo.unary main_cst_24 main_v98 (broadcastInDim S64 ![] bcast_S_S64 : (⟨S_, .f32⟩ : BufTy).Contents (Elt F) → (⟨S64, .f32⟩ : BufTy).Contents (Elt F)),
    StableHlo.binary main_v16 main_v98 main_v99 (addf : (⟨S64, .f32⟩ : BufTy).Contents (Elt F) → (⟨S64, .f32⟩ : BufTy).Contents (Elt F) → (⟨S64, .f32⟩ : BufTy).Contents (Elt F)),
    StableHlo.nullary main_cst_25 (constant S_ .f32 0x34000000#32),
    StableHlo.unary main_cst_25 main_v100 (broadcastInDim S64 ![] bcast_S_S64 : (⟨S_, .f32⟩ : BufTy).Contents (Elt F) → (⟨S64, .f32⟩ : BufTy).Contents (Elt F)),
    StableHlo.binary main_v8 main_v100 main_v101 (addf : (⟨S64, .f32⟩ : BufTy).Contents (Elt F) → (⟨S64, .f32⟩ : BufTy).Contents (Elt F) → (⟨S64, .f32⟩ : BufTy).Contents (Elt F)),
    StableHlo.binary main_v99 main_v101 main_v102 (Host.divf : (⟨S64, .f32⟩ : BufTy).Contents (Elt F) → (⟨S64, .f32⟩ : BufTy).Contents (Elt F) → (⟨S64, .f32⟩ : BufTy).Contents (Elt F)),
    StableHlo.binary main_v102 main_v102 main_v103 (mulf : (⟨S64, .f32⟩ : BufTy).Contents (Elt F) → (⟨S64, .f32⟩ : BufTy).Contents (Elt F) → (⟨S64, .f32⟩ : BufTy).Contents (Elt F)),
    StableHlo.binary main_v103 main_v8 main_v104 (mulf : (⟨S64, .f32⟩ : BufTy).Contents (Elt F) → (⟨S64, .f32⟩ : BufTy).Contents (Elt F) → (⟨S64, .f32⟩ : BufTy).Contents (Elt F)),
    StableHlo.nullary main_cst_26 (constant S_ .f32 0x40000000#32),
    StableHlo.unary main_cst_26 main_v105 (broadcastInDim S64 ![] bcast_S_S64 : (⟨S_, .f32⟩ : BufTy).Contents (Elt F) → (⟨S64, .f32⟩ : BufTy).Contents (Elt F)),
    StableHlo.binary main_v105 main_v102 main_v106 (mulf : (⟨S64, .f32⟩ : BufTy).Contents (Elt F) → (⟨S64, .f32⟩ : BufTy).Contents (Elt F) → (⟨S64, .f32⟩ : BufTy).Contents (Elt F)),
    StableHlo.binary main_v106 main_v16 main_v107 (mulf : (⟨S64, .f32⟩ : BufTy).Contents (Elt F) → (⟨S64, .f32⟩ : BufTy).Contents (Elt F) → (⟨S64, .f32⟩ : BufTy).Contents (Elt F)),
    StableHlo.binary main_v2 main_v107 main_v108 (subf : (⟨S64, .f32⟩ : BufTy).Contents (Elt F) → (⟨S64, .f32⟩ : BufTy).Contents (Elt F) → (⟨S64, .f32⟩ : BufTy).Contents (Elt F)),
    StableHlo.binary main_v102 main_v102 main_v109 (mulf : (⟨S64, .f32⟩ : BufTy).Contents (Elt F) → (⟨S64, .f32⟩ : BufTy).Contents (Elt F) → (⟨S64, .f32⟩ : BufTy).Contents (Elt F)),
    StableHlo.binary main_v109 main_v8 main_v110 (mulf : (⟨S64, .f32⟩ : BufTy).Contents (Elt F) → (⟨S64, .f32⟩ : BufTy).Contents (Elt F) → (⟨S64, .f32⟩ : BufTy).Contents (Elt F)),
    StableHlo.binary main_v108 main_v110 main_v111 (addf : (⟨S64, .f32⟩ : BufTy).Contents (Elt F) → (⟨S64, .f32⟩ : BufTy).Contents (Elt F) → (⟨S64, .f32⟩ : BufTy).Contents (Elt F)),
    StableHlo.nullary main_cst_27 (constant S_ .f32 0x00000000#32),
    StableHlo.unary main_cst_27 main_v112 (broadcastInDim S64 ![] bcast_S_S64 : (⟨S_, .f32⟩ : BufTy).Contents (Elt F) → (⟨S64, .f32⟩ : BufTy).Contents (Elt F)),
    StableHlo.binary main_v111 main_v112 main_v113 (maximumf : (⟨S64, .f32⟩ : BufTy).Contents (Elt F) → (⟨S64, .f32⟩ : BufTy).Contents (Elt F) → (⟨S64, .f32⟩ : BufTy).Contents (Elt F)),
    StableHlo.nullary main_cst_28 (constant S_ .f32 0x34000000#32),
    StableHlo.unary main_cst_28 main_v114 (broadcastInDim S64 ![] bcast_S_S64 : (⟨S_, .f32⟩ : BufTy).Contents (Elt F) → (⟨S64, .f32⟩ : BufTy).Contents (Elt F)),
    StableHlo.binary main_v104 main_v114 main_v115 (addf : (⟨S64, .f32⟩ : BufTy).Contents (Elt F) → (⟨S64, .f32⟩ : BufTy).Contents (Elt F) → (⟨S64, .f32⟩ : BufTy).Contents (Elt F)),
    StableHlo.nullary main_cst_29 (constant S_ .f32 0x34000000#32),
    StableHlo.unary main_cst_29 main_v116 (broadcastInDim S64 ![] bcast_S_S64 : (⟨S_, .f32⟩ : BufTy).Contents (Elt F) → (⟨S64, .f32⟩ : BufTy).Contents (Elt F)),
    StableHlo.binary main_v113 main_v116 main_v117 (addf : (⟨S64, .f32⟩ : BufTy).Contents (Elt F) → (⟨S64, .f32⟩ : BufTy).Contents (Elt F) → (⟨S64, .f32⟩ : BufTy).Contents (Elt F)),
    StableHlo.binary main_v115 main_v117 main_v118 (Host.divf : (⟨S64, .f32⟩ : BufTy).Contents (Elt F) → (⟨S64, .f32⟩ : BufTy).Contents (Elt F) → (⟨S64, .f32⟩ : BufTy).Contents (Elt F)),
    StableHlo.unary main_v118 main_v119 (Host.log : (⟨S64, .f32⟩ : BufTy).Contents (Elt F) → (⟨S64, .f32⟩ : BufTy).Contents (Elt F)),
    StableHlo.nullary main_cst_30 (constant S_ .f32 0x3EDE5BD9#32),
    StableHlo.unary main_cst_30 main_v120 (broadcastInDim S64 ![] bcast_S_S64 : (⟨S_, .f32⟩ : BufTy).Contents (Elt F) → (⟨S64, .f32⟩ : BufTy).Contents (Elt F)),
    StableHlo.binary main_v119 main_v120 main_v121 (mulf : (⟨S64, .f32⟩ : BufTy).Contents (Elt F) → (⟨S64, .f32⟩ : BufTy).Contents (Elt F) → (⟨S64, .f32⟩ : BufTy).Contents (Elt F)),
    StableHlo.nullary main_cst_31 (constant S_ .f32 0x41200000#32),
    StableHlo.unary main_cst_31 main_v122 (broadcastInDim S64 ![] bcast_S_S64 : (⟨S_, .f32⟩ : BufTy).Contents (Elt F) → (⟨S64, .f32⟩ : BufTy).Contents (Elt F)),
    StableHlo.binary main_v122 main_v121 main_v123 (mulf : (⟨S64, .f32⟩ : BufTy).Contents (Elt F) → (⟨S64, .f32⟩ : BufTy).Contents (Elt F) → (⟨S64, .f32⟩ : BufTy).Contents (Elt F)) ]

/-- The mean of the two ratios of the second assignment, and the larger of the two means. -/
abbrev meanOps2 : List (HloOp τ sig (Elt F)) :=
  [ StableHlo.binary main_v97 main_v123 main_v124 (addf : (⟨S64, .f32⟩ : BufTy).Contents (Elt F) → (⟨S64, .f32⟩ : BufTy).Contents (Elt F) → (⟨S64, .f32⟩ : BufTy).Contents (Elt F)),
    StableHlo.nullary main_cst_32 (constant S_ .f32 0x3F000000#32),
    StableHlo.unary main_cst_32 main_v125 (broadcastInDim S64 ![] bcast_S_S64 : (⟨S_, .f32⟩ : BufTy).Contents (Elt F) → (⟨S64, .f32⟩ : BufTy).Contents (Elt F)),
    StableHlo.binary main_v124 main_v125 main_v126 (mulf : (⟨S64, .f32⟩ : BufTy).Contents (Elt F) → (⟨S64, .f32⟩ : BufTy).Contents (Elt F) → (⟨S64, .f32⟩ : BufTy).Contents (Elt F)),
    StableHlo.binary main_v71 main_v126 main_v127 (maximumf : (⟨S64, .f32⟩ : BufTy).Contents (Elt F) → (⟨S64, .f32⟩ : BufTy).Contents (Elt F) → (⟨S64, .f32⟩ : BufTy).Contents (Elt F)) ]

/-- The sum of the 64 scores from zero, its negation, and the division by 64. -/
abbrev lastOps : List (HloOp τ sig (Elt F)) :=
  [ StableHlo.nullary main_cst_33 (constant S_ .f32 0x00000000#32),
    StableHlo.binary main_v127 main_cst_33 main_v128 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    StableHlo.unary main_v128 main_v129 (Host.negf : (⟨S_, .f32⟩ : BufTy).Contents (Elt F) → (⟨S_, .f32⟩ : BufTy).Contents (Elt F)),
    StableHlo.nullary main_cst_34 (constant S_ .f32 0x42800000#32),
    StableHlo.binary main_v129 main_cst_34 main_v130 (Host.divf : (⟨S_, .f32⟩ : BufTy).Contents (Elt F) → (⟨S_, .f32⟩ : BufTy).Contents (Elt F) → (⟨S_, .f32⟩ : BufTy).Contents (Elt F)) ]

/-- The program's host operations after the region are the eight lists in a row. -/
theorem hostOps1_eq : (Gen.hostOps1 : List (HloOp τ sig (Elt F)))
    = colOps ++ (sdrOps1 ++ (sdrOps2 ++ (meanOps1 ++ (sdrOps3 ++ (sdrOps4 ++ (meanOps2 ++ lastOps)))))) := rfl

/-- A buffer that is one of a list of buffers: the set of that one buffer lies in the list's set. -/
theorem single_sub {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem h))

/-- The buffers `colOps` writes. -/
abbrev colOpsW : List (Ref sig .tc) := [main_v1, main_v2, main_v3, main_v4, main_v5, main_v6, main_v7, main_v8, main_v9, main_v10, main_v11, main_v12, main_v13, main_v14, main_v15, main_v16]
theorem colOps_writes : (colOps : List (HloOp τ sig (Elt F))).Forall fun op => op.writes ⊆ ((colOpsW).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
/-- A buffer `colOps` does not write keeps its contents. -/
theorem colOps_keep (V : Valuation τ sig (Elt F)) {r : Ref sig .tc} (hr : r ∉ colOpsW) :
    StableHlo.after colOps V (Proc.devRef .tc r) = V (Proc.devRef .tc r) :=
  StableHlo.after_of_writes_sub colOps V colOps_writes hr

/-- The buffers `sdrOps1` writes. -/
abbrev sdrOps1W : List (Ref sig .tc) := [main_cst, main_v17, main_v18, main_cst_0, main_v19, main_v20, main_v21, main_v22, main_v23, main_cst_1, main_v24, main_v25, main_v26, main_v27, main_v28, main_v29, main_v30, main_cst_2, main_v31, main_v32, main_cst_3, main_v33, main_v34, main_cst_4, main_v35, main_v36, main_v37, main_v38, main_cst_5, main_v39, main_v40, main_cst_6, main_v41, main_v42]
theorem sdrOps1_writes : (sdrOps1 : List (HloOp τ sig (Elt F))).Forall fun op => op.writes ⊆ ((sdrOps1W).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
/-- A buffer `sdrOps1` does not write keeps its contents. -/
theorem sdrOps1_keep (V : Valuation τ sig (Elt F)) {r : Ref sig .tc} (hr : r ∉ sdrOps1W) :
    StableHlo.after sdrOps1 V (Proc.devRef .tc r) = V (Proc.devRef .tc r) :=
  StableHlo.after_of_writes_sub sdrOps1 V sdrOps1_writes hr

/-- The buffers `sdrOps2` writes. -/
abbrev sdrOps2W : List (Ref sig .tc) := [main_cst_7, main_v43, main_v44, main_cst_8, main_v45, main_v46, main_v47, main_v48, main_v49, main_cst_9, main_v50, main_v51, main_v52, main_v53, main_v54, main_v55, main_v56, main_cst_10, main_v57, main_v58, main_cst_11, main_v59, main_v60, main_cst_12, main_v61, main_v62, main_v63, main_v64, main_cst_13, main_v65, main_v66, main_cst_14, main_v67, main_v68]
theorem sdrOps2_writes : (sdrOps2 : List (HloOp τ sig (Elt F))).Forall fun op => op.writes ⊆ ((sdrOps2W).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
/-- A buffer `sdrOps2` does not write keeps its contents. -/
theorem sdrOps2_keep (V : Valuation τ sig (Elt F)) {r : Ref sig .tc} (hr : r ∉ sdrOps2W) :
    StableHlo.after sdrOps2 V (Proc.devRef .tc r) = V (Proc.devRef .tc r) :=
  StableHlo.after_of_writes_sub sdrOps2 V sdrOps2_writes hr

/-- The buffers `meanOps1` writes. -/
abbrev meanOps1W : List (Ref sig .tc) := [main_v69, main_cst_15, main_v70, main_v71]
theorem meanOps1_writes : (meanOps1 : List (HloOp τ sig (Elt F))).Forall fun op => op.writes ⊆ ((meanOps1W).map (Proc.devRef (τ := τ) .tc)).toFinset :=
  ⟨single_sub (by decide), single_sub (by decide), single_sub (by decide), single_sub (by decide)⟩
/-- A buffer `meanOps1` does not write keeps its contents. -/
theorem meanOps1_keep (V : Valuation τ sig (Elt F)) {r : Ref sig .tc} (hr : r ∉ meanOps1W) :
    StableHlo.after meanOps1 V (Proc.devRef .tc r) = V (Proc.devRef .tc r) :=
  StableHlo.after_of_writes_sub meanOps1 V meanOps1_writes hr

/-- The buffers `sdrOps3` writes. -/
abbrev sdrOps3W : List (Ref sig .tc) := [main_cst_16, main_v72, main_v73, main_cst_17, main_v74, main_v75, main_v76, main_v77, main_v78, main_cst_18, main_v79, main_v80, main_v81, main_v82, main_v83, main_v84, main_v85, main_cst_19, main_v86, main_v87, main_cst_20, main_v88, main_v89, main_cst_21, main_v90, main_v91, main_v92, main_v93, main_cst_22, main_v94, main_v95, main_cst_23, main_v96, main_v97]
theorem sdrOps3_writes : (sdrOps3 : List (HloOp τ sig (Elt F))).Forall fun op => op.writes ⊆ ((sdrOps3W).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
/-- A buffer `sdrOps3` does not write keeps its contents. -/
theorem sdrOps3_keep (V : Valuation τ sig (Elt F)) {r : Ref sig .tc} (hr : r ∉ sdrOps3W) :
    StableHlo.after sdrOps3 V (Proc.devRef .tc r) = V (Proc.devRef .tc r) :=
  StableHlo.after_of_writes_sub sdrOps3 V sdrOps3_writes hr

/-- The buffers `sdrOps4` writes. -/
abbrev sdrOps4W : List (Ref sig .tc) := [main_cst_24, main_v98, main_v99, main_cst_25, main_v100, main_v101, main_v102, main_v103, main_v104, main_cst_26, main_v105, main_v106, main_v107, main_v108, main_v109, main_v110, main_v111, main_cst_27, main_v112, main_v113, main_cst_28, main_v114, main_v115, main_cst_29, main_v116, main_v117, main_v118, main_v119, main_cst_30, main_v120, main_v121, main_cst_31, main_v122, main_v123]
theorem sdrOps4_writes : (sdrOps4 : List (HloOp τ sig (Elt F))).Forall fun op => op.writes ⊆ ((sdrOps4W).map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
/-- A buffer `sdrOps4` does not write keeps its contents. -/
theorem sdrOps4_keep (V : Valuation τ sig (Elt F)) {r : Ref sig .tc} (hr : r ∉ sdrOps4W) :
    StableHlo.after sdrOps4 V (Proc.devRef .tc r) = V (Proc.devRef .tc r) :=
  StableHlo.after_of_writes_sub sdrOps4 V sdrOps4_writes hr

/-- The buffers `meanOps2` writes. -/
abbrev meanOps2W : List (Ref sig .tc) := [main_v124, main_cst_32, main_v125, main_v126, main_v127]
theorem meanOps2_writes : (meanOps2 : List (HloOp τ sig (Elt F))).Forall fun op => op.writes ⊆ ((meanOps2W).map (Proc.devRef (τ := τ) .tc)).toFinset :=
  ⟨single_sub (by decide), single_sub (by decide), single_sub (by decide), single_sub (by decide), single_sub (by decide)⟩
/-- A buffer `meanOps2` does not write keeps its contents. -/
theorem meanOps2_keep (V : Valuation τ sig (Elt F)) {r : Ref sig .tc} (hr : r ∉ meanOps2W) :
    StableHlo.after meanOps2 V (Proc.devRef .tc r) = V (Proc.devRef .tc r) :=
  StableHlo.after_of_writes_sub meanOps2 V meanOps2_writes hr

/-- The buffers `lastOps` writes. -/
abbrev lastOpsW : List (Ref sig .tc) := [main_cst_33, main_v128, main_v129, main_cst_34, main_v130]
theorem lastOps_writes : (lastOps : List (HloOp τ sig (Elt F))).Forall fun op => op.writes ⊆ ((lastOpsW).map (Proc.devRef (τ := τ) .tc)).toFinset :=
  ⟨single_sub (by decide), single_sub (by decide), single_sub (by decide), single_sub (by decide), single_sub (by decide)⟩
/-- A buffer `lastOps` does not write keeps its contents. -/
theorem lastOps_keep (V : Valuation τ sig (Elt F)) {r : Ref sig .tc} (hr : r ∉ lastOpsW) :
    StableHlo.after lastOps V (Proc.devRef .tc r) = V (Proc.devRef .tc r) :=
  StableHlo.after_of_writes_sub lastOps V lastOps_writes hr

end Cert.KernelIdeal.Tail

end
-- ==== Proof.LibColumns.lean ====
/-
  Columns of a two-axis array.

  Three readings at explicit coordinates `(p, k)` (row `p`, column `k`), for arrays of any height `a`:
  a single column cut out of an `[a, b]` array and flattened to an `[a]` vector is the array's column; nine `[a, 1]`
  columns laid side by side form an `[a, 9]` array whose column `j` is the `j`-th of them; and the sum of an `[a, b]` array
  along its rows is, at row `p`, the sum over the `b` columns of the entries of that row.
-/
import Idealize.ShloMosaic.Lib.Pipeline.Value
import Idealize.ShloMosaic.Lib.ValueIdx
import Idealize.ShloMosaic.Lib.ValueLayout
import Idealize.ShloMosaic.PureOps.Ideal.Laws

namespace Cert.LibColumns

open Idealize.ShloMosaic Idealize.ShloMosaic.ValueIdx

variable {α : Type}

/-- Column `k` of an `[a, b]` array, cut out as an `[a, 1]` slice at column offset `o = k` and flattened to an `[a]`
    vector, reads at row `p` the array's entry `(p, k)`. -/
theorem col_apply {a b : ℕ} (o : ℕ) (v : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (p : Fin a) (k : Fin b) (hk : k.val = o) :
    shapeCast ⟨1, ![a]⟩ (extractStridedSlice ⟨2, ![a, 1]⟩ ![0, o] v hs) hc (ix1 p) = v (ix2 p k) :=
  (shapeCast_apply _ hc (ix1 p) (ix2 p (0 : Fin 1)) (by
    rw [Shape.rowMajor_val_two, Shape.rowMajor_val_one]
    show p.val * 1 + 0 = p.val
    omega)).trans (slice2_axis1_apply o v hs p (0 : Fin 1) k (by show k.val = o + 0; omega))

/-- One of nine things, chosen by a number below nine. -/
def pick9 {β : Type} (c0 c1 c2 c3 c4 c5 c6 c7 c8 : β) (j : Fin 9) : β :=
  match j with
  | ⟨0, _⟩ => c0
  | ⟨1, _⟩ => c1
  | ⟨2, _⟩ => c2
  | ⟨3, _⟩ => c3
  | ⟨4, _⟩ => c4
  | ⟨5, _⟩ => c5
  | ⟨6, _⟩ => c6
  | ⟨7, _⟩ => c7
  | ⟨8, _⟩ => c8
  | ⟨_ + 9, h⟩ => absurd h (Nat.not_lt.2 (Nat.le_add_left _ _))

/-- Choosing among nine functions and applying the chosen one is choosing among the nine values. -/
theorem pick9_app {β γ : Type} (c0 c1 c2 c3 c4 c5 c6 c7 c8 : β → γ) (j : Fin 9) (x : β) :
    pick9 c0 c1 c2 c3 c4 c5 c6 c7 c8 j x = pick9 (c0 x) (c1 x) (c2 x) (c3 x) (c4 x) (c5 x) (c6 x) (c7 x) (c8 x) j := by
  match j with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨n + 9, hn⟩ => exact absurd hn (Nat.not_lt.2 (Nat.le_add_left _ _))

/-- Two choices among nine agree when the nine things agree one by one. -/
theorem pick9_congr {β : Type} {a0 a1 a2 a3 a4 a5 a6 a7 a8 b0 b1 b2 b3 b4 b5 b6 b7 b8 : β}
    (h0 : a0 = b0) (h1 : a1 = b1) (h2 : a2 = b2) (h3 : a3 = b3) (h4 : a4 = b4) (h5 : a5 = b5) (h6 : a6 = b6)
    (h7 : a7 = b7) (h8 : a8 = b8) (j : Fin 9) :
    pick9 a0 a1 a2 a3 a4 a5 a6 a7 a8 j = pick9 b0 b1 b2 b3 b4 b5 b6 b7 b8 j := by
  rw [h0, h1, h2, h3, h4, h5, h6, h7, h8]

/-- Nine `[a, 1]` columns as the list of pieces a concatenation takes. -/
abbrev cols9 {a : ℕ} (c0 c1 c2 c3 c4 c5 c6 c7 c8 : (⟨2, ![a, 1]⟩ : Shape).Idx → α) : List ((s : Shape) × (s.Idx → α)) :=
  [⟨⟨2, ![a, 1]⟩, c0⟩, ⟨⟨2, ![a, 1]⟩, c1⟩, ⟨⟨2, ![a, 1]⟩, c2⟩, ⟨⟨2, ![a, 1]⟩, c3⟩, ⟨⟨2, ![a, 1]⟩, c4⟩,
    ⟨⟨2, ![a, 1]⟩, c5⟩, ⟨⟨2, ![a, 1]⟩, c6⟩, ⟨⟨2, ![a, 1]⟩, c7⟩, ⟨⟨2, ![a, 1]⟩, c8⟩]

/-- Nine `[a, 1]` columns joined along the column axis: the entry `(p, j)` of the `[a, 9]` result is the entry `(p, 0)`
    of the `j`-th column (the columns before it take up exactly `j` positions of the joined axis). -/
theorem concat9_apply {a : ℕ} (c0 c1 c2 c3 c4 c5 c6 c7 c8 : (⟨2, ![a, 1]⟩ : Shape).Idx → α)
    (h : Shape.Concatenates ((cols9 c0 c1 c2 c3 c4 c5 c6 c7 c8).map (·.1)) ⟨2, ![a, 9]⟩ 1)
    (p : Fin a) (j : Fin 9) :
    concatenate ⟨2, ![a, 9]⟩ 1 (cols9 c0 c1 c2 c3 c4 c5 c6 c7 c8) h (ix2 p j)
      = pick9 c0 c1 c2 c3 c4 c5 c6 c7 c8 j (ix2 p (0 : Fin 1)) := by
  have hi : ∀ (j : Fin 9) (b : Fin 2), b.cast (rfl : (2 : ℕ) = 2) ≠ (1 : Fin 2) →
      ((ix2 p (0 : Fin 1) : (⟨2, ![a, 1]⟩ : Shape).Idx) b).val
        = ((ix2 p j : (⟨2, ![a, 9]⟩ : Shape).Idx) (b.cast rfl)).val := by
    intro j b hb
    match b with
    | ⟨0, _⟩ => rfl
    | ⟨1, _⟩ => exact absurd rfl hb
  match j with
  | ⟨0, hj⟩ =>
    exact concatenate_apply_piece (t := ⟨2, ![a, 9]⟩) (1 : Fin 2) (cols9 c0 c1 c2 c3 c4 c5 c6 c7 c8) h (ix2 p (⟨0, hj⟩ : Fin 9)) 0
      (by show (0 : ℕ) < 9; decide) ⟨2, ![a, 1]⟩ c0 rfl rfl 0 rfl (ix2 p (0 : Fin 1)) (hi _) rfl
  | ⟨1, hj⟩ =>
    exact concatenate_apply_piece (t := ⟨2, ![a, 9]⟩) (1 : Fin 2) (cols9 c0 c1 c2 c3 c4 c5 c6 c7 c8) h (ix2 p (⟨1, hj⟩ : Fin 9)) 1
      (by show (1 : ℕ) < 9; decide) ⟨2, ![a, 1]⟩ c1 rfl rfl 1 rfl (ix2 p (0 : Fin 1)) (hi _) rfl
  | ⟨2, hj⟩ =>
    exact concatenate_apply_piece (t := ⟨2, ![a, 9]⟩) (1 : Fin 2) (cols9 c0 c1 c2 c3 c4 c5 c6 c7 c8) h (ix2 p (⟨2, hj⟩ : Fin 9)) 2
      (by show (2 : ℕ) < 9; decide) ⟨2, ![a, 1]⟩ c2 rfl rfl 2 rfl (ix2 p (0 : Fin 1)) (hi _) rfl
  | ⟨3, hj⟩ =>
    exact concatenate_apply_piece (t := ⟨2, ![a, 9]⟩) (1 : Fin 2) (cols9 c0 c1 c2 c3 c4 c5 c6 c7 c8) h (ix2 p (⟨3, hj⟩ : Fin 9)) 3
      (by show (3 : ℕ) < 9; decide) ⟨2, ![a, 1]⟩ c3 rfl rfl 3 rfl (ix2 p (0 : Fin 1)) (hi _) rfl
  | ⟨4, hj⟩ =>
    exact concatenate_apply_piece (t := ⟨2, ![a, 9]⟩) (1 : Fin 2) (cols9 c0 c1 c2 c3 c4 c5 c6 c7 c8) h (ix2 p (⟨4, hj⟩ : Fin 9)) 4
      (by show (4 : ℕ) < 9; decide) ⟨2, ![a, 1]⟩ c4 rfl rfl 4 rfl (ix2 p (0 : Fin 1)) (hi _) rfl
  | ⟨5, hj⟩ =>
    exact concatenate_apply_piece (t := ⟨2, ![a, 9]⟩) (1 : Fin 2) (cols9 c0 c1 c2 c3 c4 c5 c6 c7 c8) h (ix2 p (⟨5, hj⟩ : Fin 9)) 5
      (by show (5 : ℕ) < 9; decide) ⟨2, ![a, 1]⟩ c5 rfl rfl 5 rfl (ix2 p (0 : Fin 1)) (hi _) rfl
  | ⟨6, hj⟩ =>
    exact concatenate_apply_piece (t := ⟨2, ![a, 9]⟩) (1 : Fin 2) (cols9 c0 c1 c2 c3 c4 c5 c6 c7 c8) h (ix2 p (⟨6, hj⟩ : Fin 9)) 6
      (by show (6 : ℕ) < 9; decide) ⟨2, ![a, 1]⟩ c6 rfl rfl 6 rfl (ix2 p (0 : Fin 1)) (hi _) rfl
  | ⟨7, hj⟩ =>
    exact concatenate_apply_piece (t := ⟨2, ![a, 9]⟩) (1 : Fin 2) (cols9 c0 c1 c2 c3 c4 c5 c6 c7 c8) h (ix2 p (⟨7, hj⟩ : Fin 9)) 7
      (by show (7 : ℕ) < 9; decide) ⟨2, ![a, 1]⟩ c7 rfl rfl 7 rfl (ix2 p (0 : Fin 1)) (hi _) rfl
  | ⟨8, hj⟩ =>
    exact concatenate_apply_piece (t := ⟨2, ![a, 9]⟩) (1 : Fin 2) (cols9 c0 c1 c2 c3 c4 c5 c6 c7 c8) h (ix2 p (⟨8, hj⟩ : Fin 9)) 8
      (by show (8 : ℕ) < 9; decide) ⟨2, ![a, 1]⟩ c8 rfl rfl 8 rfl (ix2 p (0 : Fin 1)) (hi _) rfl
  | ⟨n + 9, hn⟩ => exact absurd hn (Nat.not_lt.2 (Nat.le_add_left _ _))

/-- The sum of an `[a, b]` array of extended reals along its rows (a lane reduction with the additive neutral element
    as accumulator), read at row `p`: the sum over the columns `k` of the entries `(p, k)`. -/
theorem rowSum_apply {a b : ℕ} (src : FVec Ideal (⟨2, ![a, b]⟩ : Shape) .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun ax => Fin.ext (by
      match ax with
      | ⟨0, _⟩ => rfl
      | ⟨1, _⟩ => rfl)))

end Cert.LibColumns
-- ==== Proof.TailCols.lean ====
/-
  The eight columns of the 64 × 8 table, read at a row: the vector the program cuts out for column `k` holds, at row
  `p`, the table's entry `(p, k)`.
-/
import proofs.«171039_j65670049956214_2_alg».proof.Proof.TailOps
import proofs.«171039_j65670049956214_2_alg».proof.Proof.LibColumns

noncomputable section

namespace Cert.KernelIdeal.Tail

open Idealize.ShloMosaic Idealize.ShloMosaic.TcCoe Idealize.ShloMosaic.ValueIdx Idealize.ShloMosaic.StableHlo Idealize.SL.Sem
open Cert.KernelIdeal Cert.KernelIdeal.Gen

/-- Column 0. -/
theorem col0 (V : Valuation τ sig (Elt Ideal)) :
    (after (colOps (F := Ideal)) V (Proc.devRef .tc main_v2) : S64.Idx → EReal)
      = fun i => (V (Proc.devRef .tc main_v0) : S64x8.Idx → EReal) (ix2 (i 0) (0 : Fin 8)) := by
  after_results
  funext i
  obtain ⟨p, rfl⟩ : ∃ p : Fin 64, i = ix1 p := ⟨i 0, eq_ix1 i⟩
  exact Cert.LibColumns.col_apply 0 _ slices_S64x8_S64x1_0_0 shapeCasts_S64x1_S64 p (0 : Fin 8) rfl

/-- Column 1. -/
theorem col1 (V : Valuation τ sig (Elt Ideal)) :
    (after (colOps (F := Ideal)) V (Proc.devRef .tc main_v4) : S64.Idx → EReal)
      = fun i => (V (Proc.devRef .tc main_v0) : S64x8.Idx → EReal) (ix2 (i 0) (1 : Fin 8)) := by
  after_results
  funext i
  obtain ⟨p, rfl⟩ : ∃ p : Fin 64, i = ix1 p := ⟨i 0, eq_ix1 i⟩
  exact Cert.LibColumns.col_apply 1 _ slices_S64x8_S64x1_0_1 shapeCasts_S64x1_S64 p (1 : Fin 8) rfl

/-- Column 2. -/
theorem col2 (V : Valuation τ sig (Elt Ideal)) :
    (after (colOps (F := Ideal)) V (Proc.devRef .tc main_v6) : S64.Idx → EReal)
      = fun i => (V (Proc.devRef .tc main_v0) : S64x8.Idx → EReal) (ix2 (i 0) (2 : Fin 8)) := by
  after_results
  funext i
  obtain ⟨p, rfl⟩ : ∃ p : Fin 64, i = ix1 p := ⟨i 0, eq_ix1 i⟩
  exact Cert.LibColumns.col_apply 2 _ slices_S64x8_S64x1_0_2 shapeCasts_S64x1_S64 p (2 : Fin 8) rfl

/-- Column 3. -/
theorem col3 (V : Valuation τ sig (Elt Ideal)) :
    (after (colOps (F := Ideal)) V (Proc.devRef .tc main_v8) : S64.Idx → EReal)
      = fun i => (V (Proc.devRef .tc main_v0) : S64x8.Idx → EReal) (ix2 (i 0) (3 : Fin 8)) := by
  after_results
  funext i
  obtain ⟨p, rfl⟩ : ∃ p : Fin 64, i = ix1 p := ⟨i 0, eq_ix1 i⟩
  exact Cert.LibColumns.col_apply 3 _ slices_S64x8_S64x1_0_3 shapeCasts_S64x1_S64 p (3 : Fin 8) rfl

/-- Column 4. -/
theorem col4 (V : Valuation τ sig (Elt Ideal)) :
    (after (colOps (F := Ideal)) V (Proc.devRef .tc main_v10) : S64.Idx → EReal)
      = fun i => (V (Proc.devRef .tc main_v0) : S64x8.Idx → EReal) (ix2 (i 0) (4 : Fin 8)) := by
  after_results
  funext i
  obtain ⟨p, rfl⟩ : ∃ p : Fin 64, i = ix1 p := ⟨i 0, eq_ix1 i⟩
  exact Cert.LibColumns.col_apply 4 _ slices_S64x8_S64x1_0_4 shapeCasts_S64x1_S64 p (4 : Fin 8) rfl

/-- Column 5. -/
theorem col5 (V : Valuation τ sig (Elt Ideal)) :
    (after (colOps (F := Ideal)) V (Proc.devRef .tc main_v12) : S64.Idx → EReal)
      = fun i => (V (Proc.devRef .tc main_v0) : S64x8.Idx → EReal) (ix2 (i 0) (5 : Fin 8)) := by
  after_results
  funext i
  obtain ⟨p, rfl⟩ : ∃ p : Fin 64, i = ix1 p := ⟨i 0, eq_ix1 i⟩
  exact Cert.LibColumns.col_apply 5 _ slices_S64x8_S64x1_0_5 shapeCasts_S64x1_S64 p (5 : Fin 8) rfl

/-- Column 6. -/
theorem col6 (V : Valuation τ sig (Elt Ideal)) :
    (after (colOps (F := Ideal)) V (Proc.devRef .tc main_v14) : S64.Idx → EReal)
      = fun i => (V (Proc.devRef .tc main_v0) : S64x8.Idx → EReal) (ix2 (i 0) (6 : Fin 8)) := by
  after_results
  funext i
  obtain ⟨p, rfl⟩ : ∃ p : Fin 64, i = ix1 p := ⟨i 0, eq_ix1 i⟩
  exact Cert.LibColumns.col_apply 6 _ slices_S64x8_S64x1_0_6 shapeCasts_S64x1_S64 p (6 : Fin 8) rfl

/-- Column 7. -/
theorem col7 (V : Valuation τ sig (Elt Ideal)) :
    (after (colOps (F := Ideal)) V (Proc.devRef .tc main_v16) : S64.Idx → EReal)
      = fun i => (V (Proc.devRef .tc main_v0) : S64x8.Idx → EReal) (ix2 (i 0) (7 : Fin 8)) := by
  after_results
  funext i
  obtain ⟨p, rfl⟩ : ∃ p : Fin 64, i = ix1 p := ⟨i 0, eq_ix1 i⟩
  exact Cert.LibColumns.col_apply 7 _ slices_S64x8_S64x1_0_7 shapeCasts_S64x1_S64 p (7 : Fin 8) rfl

end Cert.KernelIdeal.Tail

end
-- ==== Proof.TailSdr1.lean ====
/-
  One scale-invariant ratio, the first estimate against the first target: the chain of 34 operations — add ε to the correlation and to the
  target's energy, divide, square and scale the target's energy, subtract twice the scaled correlation from the
  estimate's energy and add the scaled energy back, cut at zero, add ε to both, divide, take the logarithm, convert to
  decibels — computes, row by row, the ratio `PitSiSdr.siSdr` of the three sums of that row.
-/
import proofs.«171039_j65670049956214_2_alg».proof.Proof.TailOps
import proofs.«171039_j65670049956214_2_alg».proof.Proof.Spec

noncomputable section

namespace Cert.KernelIdeal.Tail

open Idealize.ShloMosaic Idealize.ShloMosaic.TcCoe Idealize.ShloMosaic.ValueIdx Idealize.ShloMosaic.StableHlo Idealize.SL.Sem
open Cert.KernelIdeal Cert.KernelIdeal.Gen

set_option maxHeartbeats 4000000 in
/-- From the estimate's energy `pp`, the correlation `pt` and the target's energy `tt` of each row, the chain's result
    at row `i` is the ratio of that row's three sums. -/
theorem sdr1 (V : Valuation τ sig (Elt Ideal)) (pp pt tt : Fin 64 → EReal)
    (hpp : (V (Proc.devRef .tc main_v2) : S64.Idx → EReal) = fun i => pp (i 0))
    (hpt : (V (Proc.devRef .tc main_v10) : S64.Idx → EReal) = fun i => pt (i 0))
    (htt : (V (Proc.devRef .tc main_v6) : S64.Idx → EReal) = fun i => tt (i 0)) :
    (after (sdrOps1 (F := Ideal)) V (Proc.devRef .tc main_v42) : S64.Idx → EReal)
      = fun i => PitSiSdr.siSdr (pp (i 0)) (pt (i 0)) (tt (i 0)) := by
  after_results_simp
  rw [hpp, hpt, htt]
  rfl

end Cert.KernelIdeal.Tail

end
-- ==== Proof.TailSdr2.lean ====
/-
  One scale-invariant ratio, the second estimate against the second target: the chain of 34 operations — add ε to the correlation and to the
  target's energy, divide, square and scale the target's energy, subtract twice the scaled correlation from the
  estimate's energy and add the scaled energy back, cut at zero, add ε to both, divide, take the logarithm, convert to
  decibels — computes, row by row, the ratio `PitSiSdr.siSdr` of the three sums of that row.
-/
import proofs.«171039_j65670049956214_2_alg».proof.Proof.TailOps
import proofs.«171039_j65670049956214_2_alg».proof.Proof.Spec

noncomputable section

namespace Cert.KernelIdeal.Tail

open Idealize.ShloMosaic Idealize.ShloMosaic.TcCoe Idealize.ShloMosaic.ValueIdx Idealize.ShloMosaic.StableHlo Idealize.SL.Sem
open Cert.KernelIdeal Cert.KernelIdeal.Gen

set_option maxHeartbeats 4000000 in
/-- From the estimate's energy `pp`, the correlation `pt` and the target's energy `tt` of each row, the chain's result
    at row `i` is the ratio of that row's three sums. -/
theorem sdr2 (V : Valuation τ sig (Elt Ideal)) (pp pt tt : Fin 64 → EReal)
    (hpp : (V (Proc.devRef .tc main_v4) : S64.Idx → EReal) = fun i => pp (i 0))
    (hpt : (V (Proc.devRef .tc main_v12) : S64.Idx → EReal) = fun i => pt (i 0))
    (htt : (V (Proc.devRef .tc main_v8) : S64.Idx → EReal) = fun i => tt (i 0)) :
    (after (sdrOps2 (F := Ideal)) V (Proc.devRef .tc main_v68) : S64.Idx → EReal)
      = fun i => PitSiSdr.siSdr (pp (i 0)) (pt (i 0)) (tt (i 0)) := by
  after_results_simp
  rw [hpp, hpt, htt]
  rfl

end Cert.KernelIdeal.Tail

end
-- ==== Proof.TailSdr3.lean ====
/-
  One scale-invariant ratio, the second estimate against the first target: the chain of 34 operations — add ε to the correlation and to the
  target's energy, divide, square and scale the target's energy, subtract twice the scaled correlation from the
  estimate's energy and add the scaled energy back, cut at zero, add ε to both, divide, take the logarithm, convert to
  decibels — computes, row by row, the ratio `PitSiSdr.siSdr` of the three sums of that row.
-/
import proofs.«171039_j65670049956214_2_alg».proof.Proof.TailOps
import proofs.«171039_j65670049956214_2_alg».proof.Proof.Spec

noncomputable section

namespace Cert.KernelIdeal.Tail

open Idealize.ShloMosaic Idealize.ShloMosaic.TcCoe Idealize.ShloMosaic.ValueIdx Idealize.ShloMosaic.StableHlo Idealize.SL.Sem
open Cert.KernelIdeal Cert.KernelIdeal.Gen

set_option maxHeartbeats 4000000 in
/-- From the estimate's energy `pp`, the correlation `pt` and the target's energy `tt` of each row, the chain's result
    at row `i` is the ratio of that row's three sums. -/
theorem sdr3 (V : Valuation τ sig (Elt Ideal)) (pp pt tt : Fin 64 → EReal)
    (hpp : (V (Proc.devRef .tc main_v4) : S64.Idx → EReal) = fun i => pp (i 0))
    (hpt : (V (Proc.devRef .tc main_v14) : S64.Idx → EReal) = fun i => pt (i 0))
    (htt : (V (Proc.devRef .tc main_v6) : S64.Idx → EReal) = fun i => tt (i 0)) :
    (after (sdrOps3 (F := Ideal)) V (Proc.devRef .tc main_v97) : S64.Idx → EReal)
      = fun i => PitSiSdr.siSdr (pp (i 0)) (pt (i 0)) (tt (i 0)) := by
  after_results_simp
  rw [hpp, hpt, htt]
  rfl

end Cert.KernelIdeal.Tail

end
-- ==== Proof.TailSdr4.lean ====
/-
  One scale-invariant ratio, the first estimate against the second target: the chain of 34 operations — add ε to the correlation and to the
  target's energy, divide, square and scale the target's energy, subtract twice the scaled correlation from the
  estimate's energy and add the scaled energy back, cut at zero, add ε to both, divide, take the logarithm, convert to
  decibels — computes, row by row, the ratio `PitSiSdr.siSdr` of the three sums of that row.
-/
import proofs.«171039_j65670049956214_2_alg».proof.Proof.TailOps
import proofs.«171039_j65670049956214_2_alg».proof.Proof.Spec

noncomputable section

namespace Cert.KernelIdeal.Tail

open Idealize.ShloMosaic Idealize.ShloMosaic.TcCoe Idealize.ShloMosaic.ValueIdx Idealize.ShloMosaic.StableHlo Idealize.SL.Sem
open Cert.KernelIdeal Cert.KernelIdeal.Gen

set_option maxHeartbeats 4000000 in
/-- From the estimate's energy `pp`, the correlation `pt` and the target's energy `tt` of each row, the chain's result
    at row `i` is the ratio of that row's three sums. -/
theorem sdr4 (V : Valuation τ sig (Elt Ideal)) (pp pt tt : Fin 64 → EReal)
    (hpp : (V (Proc.devRef .tc main_v2) : S64.Idx → EReal) = fun i => pp (i 0))
    (hpt : (V (Proc.devRef .tc main_v16) : S64.Idx → EReal) = fun i => pt (i 0))
    (htt : (V (Proc.devRef .tc main_v8) : S64.Idx → EReal) = fun i => tt (i 0)) :
    (after (sdrOps4 (F := Ideal)) V (Proc.devRef .tc main_v123) : S64.Idx → EReal)
      = fun i => PitSiSdr.siSdr (pp (i 0)) (pt (i 0)) (tt (i 0)) := by
  after_results_simp
  rw [hpp, hpt, htt]
  rfl

end Cert.KernelIdeal.Tail

end
-- ==== Proof.TailMean.lean ====
/-
  The two means and the maximum. The mean of two ratios is their sum times one half, row by row; a row's score is
  the larger of the two assignments' means.
-/
import proofs.«171039_j65670049956214_2_alg».proof.Proof.TailOps
import proofs.«171039_j65670049956214_2_alg».proof.Proof.Spec

noncomputable section

namespace Cert.KernelIdeal.Tail

open Idealize.ShloMosaic Idealize.ShloMosaic.TcCoe Idealize.ShloMosaic.ValueIdx Idealize.ShloMosaic.StableHlo Idealize.SL.Sem
open Cert.KernelIdeal Cert.KernelIdeal.Gen

/-- The first assignment's mean: at row `i`, the sum of its two ratios times one half. -/
theorem mean1 (V : Valuation τ sig (Elt Ideal)) (a b : Fin 64 → EReal)
    (ha : (V (Proc.devRef .tc main_v42) : S64.Idx → EReal) = fun i => a (i 0))
    (hb : (V (Proc.devRef .tc main_v68) : S64.Idx → EReal) = fun i => b (i 0)) :
    (after (meanOps1 (F := Ideal)) V (Proc.devRef .tc main_v71) : S64.Idx → EReal)
      = fun i => (a (i 0) + b (i 0)) * PitSiSdr.half := by
  after_results
  rw [ha, hb]
  rfl

/-- The second assignment's mean, and the larger of the two means: at row `i`, the maximum of the first mean `m` and
    the sum of the second assignment's two ratios times one half. -/
theorem mean2 (V : Valuation τ sig (Elt Ideal)) (m c d : Fin 64 → EReal)
    (hm : (V (Proc.devRef .tc main_v71) : S64.Idx → EReal) = fun i => m (i 0))
    (hc : (V (Proc.devRef .tc main_v97) : S64.Idx → EReal) = fun i => c (i 0))
    (hd : (V (Proc.devRef .tc main_v123) : S64.Idx → EReal) = fun i => d (i 0)) :
    (after (meanOps2 (F := Ideal)) V (Proc.devRef .tc main_v127) : S64.Idx → EReal)
      = fun i => max (m (i 0)) ((c (i 0) + d (i 0)) * PitSiSdr.half) := by
  after_results
  rw [hm, hc, hd]
  rfl

end Cert.KernelIdeal.Tail

end
-- ==== Proof.LibBroadcastRead.lean ====
/-
  Host broadcasts read at coordinates, and sums over small index sets as sums over rows.

  A scalar broadcast to any shape reads the scalar everywhere; an `[a]` vector broadcast along a new unit axis to an
  `[a, 1]` column reads, at `(i, u)`, the vector at `i`; an `[a, 1]` column broadcast to `[a, b]` reads, at `(i, j)`,
  the column at `(i, 0)`. A sum over the indices of an `[n]` vector, or of an `[n, 1]` column, is the sum over its `n` rows.
-/
import Idealize.ShloMosaic.Lib.Pipeline.Value
import Idealize.ShloMosaic.Lib.ValueIdx

namespace Cert.LibBroadcastRead

open Idealize.ShloMosaic Idealize.ShloMosaic.ValueIdx

variable {α : Type}

/-- A rank-0 value broadcast to any shape reads, at every index, the value. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

/-- An `[a]` vector broadcast to an `[a, 1]` column along axis 0 reads, at `(i, u)`, the vector at `i`. -/
theorem bcast_column_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` column broadcast to `[a, b]` along both axes reads, at `(i, j)`, the column at `(i, 0)`. -/
theorem bcast_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A sum over the indices of an `[n]` vector is the sum over its entries. -/
theorem sum_vector {M : Type*} [AddCommMonoid M] {n : ℕ} (f : (⟨1, ![n]⟩ : Shape).Idx → M) :
    ∑ i, f i = ∑ r : Fin n, f (ix1 r) :=
  Fintype.sum_equiv ⟨fun i => i 0, fun r => ix1 r, fun i => (eq_ix1 i).symm, fun _ => rfl⟩ f (fun r => f (ix1 r))
    fun i => congrArg f (eq_ix1 i)

/-- A sum over the indices of an `[n, 1]` column is the sum over its rows. -/
theorem sum_column {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

end Cert.LibBroadcastRead
-- ==== Proof.TailLast.lean ====
/-
  The last five operations: the 64 scores are summed from zero, the sum is negated and divided by 64. The host's sum
  of a vector of 64 entries into a scalar is the initial value plus the sum over the 64 rows.
-/
import proofs.«171039_j65670049956214_2_alg».proof.Proof.TailOps
import proofs.«171039_j65670049956214_2_alg».proof.Proof.Spec
import proofs.«171039_j65670049956214_2_alg».proof.Proof.LibBroadcastRead
import Idealize.ShloMosaic.PureOps.Ideal.Laws

noncomputable section

namespace Cert.KernelIdeal.Tail

open Idealize.ShloMosaic Idealize.ShloMosaic.TcCoe Idealize.ShloMosaic.ValueIdx Idealize.ShloMosaic.StableHlo Idealize.SL.Sem
open Cert.KernelIdeal Cert.KernelIdeal.Gen

/-- From the scores `sc` of the 64 rows: minus their sum from zero, divided by 64. -/
theorem last (V : Valuation τ sig (Elt Ideal)) (sc : Fin 64 → EReal)
    (hs : (V (Proc.devRef .tc main_v127) : S64.Idx → EReal) = fun i => sc (i 0)) :
    (after (lastOps (F := Ideal)) V (Proc.devRef .tc main_v130) : S_.Idx → EReal)
      = fun _ => Ideal.div (-(PitSiSdr.zero + ∑ b : Fin 64, sc b)) PitSiSdr.sixtyFour := by
  after_results
  rw [hs]
  funext j
  show Ideal.div (-(Ideal.hostReduceAdd reducesTo_S64_S_d0 (fun i : S64.Idx => sc (i 0)) PitSiSdr.zero j)) PitSiSdr.sixtyFour = _
  rw [Ideal.hostReduceAdd_total reducesTo_S64_S_d0 (fun b => b.elim0)]
  exact congrArg (fun x => Ideal.div (-(PitSiSdr.zero + x)) PitSiSdr.sixtyFour)
    (Cert.LibBroadcastRead.sum_vector (fun i : S64.Idx => sc (i 0)))

end Cert.KernelIdeal.Tail

end
-- ==== Proof.KernelTail.lean ====
/-
  The host operations after the kernel's region compute the loss from the 64 × 8 table of sums.

  The operations are run list by list (the eight columns, the four ratios, the two means and the maximum, the final
  sum), carrying along what each buffer still to be read holds as a function of the table: a column `k` holds row by
  row the table's entry `(row, k)`; a ratio's result holds `PitSiSdr.siSdr` of its three columns; the maximum holds the
  row's `PitSiSdr.score`; and the last scalar is `PitSiSdr.lossOfSums` of the table.
-/
import proofs.«171039_j65670049956214_2_alg».proof.Proof.TailCols
import proofs.«171039_j65670049956214_2_alg».proof.Proof.TailSdr1
import proofs.«171039_j65670049956214_2_alg».proof.Proof.TailSdr2
import proofs.«171039_j65670049956214_2_alg».proof.Proof.TailSdr3
import proofs.«171039_j65670049956214_2_alg».proof.Proof.TailSdr4
import proofs.«171039_j65670049956214_2_alg».proof.Proof.TailMean
import proofs.«171039_j65670049956214_2_alg».proof.Proof.TailLast
import Idealize.ShloMosaic.Lib.Pipeline.Frame

noncomputable section

namespace Cert.KernelIdeal.Tail

open Idealize.ShloMosaic Idealize.ShloMosaic.TcCoe Idealize.ShloMosaic.ValueIdx Idealize.ShloMosaic.StableHlo Idealize.SL.Sem
open Cert.KernelIdeal Cert.KernelIdeal.Gen

/-- The table of sums the region leaves, by row and column. -/
abbrev tbl (W : Valuation τ sig (Elt Ideal)) : Fin 64 → Fin 8 → EReal :=
  fun b k => (W (Proc.devRef .tc main_v0) : S64x8.Idx → EReal) (ix2 b k)

/-- The buffers after the columns, after each ratio, after each mean, and at the end. -/
abbrev V1 (W : Valuation τ sig (Elt Ideal)) : Valuation τ sig (Elt Ideal) := after (colOps (F := Ideal)) W
abbrev V2 (W : Valuation τ sig (Elt Ideal)) : Valuation τ sig (Elt Ideal) := after (sdrOps1 (F := Ideal)) (V1 W)
abbrev V3 (W : Valuation τ sig (Elt Ideal)) : Valuation τ sig (Elt Ideal) := after (sdrOps2 (F := Ideal)) (V2 W)
abbrev V4 (W : Valuation τ sig (Elt Ideal)) : Valuation τ sig (Elt Ideal) := after (meanOps1 (F := Ideal)) (V3 W)
abbrev V5 (W : Valuation τ sig (Elt Ideal)) : Valuation τ sig (Elt Ideal) := after (sdrOps3 (F := Ideal)) (V4 W)
abbrev V6 (W : Valuation τ sig (Elt Ideal)) : Valuation τ sig (Elt Ideal) := after (sdrOps4 (F := Ideal)) (V5 W)
abbrev V7 (W : Valuation τ sig (Elt Ideal)) : Valuation τ sig (Elt Ideal) := after (meanOps2 (F := Ideal)) (V6 W)
abbrev V8 (W : Valuation τ sig (Elt Ideal)) : Valuation τ sig (Elt Ideal) := after (lastOps (F := Ideal)) (V7 W)

/-- Running the whole list is running the eight lists in turn. -/
theorem after_hostOps1 (W : Valuation τ sig (Elt Ideal)) : after (Gen.hostOps1 (F := Ideal)) W = V8 W := by
  rw [hostOps1_eq]
  simp only [StableHlo.after_append]

/-- THE TAIL: after the host operations the result buffer holds the loss of the table of sums. -/
theorem tail_eq (W : Valuation τ sig (Elt Ideal)) :
    (StableHlo.after (Gen.hostOps1 (F := Ideal)) W (Proc.devRef .tc main_v130) : S_.Idx → EReal)
      = fun _ => PitSiSdr.lossOfSums (fun b k => (W (Proc.devRef .tc main_v0) : S64x8.Idx → EReal) (ix2 b k)) := by
  rw [after_hostOps1]
  -- the columns
  have c0 : (V1 W (Proc.devRef .tc main_v2) : S64.Idx → EReal) = fun i => tbl W (i 0) 0 := col0 W
  have c1 : (V1 W (Proc.devRef .tc main_v4) : S64.Idx → EReal) = fun i => tbl W (i 0) 1 := col1 W
  have c2 : (V1 W (Proc.devRef .tc main_v6) : S64.Idx → EReal) = fun i => tbl W (i 0) 2 := col2 W
  have c3 : (V1 W (Proc.devRef .tc main_v8) : S64.Idx → EReal) = fun i => tbl W (i 0) 3 := col3 W
  have c4 : (V1 W (Proc.devRef .tc main_v10) : S64.Idx → EReal) = fun i => tbl W (i 0) 4 := col4 W
  have c5 : (V1 W (Proc.devRef .tc main_v12) : S64.Idx → EReal) = fun i => tbl W (i 0) 5 := col5 W
  have c6 : (V1 W (Proc.devRef .tc main_v14) : S64.Idx → EReal) = fun i => tbl W (i 0) 6 := col6 W
  have c7 : (V1 W (Proc.devRef .tc main_v16) : S64.Idx → EReal) = fun i => tbl W (i 0) 7 := col7 W
  -- the first ratio; the columns still to be read are kept
  have r1 : (V2 W (Proc.devRef .tc main_v42) : S64.Idx → EReal) = fun i => PitSiSdr.siSdr (tbl W (i 0) 0) (tbl W (i 0) 4) (tbl W (i 0) 2) :=
    sdr1 (V1 W) (fun b => tbl W b 0) (fun b => tbl W b 4) (fun b => tbl W b 2) c0 c4 c2
  have d0 : (V2 W (Proc.devRef .tc main_v2) : S64.Idx → EReal) = fun i => tbl W (i 0) 0 := (sdrOps1_keep (V1 W) (by decide)).trans c0
  have d1 : (V2 W (Proc.devRef .tc main_v4) : S64.Idx → EReal) = fun i => tbl W (i 0) 1 := (sdrOps1_keep (V1 W) (by decide)).trans c1
  have d2 : (V2 W (Proc.devRef .tc main_v6) : S64.Idx → EReal) = fun i => tbl W (i 0) 2 := (sdrOps1_keep (V1 W) (by decide)).trans c2
  have d3 : (V2 W (Proc.devRef .tc main_v8) : S64.Idx → EReal) = fun i => tbl W (i 0) 3 := (sdrOps1_keep (V1 W) (by decide)).trans c3
  have d5 : (V2 W (Proc.devRef .tc main_v12) : S64.Idx → EReal) = fun i => tbl W (i 0) 5 := (sdrOps1_keep (V1 W) (by decide)).trans c5
  have d6 : (V2 W (Proc.devRef .tc main_v14) : S64.Idx → EReal) = fun i => tbl W (i 0) 6 := (sdrOps1_keep (V1 W) (by decide)).trans c6
  have d7 : (V2 W (Proc.devRef .tc main_v16) : S64.Idx → EReal) = fun i => tbl W (i 0) 7 := (sdrOps1_keep (V1 W) (by decide)).trans c7
  -- the second ratio
  have r2 : (V3 W (Proc.devRef .tc main_v68) : S64.Idx → EReal) = fun i => PitSiSdr.siSdr (tbl W (i 0) 1) (tbl W (i 0) 5) (tbl W (i 0) 3) :=
    sdr2 (V2 W) (fun b => tbl W b 1) (fun b => tbl W b 5) (fun b => tbl W b 3) d1 d5 d3
  have r1' : (V3 W (Proc.devRef .tc main_v42) : S64.Idx → EReal) = fun i => PitSiSdr.siSdr (tbl W (i 0) 0) (tbl W (i 0) 4) (tbl W (i 0) 2) := (sdrOps2_keep (V2 W) (by decide)).trans r1
  have e0 : (V3 W (Proc.devRef .tc main_v2) : S64.Idx → EReal) = fun i => tbl W (i 0) 0 := (sdrOps2_keep (V2 W) (by decide)).trans d0
  have e1 : (V3 W (Proc.devRef .tc main_v4) : S64.Idx → EReal) = fun i => tbl W (i 0) 1 := (sdrOps2_keep (V2 W) (by decide)).trans d1
  have e2 : (V3 W (Proc.devRef .tc main_v6) : S64.Idx → EReal) = fun i => tbl W (i 0) 2 := (sdrOps2_keep (V2 W) (by decide)).trans d2
  have e3 : (V3 W (Proc.devRef .tc main_v8) : S64.Idx → EReal) = fun i => tbl W (i 0) 3 := (sdrOps2_keep (V2 W) (by decide)).trans d3
  have e6 : (V3 W (Proc.devRef .tc main_v14) : S64.Idx → EReal) = fun i => tbl W (i 0) 6 := (sdrOps2_keep (V2 W) (by decide)).trans d6
  have e7 : (V3 W (Proc.devRef .tc main_v16) : S64.Idx → EReal) = fun i => tbl W (i 0) 7 := (sdrOps2_keep (V2 W) (by decide)).trans d7
  -- the first mean
  have m1 : (V4 W (Proc.devRef .tc main_v71) : S64.Idx → EReal) = fun i => (PitSiSdr.siSdr (tbl W (i 0) 0) (tbl W (i 0) 4) (tbl W (i 0) 2) + PitSiSdr.siSdr (tbl W (i 0) 1) (tbl W (i 0) 5) (tbl W (i 0) 3)) * PitSiSdr.half :=
    mean1 (V3 W) (fun b => PitSiSdr.siSdr (tbl W b 0) (tbl W b 4) (tbl W b 2)) (fun b => PitSiSdr.siSdr (tbl W b 1) (tbl W b 5) (tbl W b 3)) r1' r2
  have f0 : (V4 W (Proc.devRef .tc main_v2) : S64.Idx → EReal) = fun i => tbl W (i 0) 0 := (meanOps1_keep (V3 W) (by decide)).trans e0
  have f1 : (V4 W (Proc.devRef .tc main_v4) : S64.Idx → EReal) = fun i => tbl W (i 0) 1 := (meanOps1_keep (V3 W) (by decide)).trans e1
  have f2 : (V4 W (Proc.devRef .tc main_v6) : S64.Idx → EReal) = fun i => tbl W (i 0) 2 := (meanOps1_keep (V3 W) (by decide)).trans e2
  have f3 : (V4 W (Proc.devRef .tc main_v8) : S64.Idx → EReal) = fun i => tbl W (i 0) 3 := (meanOps1_keep (V3 W) (by decide)).trans e3
  have f6 : (V4 W (Proc.devRef .tc main_v14) : S64.Idx → EReal) = fun i => tbl W (i 0) 6 := (meanOps1_keep (V3 W) (by decide)).trans e6
  have f7 : (V4 W (Proc.devRef .tc main_v16) : S64.Idx → EReal) = fun i => tbl W (i 0) 7 := (meanOps1_keep (V3 W) (by decide)).trans e7
  -- the third ratio
  have r3 : (V5 W (Proc.devRef .tc main_v97) : S64.Idx → EReal) = fun i => PitSiSdr.siSdr (tbl W (i 0) 1) (tbl W (i 0) 6) (tbl W (i 0) 2) :=
    sdr3 (V4 W) (fun b => tbl W b 1) (fun b => tbl W b 6) (fun b => tbl W b 2) f1 f6 f2
  have m1' : (V5 W (Proc.devRef .tc main_v71) : S64.Idx → EReal) = fun i => (PitSiSdr.siSdr (tbl W (i 0) 0) (tbl W (i 0) 4) (tbl W (i 0) 2) + PitSiSdr.siSdr (tbl W (i 0) 1) (tbl W (i 0) 5) (tbl W (i 0) 3)) * PitSiSdr.half := (sdrOps3_keep (V4 W) (by decide)).trans m1
  have g0 : (V5 W (Proc.devRef .tc main_v2) : S64.Idx → EReal) = fun i => tbl W (i 0) 0 := (sdrOps3_keep (V4 W) (by decide)).trans f0
  have g3 : (V5 W (Proc.devRef .tc main_v8) : S64.Idx → EReal) = fun i => tbl W (i 0) 3 := (sdrOps3_keep (V4 W) (by decide)).trans f3
  have g7 : (V5 W (Proc.devRef .tc main_v16) : S64.Idx → EReal) = fun i => tbl W (i 0) 7 := (sdrOps3_keep (V4 W) (by decide)).trans f7
  -- the fourth ratio
  have r4 : (V6 W (Proc.devRef .tc main_v123) : S64.Idx → EReal) = fun i => PitSiSdr.siSdr (tbl W (i 0) 0) (tbl W (i 0) 7) (tbl W (i 0) 3) :=
    sdr4 (V5 W) (fun b => tbl W b 0) (fun b => tbl W b 7) (fun b => tbl W b 3) g0 g7 g3
  have m1'' : (V6 W (Proc.devRef .tc main_v71) : S64.Idx → EReal) = fun i => (PitSiSdr.siSdr (tbl W (i 0) 0) (tbl W (i 0) 4) (tbl W (i 0) 2) + PitSiSdr.siSdr (tbl W (i 0) 1) (tbl W (i 0) 5) (tbl W (i 0) 3)) * PitSiSdr.half := (sdrOps4_keep (V5 W) (by decide)).trans m1'
  have r3' : (V6 W (Proc.devRef .tc main_v97) : S64.Idx → EReal) = fun i => PitSiSdr.siSdr (tbl W (i 0) 1) (tbl W (i 0) 6) (tbl W (i 0) 2) := (sdrOps4_keep (V5 W) (by decide)).trans r3
  -- the second mean and the maximum: the row's score
  have sc : (V7 W (Proc.devRef .tc main_v127) : S64.Idx → EReal) = fun i => PitSiSdr.score (tbl W (i 0)) :=
    mean2 (V6 W) (fun b => (PitSiSdr.siSdr (tbl W b 0) (tbl W b 4) (tbl W b 2) + PitSiSdr.siSdr (tbl W b 1) (tbl W b 5) (tbl W b 3)) * PitSiSdr.half) (fun b => PitSiSdr.siSdr (tbl W b 1) (tbl W b 6) (tbl W b 2)) (fun b => PitSiSdr.siSdr (tbl W b 0) (tbl W b 7) (tbl W b 3)) m1'' r3' r4
  -- the sum over the rows, the negation and the division by 64
  exact last (V7 W) (fun b => PitSiSdr.score (tbl W b)) sc

end Cert.KernelIdeal.Tail

end
-- ==== Proof.IdealFrame.KernelValue.lean ====
/-
  The summing kernel's program read as a value, at the extended reals.

  The run ends with the result array at the 64 × 8 table of the specification's row sums (each row block's four
  steps add up to the row's sums), the later lines then compute the loss from that table, and the arguments are
  unchanged. So every execution ends with the scalar result at the specification's loss of the three arguments.
-/
import proofs.«171039_j65670049956214_2_alg».proof.Proof.IdealFrame.Table
import proofs.«171039_j65670049956214_2_alg».proof.Proof.KernelTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (mI : (ℓ : Loc nD τ sig) → Buf (Elt Ideal) ℓ)

/-- What the later lines leave in the scalar result: the loss of the three arrays as the grid found them. -/
theorem tail_value (c : Dev nD) :
    (Pipeline.afterTail₀ cfgs (dats (F := Ideal) mI) 0 (V0 mI) [tailOps] c main_v130 : S_.Idx → EReal)
      = fun _ => PitSiSdr.loss (arrP mI c) (arrT1 mI c) (arrT2 mI c) := by
  unfold Pipeline.afterTail₀
  simp only [List.flatten_cons, List.flatten_nil, List.append_nil]
  rw [tailOps_eq]
  refine (Cert.KernelIdeal.Tail.tail_eq _).trans ?_
  funext _
  unfold PitSiSdr.loss
  congr 1
  funext b k
  have hW := Pipeline.withArrays_arr (τ := τ) spec0 launch0.win.arr_inj c (V0 mI c) (fun w => (dats (F := Ideal) mI 0 c).arrAt w cfg0.N) 3
  have hT := table_eq mI c
  exact (congrFun (hW.trans hT) (ix2 b k))

/-- Every execution of the program ends with the scalar result at the loss of the arguments, which are unchanged. -/
theorem kernel_run (ρ : Dev nD → PrngReg) :
    θ_run defs (onTc (τ := τ) (main (F := Ideal))) ⟨mI, fun _ => 0, ρ⟩ (fun r => ∀ c : Dev nD,
      r.2.mem ((c.tc : Thread nD τ).loc main_v130)
        = (fun _ => PitSiSdr.loss (mI ((c.tc : Thread nD τ).loc main_arg0)) (mI ((c.tc : Thread nD τ).loc main_arg1)) (mI ((c.tc : Thread nD τ).loc main_arg2)))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)) :=
  (θ_run defs _ _).mono (fun _ h c =>
    ⟨((h c).2 main_v130 (by decide)).trans (tail_value mI c),
     ((h c).1 0).trans ((((dats (F := Ideal) mI) 0 c).arrAt_in 0 rfl _).trans ((A_eq mI c 0).trans (V_main_arg0 mI c))),
     ((h c).1 1).trans ((((dats (F := Ideal) mI) 0 c).arrAt_in 1 rfl _).trans ((A_eq mI c 1).trans (V_main_arg1 mI c))),
     ((h c).1 2).trans ((((dats (F := Ideal) mI) 0 c).arrAt_in 2 rfl _).trans ((A_eq mI c 2).trans (V_main_arg2 mI c)))⟩) (run_main mI ρ)

end Cert.KernelIdeal.Hand

end
-- ==== Proof.LibERealSum.lean ====
/-
  The embedding of the reals into the extended reals commutes with finite sums.

  It commutes with the sum of two reals, and the empty sum is `0` on both sides; a finite sum is built from those.
  With it a sum of extended reals whose terms are all real can be computed in `ℝ`, where multiplication distributes.
-/
import Idealize.ShloMosaic.PureOps.Ideal

namespace Cert.LibERealSum

/-- `((∑ i ∈ s, f i : ℝ) : EReal) = ∑ i ∈ s, (f i : EReal)`, by induction on the finite set. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibERealSum
-- ==== Proof.RefAlg.lean ====
/-
  The scale-invariant ratio computed from the signals themselves is the ratio computed from three sums.

  For an estimate `p` and a target `t` (signals over a finite index set) let `pt = Σ p·t`, `tt = Σ t·t`, `pp = Σ p·p`
  and `α = (pt + ε)/(tt + ε)`. The direct computation takes the energy of the scaled target, `Σ (α·t)²`, and of the
  residual, `Σ (p − α·t)²`; expanding the squares, these are `α²·tt` and `pp − 2·α·pt + α²·tt`, and the second, a sum of
  squares, is not negative, so clamping it at zero changes nothing. Distributing `α` over a sum is a law of the reals
  that fails at the infinities, so the signals are taken real: every sum is then the image of a real sum, and
  `tt + ε > 0` makes the quotient the image of the real quotient.

  Also here: the mean of two ratios as the reference spells it, `(0 + (x + y))/2`, is `(x + y)·½` on every extended real.
-/
import proofs.«171039_j65670049956214_2_alg».proof.Proof.Spec
import proofs.«171039_j65670049956214_2_alg».proof.Proof.LibERealSum
import Idealize.ShloMosaic.PureOps.Ideal.Laws

noncomputable section

open scoped BigOperators

namespace PitSiSdr

open Idealize.ShloMosaic

/-! ## The constants whose values the laws need -/

/-- The zero word is `0`. -/
theorem zero_eq : zero = 0 := Ideal.ofBits_zero_f32

/-- The word of `2` is the real `2`. -/
theorem two_eq : two = ((2 : ℝ) : EReal) := by
  simp [Ideal.ofBits, Ideal.ieee, -EReal.coe_mul]; norm_num

/-- The word of `1/2` is the real `1/2`. -/
theorem half_eq : half = ((1 / 2 : ℝ) : EReal) := by
  simp [Ideal.ofBits, Ideal.ieee, -EReal.coe_mul]; norm_num

/-- The machine epsilon is a positive real. -/
theorem eps_pos_real : ∃ ε : ℝ, 0 < ε ∧ eps = (ε : EReal) := by
  simp [Ideal.ofBits, Ideal.ieee, -EReal.coe_mul]

/-! ## The direct computation -/

/-- The ratio in decibels computed from the signals: the scale, the scaled target's energy, the residual's energy. -/
def refSiSdr {ι : Type*} [Fintype ι] (p t : ι → EReal) : EReal :=
  ten * (Ideal.log (Ideal.div
      ((zero + ∑ l, (Ideal.div ((zero + ∑ k, p k * t k) + eps) ((zero + ∑ k, t k * t k) + eps) * t l)
                  * (Ideal.div ((zero + ∑ k, p k * t k) + eps) ((zero + ∑ k, t k * t k) + eps) * t l)) + eps)
      ((zero + ∑ l, (p l - Ideal.div ((zero + ∑ k, p k * t k) + eps) ((zero + ∑ k, t k * t k) + eps) * t l)
                  * (p l - Ideal.div ((zero + ∑ k, p k * t k) + eps) ((zero + ∑ k, t k * t k) + eps) * t l)) + eps))
    * log10e)

section Real
variable {ι : Type*} [Fintype ι]

/-- The scaled target's energy: `Σ (α·t)² = α²·Σ t²`. -/
theorem sum_scaled_sq (a : ℝ) (t : ι → ℝ) : ∑ l, (a * t l) * (a * t l) = a * a * ∑ l, t l * t l := by
  rw [Finset.mul_sum]
  exact Finset.sum_congr rfl fun l _ => by ring

/-- The residual's energy: `Σ (p − α·t)² = Σ p² − 2·α·Σ p·t + α²·Σ t²`. -/
theorem sum_resid_sq (a : ℝ) (p t : ι → ℝ) :
    ∑ l, (p l - a * t l) * (p l - a * t l)
      = (∑ l, p l * p l) - 2 * a * (∑ l, p l * t l) + a * a * ∑ l, t l * t l := by
  rw [Finset.mul_sum, Finset.mul_sum, ← Finset.sum_sub_distrib, ← Finset.sum_add_distrib]
  exact Finset.sum_congr rfl fun l _ => by ring

/-- For real signals the direct computation is the computation from the three sums. -/
theorem refSiSdr_eq (p t : ι → ℝ) :
    refSiSdr (fun l => (p l : EReal)) (fun l => (t l : EReal))
      = siSdr (∑ l, (p l : EReal) * (p l : EReal)) (∑ l, (p l : EReal) * (t l : EReal))
          (∑ l, (t l : EReal) * (t l : EReal)) := by
  obtain ⟨ε, hε, he⟩ := eps_pos_real
  -- the three sums are images of real sums
  have hpp : ∑ l, (p l : EReal) * (p l : EReal) = ((∑ l, p l * p l : ℝ) : EReal) := by
    rw [Cert.LibERealSum.coe_sum]; exact Finset.sum_congr rfl fun l _ => (EReal.coe_mul _ _).symm
  have hpt : ∑ l, (p l : EReal) * (t l : EReal) = ((∑ l, p l * t l : ℝ) : EReal) := by
    rw [Cert.LibERealSum.coe_sum]; exact Finset.sum_congr rfl fun l _ => (EReal.coe_mul _ _).symm
  have htt : ∑ l, (t l : EReal) * (t l : EReal) = ((∑ l, t l * t l : ℝ) : EReal) := by
    rw [Cert.LibERealSum.coe_sum]; exact Finset.sum_congr rfl fun l _ => (EReal.coe_mul _ _).symm
  have htt0 : 0 ≤ ∑ l, t l * t l := Finset.sum_nonneg fun l _ => mul_self_nonneg _
  have hden : (∑ l, t l * t l) + ε ≠ 0 := by positivity
  -- the scale is the image of the real quotient
  have hα : Ideal.div ((zero + ∑ k, (p k : EReal) * (t k : EReal)) + eps) ((zero + ∑ k, (t k : EReal) * (t k : EReal)) + eps)
      = ((((∑ l, p l * t l) + ε) / ((∑ l, t l * t l) + ε) : ℝ) : EReal) := by
    rw [zero_eq, zero_add, zero_add, hpt, htt, he, ← EReal.coe_add, ← EReal.coe_add, Ideal.div_coe hden,
      ← EReal.coe_mul, mul_one_div]
  have hα' : Ideal.div ((∑ k, (p k : EReal) * (t k : EReal)) + eps) ((∑ k, (t k : EReal) * (t k : EReal)) + eps)
      = ((((∑ l, p l * t l) + ε) / ((∑ l, t l * t l) + ε) : ℝ) : EReal) := by
    rw [← hα, zero_eq, zero_add, zero_add]
  unfold refSiSdr siSdr
  rw [hα, hα']
  generalize ((∑ l, p l * t l) + ε) / ((∑ l, t l * t l) + ε) = a
  -- the two energies
  have hS : ∑ l, ((a : EReal) * (t l : EReal)) * ((a : EReal) * (t l : EReal))
      = ((a * a * ∑ l, t l * t l : ℝ) : EReal) := by
    rw [← sum_scaled_sq, Cert.LibERealSum.coe_sum]
    exact Finset.sum_congr rfl fun l _ => by rw [EReal.coe_mul, EReal.coe_mul]
  have hN : ∑ l, ((p l : EReal) - (a : EReal) * (t l : EReal)) * ((p l : EReal) - (a : EReal) * (t l : EReal))
      = (((∑ l, p l * p l) - 2 * a * (∑ l, p l * t l) + a * a * ∑ l, t l * t l : ℝ) : EReal) := by
    rw [← sum_resid_sq, Cert.LibERealSum.coe_sum]
    exact Finset.sum_congr rfl fun l _ => by rw [EReal.coe_mul, EReal.coe_sub, EReal.coe_mul]
  have hN0 : 0 ≤ (∑ l, p l * p l) - 2 * a * (∑ l, p l * t l) + a * a * ∑ l, t l * t l := by
    rw [← sum_resid_sq]; exact Finset.sum_nonneg fun l _ => mul_self_nonneg _
  rw [hS, hN, hpp, hpt, htt, zero_eq, zero_add, zero_add, two_eq]
  have hmax : max (((∑ l, p l * p l : ℝ) : EReal) - ((2 : ℝ) : EReal) * (a : EReal) * ((∑ l, p l * t l : ℝ) : EReal)
        + (a : EReal) * (a : EReal) * ((∑ l, t l * t l : ℝ) : EReal)) 0
      = (((∑ l, p l * p l) - 2 * a * (∑ l, p l * t l) + a * a * ∑ l, t l * t l : ℝ) : EReal) := by
    rw [← EReal.coe_mul, ← EReal.coe_mul, ← EReal.coe_mul, ← EReal.coe_mul, ← EReal.coe_sub, ← EReal.coe_add]
    exact max_eq_left (by exact_mod_cast hN0)
  rw [hmax, ← EReal.coe_mul, ← EReal.coe_mul]

end Real

/-! ## The mean of two ratios -/

/-- `(0 + (x + y))/2 = (x + y)·½`: dividing by a nonzero real is multiplying by its reciprocal, on every extended real. -/
theorem mean_two (x y : EReal) : Ideal.div (zero + (x + y)) two = (x + y) * half := by
  rw [zero_eq, zero_add, two_eq, half_eq, Ideal.div_coe (by norm_num)]

end PitSiSdr

end
-- ==== Proof.RefLayout.lean ====
/-
  The reference's layout stages and its last stage, read at coordinates.

  The reference stacks the two targets along a new leading axis (speaker `s`, row `b`, sample `l`): speaker 0 of the
  stack is the first target and speaker 1 the second. For the second assignment it reverses the estimates along the
  speaker axis: speaker 0 of the reversed array is estimate 1 and speaker 1 is estimate 0. Its last stage negates the
  sum over the 64 rows of the better of the two assignments' means and divides by the number of rows.
-/
import proofs.«171039_j65670049956214_2_alg».proof.Proof.Gen.ReferenceIdeal.Read
import proofs.«171039_j65670049956214_2_alg».proof.Proof.RefAlg
import proofs.«171039_j65670049956214_2_alg».proof.Proof.LibBroadcastRead

noncomputable section

open scoped BigOperators

namespace Cert.ReferenceIdeal.RefValue

open Cert.ReferenceIdeal Cert.ReferenceIdeal.Gen Cert.ReferenceIdeal.Read Idealize.ShloMosaic Idealize.ShloMosaic.ValueIdx PitSiSdr

/-- The contents of the stacked estimates and of one target, as arrays of extended reals. -/
abbrev CEst : Type := (⟨S2x64x256000, .f32⟩ : BufTy).Contents (Elt Ideal)
abbrev CTgt : Type := (⟨S64x256000, .f32⟩ : BufTy).Contents (Elt Ideal)

/-- Two indices given by cases on the axis agree when they agree on every axis. -/
local macro "idx_cases2" : tactic =>
  `(tactic| (funext a; match a with | ⟨0, _⟩ => rfl | ⟨1, _⟩ => rfl))
local macro "idx_cases3" : tactic =>
  `(tactic| (funext a; match a with | ⟨0, _⟩ => rfl | ⟨1, _⟩ => rfl | ⟨2, _⟩ => rfl))

/-! ## The stacked targets and the swapped estimates -/

/-- Speaker 0 of the stacked targets is the first target. -/
theorem v2_at0 (T1 T2 : CTgt) (b : Fin 64) (l : Fin 256000) :
    val_main_v2 (F := Ideal) T1 T2 (ix3 (0 : Fin 2) b l) = T1 (ix2 b l) := by
  unfold val_main_v2
  refine (concatenate_pair_apply_left (t := S2x64x256000) (s₁ := S1x64x256000) (s₂ := S1x64x256000) (0 : Fin 3) _ _
    concatenates_S1x64x256000_S1x64x256000_S2x64x256000_d0
    (ix3 (0 : Fin 2) b l) rfl (ix3 (0 : Fin 1) b l) fun a => ?_).trans ?_
  · match a with | ⟨0, _⟩ => rfl | ⟨1, _⟩ => rfl | ⟨2, _⟩ => rfl
  · rw [val_main_v0_apply]
    exact congrArg T1 (by idx_cases2)

/-- Speaker 1 of the stacked targets is the second target. -/
theorem v2_at1 (T1 T2 : CTgt) (b : Fin 64) (l : Fin 256000) :
    val_main_v2 (F := Ideal) T1 T2 (ix3 (1 : Fin 2) b l) = T2 (ix2 b l) := by
  unfold val_main_v2
  refine (concatenate_pair_apply_right (t := S2x64x256000) (s₁ := S1x64x256000) (s₂ := S1x64x256000) (0 : Fin 3) _ _
    concatenates_S1x64x256000_S1x64x256000_S2x64x256000_d0
    (ix3 (1 : Fin 2) b l) rfl rfl (ix3 (0 : Fin 1) b l) (fun a hne => ?_) rfl).trans ?_
  · match a, hne with
    | ⟨0, _⟩, hne => exact absurd rfl hne
    | ⟨1, _⟩, _ => rfl
    | ⟨2, _⟩, _ => rfl
  · rw [val_main_v1_apply]
    exact congrArg T2 (by idx_cases2)

/-- The reversed estimates at speaker 0 are the estimates at speaker 1 … -/
theorem v3_at0 (P : CEst) (b : Fin 64) (l : Fin 256000) :
    val_main_v3 (F := Ideal) P (ix3 (0 : Fin 2) b l) = P (ix3 (1 : Fin 2) b l) := by
  unfold val_main_v3 Host.reverse
  exact congrArg P (by idx_cases3)

/-- … and at speaker 1 the estimates at speaker 0. -/
theorem v3_at1 (P : CEst) (b : Fin 64) (l : Fin 256000) :
    val_main_v3 (F := Ideal) P (ix3 (1 : Fin 2) b l) = P (ix3 (0 : Fin 2) b l) := by
  unfold val_main_v3 Host.reverse
  exact congrArg P (by idx_cases3)

/-! ## The result -/

/-- The result: minus the sum over the rows of the better assignment's mean, divided by the number of rows. -/
theorem v69_at (P : CEst) (T1 T2 : CTgt) (i : S_.Idx) : val_main_v69 (F := Ideal) P T1 T2 i
    = Ideal.div (-(zero + ∑ b : Fin 64, max (val_main_v34 (F := Ideal) P T1 T2 (ix1 b))
        (val_main_v65 (F := Ideal) P T1 T2 (ix1 b)))) sixtyFour := by
  rw [val_main_v69_apply, val_main_v68_apply, val_main_v67_apply, Cert.LibBroadcastRead.sum_vector]
  rfl

end Cert.ReferenceIdeal.RefValue

end
-- ==== Proof.RefDirect.lean ====
/-
  The reference's stages for the first assignment, read at coordinates.

  Per speaker `s` and row `b` the reference computes the scale-invariant ratio of estimate `s` against target `s` directly from the two
  signals: the correlation and the target's energy by sums over the samples, the scale `α` kept in a column of width
  one and broadcast back along the samples, the energies of `α·t` and of `p − α·t` by two more sums, and the logarithm
  of their quotient; then the mean over the two speakers. Each stage is read here at an index given by its coordinates,
  so that a row's ratio is the direct computation `refSiSdr` applied to the row's estimate and target.
-/
import proofs.«171039_j65670049956214_2_alg».proof.Proof.RefLayout

noncomputable section

open scoped BigOperators

namespace Cert.ReferenceIdeal.RefValue

open Cert.ReferenceIdeal Cert.ReferenceIdeal.Gen Cert.ReferenceIdeal.Read Idealize.ShloMosaic Idealize.ShloMosaic.ValueIdx PitSiSdr

/-- Two indices given by cases on the axis agree when they agree on every axis. -/
local macro "idx_cases2" : tactic =>
  `(tactic| (funext a; match a with | ⟨0, _⟩ => rfl | ⟨1, _⟩ => rfl))
local macro "idx_cases3" : tactic =>
  `(tactic| (funext a; match a with | ⟨0, _⟩ => rfl | ⟨1, _⟩ => rfl | ⟨2, _⟩ => rfl))

/-! ## The first assignment: estimate `s` against target `s` -/

section Direct
variable (P : CEst) (T1 T2 : CTgt) (s : Fin 2) (b : Fin 64)

/-- The correlation `0 + Σ p·t` of row `(s, b)`. -/
theorem v5_at : val_main_v5 (F := Ideal) P T1 T2 (ix2 s b)
    = zero + ∑ l : Fin 256000, P (ix3 s b l) * val_main_v2 (F := Ideal) T1 T2 (ix3 s b l) := by
  rw [val_main_v5_apply]
  refine congrArg (_ + ·) (Finset.sum_congr rfl fun k _ => ?_)
  rw [show idx_main_v5 (ix2 s b) k = ix3 s b k from by idx_cases3]
  rfl

/-- The target's energy `0 + Σ t·t` of row `(s, b)`. -/
theorem v10_at : val_main_v10 (F := Ideal) T1 T2 (ix2 s b)
    = zero + ∑ l : Fin 256000, val_main_v2 (F := Ideal) T1 T2 (ix3 s b l) * val_main_v2 (F := Ideal) T1 T2 (ix3 s b l) := by
  rw [val_main_v10_apply]
  refine congrArg (_ + ·) (Finset.sum_congr rfl fun k _ => ?_)
  rw [show idx_main_v10 (ix2 s b) k = ix3 s b k from by idx_cases3]
  rfl

/-- The scale `α = (pt + ε)/(tt + ε)`, kept in a column of width one. -/
theorem v14_at : val_main_v14 (F := Ideal) P T1 T2 (ix3 s b (0 : Fin 1))
    = Ideal.div (val_main_v5 (F := Ideal) P T1 T2 (ix2 s b) + eps) (val_main_v10 (F := Ideal) T1 T2 (ix2 s b) + eps) := by
  rw [val_main_v14_apply, val_main_v8_apply, val_main_v13_apply, val_main_v6_apply, val_main_v11_apply,
    val_main_v7_apply, val_main_v12_apply,
    show idx_main_v6 (ix3 s b (0 : Fin 1)) = ix2 s b from by idx_cases2,
    show idx_main_v11 (ix3 s b (0 : Fin 1)) = ix2 s b from by idx_cases2]
  rfl

/-- The scaled target `α·t` at sample `l`. -/
theorem v16_at (l : Fin 256000) : val_main_v16 (F := Ideal) P T1 T2 (ix3 s b l)
    = val_main_v14 (F := Ideal) P T1 T2 (ix3 s b (0 : Fin 1)) * val_main_v2 (F := Ideal) T1 T2 (ix3 s b l) := by
  rw [val_main_v16_apply, val_main_v15_apply,
    show idx_main_v15 (ix3 s b l) = ix3 s b (0 : Fin 1) from by idx_cases3]
  rfl

/-- The scaled target's energy `0 + Σ (α·t)²`. -/
theorem v19_at : val_main_v19 (F := Ideal) P T1 T2 (ix2 s b)
    = zero + ∑ l : Fin 256000, val_main_v16 (F := Ideal) P T1 T2 (ix3 s b l) * val_main_v16 (F := Ideal) P T1 T2 (ix3 s b l) := by
  rw [val_main_v19_apply]
  refine congrArg (_ + ·) (Finset.sum_congr rfl fun k _ => ?_)
  rw [show idx_main_v19 (ix2 s b) k = ix3 s b k from by idx_cases3]
  rfl

/-- The residual's energy `0 + Σ (p − α·t)²`. -/
theorem v23_at : val_main_v23 (F := Ideal) P T1 T2 (ix2 s b)
    = zero + ∑ l : Fin 256000, (P (ix3 s b l) - val_main_v16 (F := Ideal) P T1 T2 (ix3 s b l))
        * (P (ix3 s b l) - val_main_v16 (F := Ideal) P T1 T2 (ix3 s b l)) := by
  rw [val_main_v23_apply]
  refine congrArg (_ + ·) (Finset.sum_congr rfl fun k _ => ?_)
  rw [show idx_main_v23 (ix2 s b) k = ix3 s b k from by idx_cases3]
  rfl

/-- The ratio in decibels from the two energies. -/
theorem v31_at : val_main_v31 (F := Ideal) P T1 T2 (ix2 s b)
    = ten * (Ideal.log (Ideal.div (val_main_v19 (F := Ideal) P T1 T2 (ix2 s b) + eps)
        (val_main_v23 (F := Ideal) P T1 T2 (ix2 s b) + eps)) * log10e) := by
  rw [val_main_v31_apply, val_main_v30_apply, val_main_v29_apply, val_main_v28_apply, val_main_v27_apply,
    val_main_v26_apply, val_main_v21_apply, val_main_v25_apply, val_main_v20_apply, val_main_v24_apply]
  simp only [val_main_cst_apply, val_main_cst_4_apply, val_main_cst_5_apply, Ideal.ofBits_def, Ideal.mulf_def, Ideal.addf_def,
    Ideal.hostDivf_def, Ideal.hostUnary_log_def]

/-- Row `(s, b)`'s ratio is the direct computation on the row's two signals. -/
theorem v31_eq : val_main_v31 (F := Ideal) P T1 T2 (ix2 s b)
    = refSiSdr (fun l : Fin 256000 => P (ix3 s b l)) (fun l : Fin 256000 => val_main_v2 (F := Ideal) T1 T2 (ix3 s b l)) := by
  rw [v31_at, v19_at, v23_at]
  simp only [v16_at, v14_at, v5_at, v10_at]
  rfl

/-- The mean over the two speakers, as the reference spells it: `(0 + (x₀ + x₁))/2`. -/
theorem v34_at : val_main_v34 (F := Ideal) P T1 T2 (ix1 b)
    = Ideal.div (zero + (val_main_v31 (F := Ideal) P T1 T2 (ix2 (0 : Fin 2) b)
        + val_main_v31 (F := Ideal) P T1 T2 (ix2 (1 : Fin 2) b))) two := by
  rw [val_main_v34_apply, val_main_v33_apply, val_main_v32_apply, Fin.sum_univ_two,
    show idx_main_v32 (ix1 b) (0 : Fin 2) = ix2 (0 : Fin 2) b from by idx_cases2,
    show idx_main_v32 (ix1 b) (1 : Fin 2) = ix2 (1 : Fin 2) b from by idx_cases2]
  rfl

end Direct

end Cert.ReferenceIdeal.RefValue

end
-- ==== Proof.RefSwapped.lean ====
/-
  The reference's stages for the second assignment, read at coordinates.

  Per speaker `s` and row `b` the reference computes the scale-invariant ratio of the swapped estimate `1 − s` against target `s` directly from the two
  signals: the correlation and the target's energy by sums over the samples, the scale `α` kept in a column of width
  one and broadcast back along the samples, the energies of `α·t` and of `p − α·t` by two more sums, and the logarithm
  of their quotient; then the mean over the two speakers. Each stage is read here at an index given by its coordinates,
  so that a row's ratio is the direct computation `refSiSdr` applied to the row's estimate and target.
-/
import proofs.«171039_j65670049956214_2_alg».proof.Proof.RefLayout

noncomputable section

open scoped BigOperators

namespace Cert.ReferenceIdeal.RefValue

open Cert.ReferenceIdeal Cert.ReferenceIdeal.Gen Cert.ReferenceIdeal.Read Idealize.ShloMosaic Idealize.ShloMosaic.ValueIdx PitSiSdr

/-- Two indices given by cases on the axis agree when they agree on every axis. -/
local macro "idx_cases2" : tactic =>
  `(tactic| (funext a; match a with | ⟨0, _⟩ => rfl | ⟨1, _⟩ => rfl))
local macro "idx_cases3" : tactic =>
  `(tactic| (funext a; match a with | ⟨0, _⟩ => rfl | ⟨1, _⟩ => rfl | ⟨2, _⟩ => rfl))

/-! ## The second assignment: the swapped estimates against the targets -/

section Swapped
variable (P : CEst) (T1 T2 : CTgt) (s : Fin 2) (b : Fin 64)

/-- The correlation `0 + Σ p·t` of row `(s, b)`. -/
theorem v36_at : val_main_v36 (F := Ideal) P T1 T2 (ix2 s b)
    = zero + ∑ l : Fin 256000, val_main_v3 (F := Ideal) P (ix3 s b l) * val_main_v2 (F := Ideal) T1 T2 (ix3 s b l) := by
  rw [val_main_v36_apply]
  refine congrArg (_ + ·) (Finset.sum_congr rfl fun k _ => ?_)
  rw [show idx_main_v36 (ix2 s b) k = ix3 s b k from by idx_cases3]
  rfl

/-- The target's energy `0 + Σ t·t` of row `(s, b)`. -/
theorem v41_at : val_main_v41 (F := Ideal) T1 T2 (ix2 s b)
    = zero + ∑ l : Fin 256000, val_main_v2 (F := Ideal) T1 T2 (ix3 s b l) * val_main_v2 (F := Ideal) T1 T2 (ix3 s b l) := by
  rw [val_main_v41_apply]
  refine congrArg (_ + ·) (Finset.sum_congr rfl fun k _ => ?_)
  rw [show idx_main_v41 (ix2 s b) k = ix3 s b k from by idx_cases3]
  rfl

/-- The scale `α = (pt + ε)/(tt + ε)`, kept in a column of width one. -/
theorem v45_at : val_main_v45 (F := Ideal) P T1 T2 (ix3 s b (0 : Fin 1))
    = Ideal.div (val_main_v36 (F := Ideal) P T1 T2 (ix2 s b) + eps) (val_main_v41 (F := Ideal) T1 T2 (ix2 s b) + eps) := by
  rw [val_main_v45_apply, val_main_v39_apply, val_main_v44_apply, val_main_v37_apply, val_main_v42_apply,
    val_main_v38_apply, val_main_v43_apply,
    show idx_main_v37 (ix3 s b (0 : Fin 1)) = ix2 s b from by idx_cases2,
    show idx_main_v42 (ix3 s b (0 : Fin 1)) = ix2 s b from by idx_cases2]
  rfl

/-- The scaled target `α·t` at sample `l`. -/
theorem v47_at (l : Fin 256000) : val_main_v47 (F := Ideal) P T1 T2 (ix3 s b l)
    = val_main_v45 (F := Ideal) P T1 T2 (ix3 s b (0 : Fin 1)) * val_main_v2 (F := Ideal) T1 T2 (ix3 s b l) := by
  rw [val_main_v47_apply, val_main_v46_apply,
    show idx_main_v46 (ix3 s b l) = ix3 s b (0 : Fin 1) from by idx_cases3]
  rfl

/-- The scaled target's energy `0 + Σ (α·t)²`. -/
theorem v50_at : val_main_v50 (F := Ideal) P T1 T2 (ix2 s b)
    = zero + ∑ l : Fin 256000, val_main_v47 (F := Ideal) P T1 T2 (ix3 s b l) * val_main_v47 (F := Ideal) P T1 T2 (ix3 s b l) := by
  rw [val_main_v50_apply]
  refine congrArg (_ + ·) (Finset.sum_congr rfl fun k _ => ?_)
  rw [show idx_main_v50 (ix2 s b) k = ix3 s b k from by idx_cases3]
  rfl

/-- The residual's energy `0 + Σ (p − α·t)²`. -/
theorem v54_at : val_main_v54 (F := Ideal) P T1 T2 (ix2 s b)
    = zero + ∑ l : Fin 256000, (val_main_v3 (F := Ideal) P (ix3 s b l) - val_main_v47 (F := Ideal) P T1 T2 (ix3 s b l))
        * (val_main_v3 (F := Ideal) P (ix3 s b l) - val_main_v47 (F := Ideal) P T1 T2 (ix3 s b l)) := by
  rw [val_main_v54_apply]
  refine congrArg (_ + ·) (Finset.sum_congr rfl fun k _ => ?_)
  rw [show idx_main_v54 (ix2 s b) k = ix3 s b k from by idx_cases3]
  rfl

/-- The ratio in decibels from the two energies. -/
theorem v62_at : val_main_v62 (F := Ideal) P T1 T2 (ix2 s b)
    = ten * (Ideal.log (Ideal.div (val_main_v50 (F := Ideal) P T1 T2 (ix2 s b) + eps)
        (val_main_v54 (F := Ideal) P T1 T2 (ix2 s b) + eps)) * log10e) := by
  rw [val_main_v62_apply, val_main_v61_apply, val_main_v60_apply, val_main_v59_apply, val_main_v58_apply,
    val_main_v57_apply, val_main_v52_apply, val_main_v56_apply, val_main_v51_apply, val_main_v55_apply]
  simp only [val_main_cst_apply, val_main_cst_12_apply, val_main_cst_13_apply, Ideal.ofBits_def, Ideal.mulf_def, Ideal.addf_def,
    Ideal.hostDivf_def, Ideal.hostUnary_log_def]

/-- Row `(s, b)`'s ratio is the direct computation on the row's two signals. -/
theorem v62_eq : val_main_v62 (F := Ideal) P T1 T2 (ix2 s b)
    = refSiSdr (fun l : Fin 256000 => val_main_v3 (F := Ideal) P (ix3 s b l)) (fun l : Fin 256000 => val_main_v2 (F := Ideal) T1 T2 (ix3 s b l)) := by
  rw [v62_at, v50_at, v54_at]
  simp only [v47_at, v45_at, v36_at, v41_at]
  rfl

/-- The mean over the two speakers, as the reference spells it: `(0 + (x₀ + x₁))/2`. -/
theorem v65_at : val_main_v65 (F := Ideal) P T1 T2 (ix1 b)
    = Ideal.div (zero + (val_main_v62 (F := Ideal) P T1 T2 (ix2 (0 : Fin 2) b)
        + val_main_v62 (F := Ideal) P T1 T2 (ix2 (1 : Fin 2) b))) two := by
  rw [val_main_v65_apply, val_main_v64_apply, val_main_v63_apply, Fin.sum_univ_two,
    show idx_main_v63 (ix1 b) (0 : Fin 2) = ix2 (0 : Fin 2) b from by idx_cases2,
    show idx_main_v63 (ix1 b) (1 : Fin 2) = ix2 (1 : Fin 2) b from by idx_cases2]
  rfl

end Swapped

end Cert.ReferenceIdeal.RefValue

end
-- ==== Proof.RefSide.lean ====
/-
  The reference computes the permutation-invariant SI-SDR loss of its arguments, when every entry is a real number.

  Row by row: the reference's two means are the direct computations on the row's four pairs of signals
  (estimate 0 with target 1, estimate 1 with target 2; and, swapped, estimate 1 with target 1, estimate 0 with
  target 2). For real signals each direct computation is the ratio computed from the pair's three sums, which are
  entries of the row's table of eight sums; and the mean `(0 + (x₀ + x₁))/2` is `(x₀ + x₁)·½`. So the better of
  the two means is the row's score, and minus the sum of the scores over the 64 rows, divided by 64, is the loss.
-/
import proofs.«171039_j65670049956214_2_alg».proof.Proof.RefDirect
import proofs.«171039_j65670049956214_2_alg».proof.Proof.RefSwapped

noncomputable section

open scoped BigOperators

namespace Cert.ReferenceIdeal.RefValue

open Cert.ReferenceIdeal Cert.ReferenceIdeal.Gen Cert.ReferenceIdeal.Read Idealize.ShloMosaic Idealize.ShloMosaic.ValueIdx PitSiSdr

/-- A row's score, with its eight sums written out. -/
theorem score_rowSum (P : CEst) (T1 T2 : CTgt) (b : Fin 64) :
    score (rowSum P T1 T2 b)
      = max ((siSdr (∑ l : Fin 256000, P (ix3 0 b l) * P (ix3 0 b l)) (∑ l : Fin 256000, P (ix3 0 b l) * T1 (ix2 b l))
                (∑ l : Fin 256000, T1 (ix2 b l) * T1 (ix2 b l))
              + siSdr (∑ l : Fin 256000, P (ix3 1 b l) * P (ix3 1 b l)) (∑ l : Fin 256000, P (ix3 1 b l) * T2 (ix2 b l))
                (∑ l : Fin 256000, T2 (ix2 b l) * T2 (ix2 b l))) * half)
            ((siSdr (∑ l : Fin 256000, P (ix3 1 b l) * P (ix3 1 b l)) (∑ l : Fin 256000, P (ix3 1 b l) * T1 (ix2 b l))
                (∑ l : Fin 256000, T1 (ix2 b l) * T1 (ix2 b l))
              + siSdr (∑ l : Fin 256000, P (ix3 0 b l) * P (ix3 0 b l)) (∑ l : Fin 256000, P (ix3 0 b l) * T2 (ix2 b l))
                (∑ l : Fin 256000, T2 (ix2 b l) * T2 (ix2 b l))) * half) := rfl

/-- The better of the reference's two means at row `b` is the row's score. -/
theorem row_score (p : SEst.Idx → ℝ) (t1 t2 : STgt.Idx → ℝ) (b : Fin 64) :
    max (val_main_v34 (F := Ideal) (fun i => (p i : EReal)) (fun i => (t1 i : EReal)) (fun i => (t2 i : EReal)) (ix1 b))
        (val_main_v65 (F := Ideal) (fun i => (p i : EReal)) (fun i => (t1 i : EReal)) (fun i => (t2 i : EReal)) (ix1 b))
      = score (rowSum (fun i => (p i : EReal)) (fun i => (t1 i : EReal)) (fun i => (t2 i : EReal)) b) := by
  rw [v34_at, v65_at, v31_eq, v31_eq, v62_eq, v62_eq, score_rowSum]
  simp only [v2_at0, v2_at1, v3_at0, v3_at1]
  rw [refSiSdr_eq (fun l : Fin 256000 => p (ix3 0 b l)) (fun l => t1 (ix2 b l)),
    refSiSdr_eq (fun l : Fin 256000 => p (ix3 1 b l)) (fun l => t2 (ix2 b l)),
    refSiSdr_eq (fun l : Fin 256000 => p (ix3 1 b l)) (fun l => t1 (ix2 b l)),
    refSiSdr_eq (fun l : Fin 256000 => p (ix3 0 b l)) (fun l => t2 (ix2 b l)),
    mean_two, mean_two]

/-- The reference's result is the loss of its arguments, when every entry is a real number. -/
theorem result_eq (P : CEst) (T1 T2 : CTgt)
    (hP : ∀ i, ∃ r : ℝ, P i = (r : EReal)) (hT1 : ∀ i, ∃ r : ℝ, T1 i = (r : EReal)) (hT2 : ∀ i, ∃ r : ℝ, T2 i = (r : EReal)) :
    val_main_v69 (F := Ideal) P T1 T2 = fun _ => PitSiSdr.loss P T1 T2 := by
  choose p hp using hP
  choose t1 ht1 using hT1
  choose t2 ht2 using hT2
  obtain rfl : P = fun i => (p i : EReal) := funext hp
  obtain rfl : T1 = fun i => (t1 i : EReal) := funext ht1
  obtain rfl : T2 = fun i => (t2 i : EReal) := funext ht2
  funext i
  rw [v69_at]
  unfold loss lossOfSums
  exact congrArg (fun x => Ideal.div (-(zero + x)) sixtyFour) (Finset.sum_congr rfl fun b _ => row_score p t1 t2 b)

end Cert.ReferenceIdeal.RefValue

end
-- ==== Proof.Finite.lean ====
/-
  The precondition decoded. The precondition says, for each of the three input arrays, that every element's absolute
  value is below +∞ (an elementwise comparison against the word of +∞, reduced by `and` over all axes), the three
  results joined by `and`. On the extended reals an element with |x| < ⊤ is neither ⊤ nor ⊥, so it is a real
  number: every element of every input is (the coercion of) a real.
-/
import proofs.«171039_j65670049956214_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

variable [Cert.Pre_finite_inputs.Facts]

/-- The rank-0 shape has one index. -/
instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value max x (-x) compares below the word of +∞ is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  rw [Ideal.hostAbsf_def, Ideal.absf_def, Ideal.cmpf_def, Ideal.ofBits_def, inf_word] at h
  induction x using EReal.rec with
  | bot => simp [Ideal.cmp] at h
  | coe r => exact ⟨r, rfl⟩
  | top => simp [Ideal.cmp] at h

/-- THE PRECONDITION DECODED: under `finite_inputs`, every element of each of the three inputs is a real number. -/
theorem real_of_pre (a0 : FVec Ideal S2x64x256000 .f32) (a1 a2 : FVec Ideal S64x256000 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h ValueIdx.ix0
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun i => ?_⟩
  · exact real_of_abs_lt_inf _ (Host.reduce_andi_all _ _ _ _ _ e0 i)
  · exact real_of_abs_lt_inf _ (Host.reduce_andi_all _ _ _ _ _ e1 i)
  · exact real_of_abs_lt_inf _ (Host.reduce_andi_all _ _ _ _ _ e2 i)

end Cert.Finite

end
-- ==== Proof.lean ====
/-
  The certificate of the summing kernel against the plain reference.

  Both programs compute the permutation-invariant scale-invariant signal-to-distortion loss of two estimated
  sources against two targets (`PitSiSdr.loss`, Proof/Spec.lean). The kernel gets there through eight sums per batch
  row, accumulated over a 4 × 4 grid of blocks into a 64 × 8 table, and a line of scalar arithmetic per row; the
  reference through the signals themselves: it scales each target by `α = (Σ p·t + ε)/(Σ t² + ε)` and sums the squares
  of `α·t` and of `p − α·t` sample by sample. Over the reals `Σ (α t)² = α² Σ t²` and
  `Σ (p − α t)² = Σ p² − 2 α Σ p·t + α² Σ t² ≥ 0`, so the two agree; that step distributes a product over a sum, which
  fails at infinities, so it uses the precondition that every input is finite. The kernel's side needs no such law:
  regrouping a sum of 256000 terms into four chunks, and adding to zero, hold for all extended reals.

  The three frames: the kernel's program — at the word level and at the extended reals — is one grid followed by host
  lines, run by the launch theorem for that shape from a body obligation proved case by case (first, middle, last
  step along the samples); the reference's is its run with the result dropped. The idealization rewrote nothing.
-/
import proofs.«171039_j65670049956214_2_alg».proof.Defs
import proofs.«171039_j65670049956214_2_alg».proof.Proof.Gen.Kernel
import proofs.«171039_j65670049956214_2_alg».proof.Proof.Gen.KernelIdeal
import proofs.«171039_j65670049956214_2_alg».proof.Proof.Gen.ReferenceIdeal
import proofs.«171039_j65670049956214_2_alg».proof.Proof.Gen.Pre_finite_inputs
import proofs.«171039_j65670049956214_2_alg».proof.Proof.Gen.ReferenceIdeal.Run
import proofs.«171039_j65670049956214_2_alg».proof.Proof.Gen.ReferenceIdeal.Read
import proofs.«171039_j65670049956214_2_alg».proof.Proof.BitsFrame.Frame
import proofs.«171039_j65670049956214_2_alg».proof.Proof.IdealFrame.KernelValue
import proofs.«171039_j65670049956214_2_alg».proof.Proof.RefSide
import proofs.«171039_j65670049956214_2_alg».proof.Proof.Finite
import Idealize.ShloMosaic.Adequacy
import Idealize.ShloMosaic.Init

noncomputable section

namespace Cert.Proof

open Idealize.ShloMosaic Idealize.SL.Sem

/-- The word-level kernel runs and leaves its arguments unchanged. -/
theorem frame_p : Cert.frame_Kernel := fun m ρ _ => Cert.Kernel.Hand.frame m ρ

/-- So does the kernel at the extended reals. -/
theorem frame_pi : Cert.frame_KernelIdeal := fun m ρ _ => Cert.KernelIdeal.Hand.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments, every one of them finite, both programs end with the loss of the
    arguments: the kernel through the table of row sums, the reference by the real algebra of the scaled target. -/
theorem algebraic : Cert.algebraic_KernelIdeal_ReferenceIdeal := by
  intro m ρ m' ρ' hpre hagree
  refine ⟨fun c => fun _ => PitSiSdr.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.kernel_run m ρ, ?_⟩
  refine (θ_run Cert.ReferenceIdeal.defs _ _).mono (fun _ h c => ⟨?_, (h c).2⟩)
    (Cert.ReferenceIdeal.Value.run (F := Ideal) m' ρ')
  obtain ⟨hP, hT1, hT2⟩ := Cert.Finite.real_of_pre _ _ _ (hpre c)
  rw [(h c).1, Cert.ReferenceIdeal.Read.val_main_v69_eq, (hagree c).1, (hagree c).2.1, (hagree c).2.2,
    Cert.ReferenceIdeal.RefValue.result_eq _ _ _ hP hT1 hT2]
  rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
